-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x5000000 : Shape := ⟨2, ![2, 5000000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x5000000 32) (main_arg2 : FVec F S1x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x1 : Shape := ⟨2, ![100000, 1]⟩
abbrev S2x5000000 : Shape := ⟨2, ![2, 5000000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S100000 : Shape := ⟨1, ![100000]⟩
abbrev S1x5000000 : Shape := ⟨2, ![1, 5000000]⟩
abbrev S5000000 : Shape := ⟨1, ![5000000]⟩
abbrev S5100000 : Shape := ⟨1, ![5100000]⟩
abbrev S_ : Shape := ⟨0, ![]⟩
abbrev S5100000x1 : Shape := ⟨2, ![5100000, 1]⟩
abbrev S3616 : Shape := ⟨1, ![3616]⟩
abbrev S5103616 : Shape := ⟨1, ![5103616]⟩
abbrev S5103616x1 : Shape := ⟨2, ![5103616, 1]⟩
abbrev S100000x16 : Shape := ⟨2, ![100000, 16]⟩
abbrev S10000x1 : Shape := ⟨2, ![10000, 1]⟩
abbrev S10000x16 : Shape := ⟨2, ![10000, 16]⟩
abbrev S5103616x16 : Shape := ⟨2, ![5103616, 16]⟩
abbrev S8192x16 : Shape := ⟨2, ![8192, 16]⟩
abbrev S8192x1 : Shape := ⟨2, ![8192, 1]⟩
abbrev S1x1 : Shape := ⟨2, ![1, 1]⟩

abbrev nBuf : Space → Nat
  | .hbm => 213
  | .vmem => 134
  | .smem => 0
  | _ => 0

abbrev hbmTy0_0 (i : Nat) : BufTy := match i % 128 with
  | 0 => ⟨S100000x1, .f32⟩
  | 1 => ⟨S2x5000000, .i32⟩
  | 2 => ⟨S1x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S100000, .i32⟩
  | 9 => ⟨S1x5000000, .i32⟩
  | 10 => ⟨S5000000, .i32⟩
  | 11 => ⟨S5100000, .i32⟩
  | 12 => ⟨S1x5000000, .i32⟩
  | 13 => ⟨S5000000, .i32⟩
  | 14 => ⟨S5100000, .i32⟩
  | 15 => ⟨S_, .f32⟩
  | 16 => ⟨S5100000, .f32⟩
  | 17 => ⟨S_, .f32⟩
  | 18 => ⟨S100000, .f32⟩
  | 19 => ⟨S5100000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S5100000, .i32⟩
  | 31 => ⟨S5100000, .i1⟩
  | 32 => ⟨S_, .i32⟩
  | 33 => ⟨S5100000, .i32⟩
  | 34 => ⟨S5100000, .i32⟩
  | 35 => ⟨S5100000, .i32⟩
  | 36 => ⟨S5100000x1, .i32⟩
  | 37 => ⟨S5100000, .f32⟩
  | 38 => ⟨S_, .i32⟩
  | 39 => ⟨S5100000, .i32⟩
  | 40 => ⟨S5100000, .i1⟩
  | 41 => ⟨S_, .i32⟩
  | 42 => ⟨S5100000, .i32⟩
  | 43 => ⟨S5100000, .i32⟩
  | 44 => ⟨S5100000, .i32⟩
  | 45 => ⟨S5100000x1, .i32⟩
  | 46 => ⟨S5100000, .f32⟩
  | 47 => ⟨S5100000, .f32⟩
  | 48 => ⟨S_, .i32⟩
  | 49 => ⟨S3616, .i32⟩
  | 50 => ⟨S5103616, .i32⟩
  | 51 => ⟨S_, .i32⟩
  | 52 => ⟨S3616, .i32⟩
  | 53 => ⟨S5103616, .i32⟩
  | 54 => ⟨S_, .f32⟩
  | 55 => ⟨S3616, .f32⟩
  | 56 => ⟨S5103616, .f32⟩
  | 57 => ⟨S5103616x1, .f32⟩
  | 58 => ⟨S1x16, .f32⟩
  | 59 => ⟨S1x16, .f32⟩
  | 60 => ⟨S100000x16, .f32⟩
  | 61 => ⟨S_, .i32⟩
  | 62 => ⟨S5103616, .i32⟩
  | 63 => ⟨S5103616, .i1⟩
  | 64 => ⟨S_, .i32⟩
  | 65 => ⟨S5103616, .i32⟩
  | 66 => ⟨S5103616, .i32⟩
  | 67 => ⟨S5103616, .i32⟩
  | 68 => ⟨S5103616x1, .i32⟩
  | 69 => ⟨S5103616x16, .f32⟩
  | 70 => ⟨S5103616x16, .f32⟩
  | 71 => ⟨S_, .f32⟩
  | 72 => ⟨S100000x16, .f32⟩
  | 73 => ⟨S5103616x1, .i32⟩
  | 74 => ⟨S100000x16, .f32⟩
  | 75 => ⟨S100000x16, .f32⟩
  | 76 => ⟨S_, .i32⟩
  | 77 => ⟨S5103616, .i32⟩
  | 78 => ⟨S5103616, .i1⟩
  | 79 => ⟨S_, .i32⟩
  | 80 => ⟨S5103616, .i32⟩
  | 81 => ⟨S5103616, .i32⟩
  | 82 => ⟨S5103616, .i32⟩
  | 83 => ⟨S5103616x1, .i32⟩
  | 84 => ⟨S5103616x16, .f32⟩
  | 85 => ⟨S5103616x16, .f32⟩
  | 86 => ⟨S_, .f32⟩
  | 87 => ⟨S100000x16, .f32⟩
  | 88 => ⟨S5103616x1, .i32⟩
  | 89 => ⟨S100000x16, .f32⟩
  | 90 => ⟨S100000x16, .f32⟩
  | 91 => ⟨S_, .i32⟩
  | 92 => ⟨S5103616, .i32⟩
  | 93 => ⟨S5103616, .i1⟩
  | 94 => ⟨S_, .i32⟩
  | 95 => ⟨S5103616, .i32⟩
  | 96 => ⟨S5103616, .i32⟩
  | 97 => ⟨S5103616, .i32⟩
  | 98 => ⟨S5103616x1, .i32⟩
  | 99 => ⟨S5103616x16, .f32⟩
  | 100 => ⟨S5103616x16, .f32⟩
  | 101 => ⟨S_, .f32⟩
  | 102 => ⟨S100000x16, .f32⟩
  | 103 => ⟨S5103616x1, .i32⟩
  | 104 => ⟨S100000x16, .f32⟩
  | 105 => ⟨S100000x16, .f32⟩
  | 106 => ⟨S_, .i32⟩
  | 107 => ⟨S5103616, .i32⟩
  | 108 => ⟨S5103616, .i1⟩
  | 109 => ⟨S_, .i32⟩
  | 110 => ⟨S5103616, .i32⟩
  | 111 => ⟨S5103616, .i32⟩
  | 112 => ⟨S5103616, .i32⟩
  | 113 => ⟨S5103616x1, .i32⟩
  | 114 => ⟨S5103616x16, .f32⟩
  | 115 => ⟨S5103616x16, .f32⟩
  | 116 => ⟨S_, .f32⟩
  | 117 => ⟨S100000x16, .f32⟩
  | 118 => ⟨S5103616x1, .i32⟩
  | 119 => ⟨S100000x16, .f32⟩
  | 120 => ⟨S100000x16, .f32⟩
  | 121 => ⟨S_, .i32⟩
  | 122 => ⟨S5103616, .i32⟩
  | 123 => ⟨S5103616, .i1⟩
  | 124 => ⟨S_, .i32⟩
  | 125 => ⟨S5103616, .i32⟩
  | 126 => ⟨S5103616, .i32⟩
  | 127 => ⟨S5103616, .i32⟩
  | _ => ⟨S100000x1, .f32⟩

abbrev hbmTy0_1 (i : Nat) : BufTy := match i % 128 with
  | 0 => ⟨S5103616x1, .i32⟩
  | 1 => ⟨S5103616x16, .f32⟩
  | 2 => ⟨S5103616x16, .f32⟩
  | 3 => ⟨S_, .f32⟩
  | 4 => ⟨S100000x16, .f32⟩
  | 5 => ⟨S5103616x1, .i32⟩
  | 6 => ⟨S100000x16, .f32⟩
  | 7 => ⟨S100000x16, .f32⟩
  | 8 => ⟨S_, .i32⟩
  | 9 => ⟨S5103616, .i32⟩
  | 10 => ⟨S5103616, .i1⟩
  | 11 => ⟨S_, .i32⟩
  | 12 => ⟨S5103616, .i32⟩
  | 13 => ⟨S5103616, .i32⟩
  | 14 => ⟨S5103616, .i32⟩
  | 15 => ⟨S5103616x1, .i32⟩
  | 16 => ⟨S5103616x16, .f32⟩
  | 17 => ⟨S5103616x16, .f32⟩
  | 18 => ⟨S_, .f32⟩
  | 19 => ⟨S100000x16, .f32⟩
  | 20 => ⟨S5103616x1, .i32⟩
  | 21 => ⟨S100000x16, .f32⟩
  | 22 => ⟨S100000x16, .f32⟩
  | 23 => ⟨S_, .i32⟩
  | 24 => ⟨S5103616, .i32⟩
  | 25 => ⟨S5103616, .i1⟩
  | 26 => ⟨S_, .i32⟩
  | 27 => ⟨S5103616, .i32⟩
  | 28 => ⟨S5103616, .i32⟩
  | 29 => ⟨S5103616, .i32⟩
  | 30 => ⟨S5103616x1, .i32⟩
  | 31 => ⟨S5103616x16, .f32⟩
  | 32 => ⟨S5103616x16, .f32⟩
  | 33 => ⟨S_, .f32⟩
  | 34 => ⟨S100000x16, .f32⟩
  | 35 => ⟨S5103616x1, .i32⟩
  | 36 => ⟨S100000x16, .f32⟩
  | 37 => ⟨S100000x16, .f32⟩
  | 38 => ⟨S_, .i32⟩
  | 39 => ⟨S5103616, .i32⟩
  | 40 => ⟨S5103616, .i1⟩
  | 41 => ⟨S_, .i32⟩
  | 42 => ⟨S5103616, .i32⟩
  | 43 => ⟨S5103616, .i32⟩
  | 44 => ⟨S5103616, .i32⟩
  | 45 => ⟨S5103616x1, .i32⟩
  | 46 => ⟨S5103616x16, .f32⟩
  | 47 => ⟨S5103616x16, .f32⟩
  | 48 => ⟨S_, .f32⟩
  | 49 => ⟨S100000x16, .f32⟩
  | 50 => ⟨S5103616x1, .i32⟩
  | 51 => ⟨S100000x16, .f32⟩
  | 52 => ⟨S100000x16, .f32⟩
  | 53 => ⟨S_, .i32⟩
  | 54 => ⟨S5103616, .i32⟩
  | 55 => ⟨S5103616, .i1⟩
  | 56 => ⟨S_, .i32⟩
  | 57 => ⟨S5103616, .i32⟩
  | 58 => ⟨S5103616, .i32⟩
  | 59 => ⟨S5103616, .i32⟩
  | 60 => ⟨S5103616x1, .i32⟩
  | 61 => ⟨S5103616x16, .f32⟩
  | 62 => ⟨S5103616x16, .f32⟩
  | 63 => ⟨S_, .f32⟩
  | 64 => ⟨S100000x16, .f32⟩
  | 65 => ⟨S5103616x1, .i32⟩
  | 66 => ⟨S100000x16, .f32⟩
  | 67 => ⟨S100000x16, .f32⟩
  | 68 => ⟨S_, .i32⟩
  | 69 => ⟨S5103616, .i32⟩
  | 70 => ⟨S5103616, .i1⟩
  | 71 => ⟨S_, .i32⟩
  | 72 => ⟨S5103616, .i32⟩
  | 73 => ⟨S5103616, .i32⟩
  | 74 => ⟨S5103616, .i32⟩
  | 75 => ⟨S5103616x1, .i32⟩
  | 76 => ⟨S5103616x16, .f32⟩
  | 77 => ⟨S5103616x16, .f32⟩
  | 78 => ⟨S_, .f32⟩
  | 79 => ⟨S100000x16, .f32⟩
  | 80 => ⟨S5103616x1, .i32⟩
  | 81 => ⟨S100000x16, .f32⟩
  | 82 => ⟨S100000x16, .f32⟩
  | 83 => ⟨S1x1, .f32⟩
  | 84 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev vmemTy0_0 (i : Nat) : BufTy := match i % 128 with
  | 0 => ⟨S10000x1, .f32⟩
  | 1 => ⟨S10000x1, .f32⟩
  | 2 => ⟨S1x16, .f32⟩
  | 3 => ⟨S1x16, .f32⟩
  | 4 => ⟨S16x16, .f32⟩
  | 5 => ⟨S1x16, .f32⟩
  | 6 => ⟨S10000x16, .f32⟩
  | 7 => ⟨S10000x16, .f32⟩
  | 8 => ⟨S8192x16, .f32⟩
  | 9 => ⟨S8192x16, .f32⟩
  | 10 => ⟨S8192x1, .f32⟩
  | 11 => ⟨S8192x1, .f32⟩
  | 12 => ⟨S8192x16, .f32⟩
  | 13 => ⟨S8192x16, .f32⟩
  | 14 => ⟨S10000x16, .f32⟩
  | 15 => ⟨S10000x16, .f32⟩
  | 16 => ⟨S10000x16, .f32⟩
  | 17 => ⟨S10000x16, .f32⟩
  | 18 => ⟨S10000x16, .f32⟩
  | 19 => ⟨S10000x16, .f32⟩
  | 20 => ⟨S8192x16, .f32⟩
  | 21 => ⟨S8192x16, .f32⟩
  | 22 => ⟨S8192x1, .f32⟩
  | 23 => ⟨S8192x1, .f32⟩
  | 24 => ⟨S8192x16, .f32⟩
  | 25 => ⟨S8192x16, .f32⟩
  | 26 => ⟨S10000x16, .f32⟩
  | 27 => ⟨S10000x16, .f32⟩
  | 28 => ⟨S10000x16, .f32⟩
  | 29 => ⟨S10000x16, .f32⟩
  | 30 => ⟨S10000x16, .f32⟩
  | 31 => ⟨S10000x16, .f32⟩
  | 32 => ⟨S8192x16, .f32⟩
  | 33 => ⟨S8192x16, .f32⟩
  | 34 => ⟨S8192x1, .f32⟩
  | 35 => ⟨S8192x1, .f32⟩
  | 36 => ⟨S8192x16, .f32⟩
  | 37 => ⟨S8192x16, .f32⟩
  | 38 => ⟨S10000x16, .f32⟩
  | 39 => ⟨S10000x16, .f32⟩
  | 40 => ⟨S10000x16, .f32⟩
  | 41 => ⟨S10000x16, .f32⟩
  | 42 => ⟨S10000x16, .f32⟩
  | 43 => ⟨S10000x16, .f32⟩
  | 44 => ⟨S8192x16, .f32⟩
  | 45 => ⟨S8192x16, .f32⟩
  | 46 => ⟨S8192x1, .f32⟩
  | 47 => ⟨S8192x1, .f32⟩
  | 48 => ⟨S8192x16, .f32⟩
  | 49 => ⟨S8192x16, .f32⟩
  | 50 => ⟨S10000x16, .f32⟩
  | 51 => ⟨S10000x16, .f32⟩
  | 52 => ⟨S10000x16, .f32⟩
  | 53 => ⟨S10000x16, .f32⟩
  | 54 => ⟨S10000x16, .f32⟩
  | 55 => ⟨S10000x16, .f32⟩
  | 56 => ⟨S8192x16, .f32⟩
  | 57 => ⟨S8192x16, .f32⟩
  | 58 => ⟨S8192x1, .f32⟩
  | 59 => ⟨S8192x1, .f32⟩
  | 60 => ⟨S8192x16, .f32⟩
  | 61 => ⟨S8192x16, .f32⟩
  | 62 => ⟨S10000x16, .f32⟩
  | 63 => ⟨S10000x16, .f32⟩
  | 64 => ⟨S10000x16, .f32⟩
  | 65 => ⟨S10000x16, .f32⟩
  | 66 => ⟨S10000x16, .f32⟩
  | 67 => ⟨S10000x16, .f32⟩
  | 68 => ⟨S8192x16, .f32⟩
  | 69 => ⟨S8192x16, .f32⟩
  | 70 => ⟨S8192x1, .f32⟩
  | 71 => ⟨S8192x1, .f32⟩
  | 72 => ⟨S8192x16, .f32⟩
  | 73 => ⟨S8192x16, .f32⟩
  | 74 => ⟨S10000x16, .f32⟩
  | 75 => ⟨S10000x16, .f32⟩
  | 76 => ⟨S10000x16, .f32⟩
  | 77 => ⟨S10000x16, .f32⟩
  | 78 => ⟨S10000x16, .f32⟩
  | 79 => ⟨S10000x16, .f32⟩
  | 80 => ⟨S8192x16, .f32⟩
  | 81 => ⟨S8192x16, .f32⟩
  | 82 => ⟨S8192x1, .f32⟩
  | 83 => ⟨S8192x1, .f32⟩
  | 84 => ⟨S8192x16, .f32⟩
  | 85 => ⟨S8192x16, .f32⟩
  | 86 => ⟨S10000x16, .f32⟩
  | 87 => ⟨S10000x16, .f32⟩
  | 88 => ⟨S10000x16, .f32⟩
  | 89 => ⟨S10000x16, .f32⟩
  | 90 => ⟨S10000x16, .f32⟩
  | 91 => ⟨S10000x16, .f32⟩
  | 92 => ⟨S8192x16, .f32⟩
  | 93 => ⟨S8192x16, .f32⟩
  | 94 => ⟨S8192x1, .f32⟩
  | 95 => ⟨S8192x1, .f32⟩
  | 96 => ⟨S8192x16, .f32⟩
  | 97 => ⟨S8192x16, .f32⟩
  | 98 => ⟨S10000x16, .f32⟩
  | 99 => ⟨S10000x16, .f32⟩
  | 100 => ⟨S10000x16, .f32⟩
  | 101 => ⟨S10000x16, .f32⟩
  | 102 => ⟨S10000x16, .f32⟩
  | 103 => ⟨S10000x16, .f32⟩
  | 104 => ⟨S8192x16, .f32⟩
  | 105 => ⟨S8192x16, .f32⟩
  | 106 => ⟨S8192x1, .f32⟩
  | 107 => ⟨S8192x1, .f32⟩
  | 108 => ⟨S8192x16, .f32⟩
  | 109 => ⟨S8192x16, .f32⟩
  | 110 => ⟨S10000x16, .f32⟩
  | 111 => ⟨S10000x16, .f32⟩
  | 112 => ⟨S10000x16, .f32⟩
  | 113 => ⟨S10000x16, .f32⟩
  | 114 => ⟨S10000x16, .f32⟩
  | 115 => ⟨S10000x16, .f32⟩
  | 116 => ⟨S8192x16, .f32⟩
  | 117 => ⟨S8192x16, .f32⟩
  | 118 => ⟨S8192x1, .f32⟩
  | 119 => ⟨S8192x1, .f32⟩
  | 120 => ⟨S8192x16, .f32⟩
  | 121 => ⟨S8192x16, .f32⟩
  | 122 => ⟨S10000x16, .f32⟩
  | 123 => ⟨S10000x16, .f32⟩
  | 124 => ⟨S10000x16, .f32⟩
  | 125 => ⟨S10000x16, .f32⟩
  | 126 => ⟨S10000x16, .f32⟩
  | 127 => ⟨S10000x16, .f32⟩
  | _ => ⟨S100000x1, .f32⟩

abbrev vmemTy0_1 (i : Nat) : BufTy := match i % 128 with
  | 0 => ⟨S10000x16, .f32⟩
  | 1 => ⟨S10000x16, .f32⟩
  | 2 => ⟨S16x1, .f32⟩
  | 3 => ⟨S1x1, .f32⟩
  | 4 => ⟨S10000x1, .f32⟩
  | 5 => ⟨S10000x1, .f32⟩
  | _ => ⟨S100000x1, .f32⟩

abbrev vmemTy (i : Nat) : BufTy := match i / 128 with
  | 0 => vmemTy0_0 i
  | 1 => vmemTy0_1 i
  | _ => ⟨S100000x1, .f32⟩

abbrev bufTy : (tb : Table) → Fin (tcTables nBuf tb) → BufTy
  | .hbm, ⟨i, _⟩ => hbmTy i
  | .local _ .vmem, ⟨i, _⟩ => vmemTy i
  | _, _ => ⟨S100000x1, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_c_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_21 : Ref sig .tc := ⟨.hbm, 121, rfl⟩
abbrev main_v88 : Ref sig .tc := ⟨.hbm, 122, rfl⟩
abbrev main_v89 : Ref sig .tc := ⟨.hbm, 123, rfl⟩
abbrev main_c_22 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_23 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_24 : Ref sig .tc := ⟨.hbm, 136, rfl⟩
abbrev main_v100 : Ref sig .tc := ⟨.hbm, 137, rfl⟩
abbrev main_v101 : Ref sig .tc := ⟨.hbm, 138, rfl⟩
abbrev main_c_25 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_26 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_27 : Ref sig .tc := ⟨.hbm, 151, rfl⟩
abbrev main_v112 : Ref sig .tc := ⟨.hbm, 152, rfl⟩
abbrev main_v113 : Ref sig .tc := ⟨.hbm, 153, rfl⟩
abbrev main_c_28 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_29 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_30 : Ref sig .tc := ⟨.hbm, 166, rfl⟩
abbrev main_v124 : Ref sig .tc := ⟨.hbm, 167, rfl⟩
abbrev main_v125 : Ref sig .tc := ⟨.hbm, 168, rfl⟩
abbrev main_c_31 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_32 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_33 : Ref sig .tc := ⟨.hbm, 181, rfl⟩
abbrev main_v136 : Ref sig .tc := ⟨.hbm, 182, rfl⟩
abbrev main_v137 : Ref sig .tc := ⟨.hbm, 183, rfl⟩
abbrev main_c_34 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_35 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_36 : Ref sig .tc := ⟨.hbm, 196, rfl⟩
abbrev main_v148 : Ref sig .tc := ⟨.hbm, 197, rfl⟩
abbrev main_v149 : Ref sig .tc := ⟨.hbm, 198, rfl⟩
abbrev main_c_37 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_38 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg1_1 : Ref sig .tc := ⟨.vmem, 71, rfl⟩
abbrev cc11_stg2_0 : Ref sig .tc := ⟨.vmem, 72, rfl⟩
abbrev cc11_stg2_1 : Ref sig .tc := ⟨.vmem, 73, rfl⟩
abbrev cc12_stg0_0 : Ref sig .tc := ⟨.vmem, 74, rfl⟩
abbrev cc12_stg0_1 : Ref sig .tc := ⟨.vmem, 75, rfl⟩
abbrev cc12_stg1_0 : Ref sig .tc := ⟨.vmem, 76, rfl⟩
abbrev cc12_stg1_1 : Ref sig .tc := ⟨.vmem, 77, rfl⟩
abbrev cc12_stg2_0 : Ref sig .tc := ⟨.vmem, 78, rfl⟩
abbrev cc12_stg2_1 : Ref sig .tc := ⟨.vmem, 79, rfl⟩
abbrev cc13_stg0_0 : Ref sig .tc := ⟨.vmem, 80, rfl⟩
abbrev cc13_stg0_1 : Ref sig .tc := ⟨.vmem, 81, rfl⟩
abbrev cc13_stg1_0 : Ref sig .tc := ⟨.vmem, 82, rfl⟩
abbrev cc13_stg1_1 : Ref sig .tc := ⟨.vmem, 83, rfl⟩
abbrev cc13_stg2_0 : Ref sig .tc := ⟨.vmem, 84, rfl⟩
abbrev cc13_stg2_1 : Ref sig .tc := ⟨.vmem, 85, rfl⟩
abbrev cc14_stg0_0 : Ref sig .tc := ⟨.vmem, 86, rfl⟩
abbrev cc14_stg0_1 : Ref sig .tc := ⟨.vmem, 87, rfl⟩
abbrev cc14_stg1_0 : Ref sig .tc := ⟨.vmem, 88, rfl⟩
abbrev cc14_stg1_1 : Ref sig .tc := ⟨.vmem, 89, rfl⟩
abbrev cc14_stg2_0 : Ref sig .tc := ⟨.vmem, 90, rfl⟩
abbrev cc14_stg2_1 : Ref sig .tc := ⟨.vmem, 91, rfl⟩
abbrev cc15_stg0_0 : Ref sig .tc := ⟨.vmem, 92, rfl⟩
abbrev cc15_stg0_1 : Ref sig .tc := ⟨.vmem, 93, rfl⟩
abbrev cc15_stg1_0 : Ref sig .tc := ⟨.vmem, 94, rfl⟩
abbrev cc15_stg1_1 : Ref sig .tc := ⟨.vmem, 95, rfl⟩
abbrev cc15_stg2_0 : Ref sig .tc := ⟨.vmem, 96, rfl⟩
abbrev cc15_stg2_1 : Ref sig .tc := ⟨.vmem, 97, rfl⟩
abbrev cc16_stg0_0 : Ref sig .tc := ⟨.vmem, 98, rfl⟩
abbrev cc16_stg0_1 : Ref sig .tc := ⟨.vmem, 99, rfl⟩
abbrev cc16_stg1_0 : Ref sig .tc := ⟨.vmem, 100, rfl⟩
abbrev cc16_stg1_1 : Ref sig .tc := ⟨.vmem, 101, rfl⟩
abbrev cc16_stg2_0 : Ref sig .tc := ⟨.vmem, 102, rfl⟩
abbrev cc16_stg2_1 : Ref sig .tc := ⟨.vmem, 103, rfl⟩
abbrev cc17_stg0_0 : Ref sig .tc := ⟨.vmem, 104, rfl⟩
abbrev cc17_stg0_1 : Ref sig .tc := ⟨.vmem, 105, rfl⟩
abbrev cc17_stg1_0 : Ref sig .tc := ⟨.vmem, 106, rfl⟩
abbrev cc17_stg1_1 : Ref sig .tc := ⟨.vmem, 107, rfl⟩
abbrev cc17_stg2_0 : Ref sig .tc := ⟨.vmem, 108, rfl⟩
abbrev cc17_stg2_1 : Ref sig .tc := ⟨.vmem, 109, rfl⟩
abbrev cc18_stg0_0 : Ref sig .tc := ⟨.vmem, 110, rfl⟩
abbrev cc18_stg0_1 : Ref sig .tc := ⟨.vmem, 111, rfl⟩
abbrev cc18_stg1_0 : Ref sig .tc := ⟨.vmem, 112, rfl⟩
abbrev cc18_stg1_1 : Ref sig .tc := ⟨.vmem, 113, rfl⟩
abbrev cc18_stg2_0 : Ref sig .tc := ⟨.vmem, 114, rfl⟩
abbrev cc18_stg2_1 : Ref sig .tc := ⟨.vmem, 115, rfl⟩
abbrev cc19_stg0_0 : Ref sig .tc := ⟨.vmem, 116, rfl⟩
abbrev cc19_stg0_1 : Ref sig .tc := ⟨.vmem, 117, rfl⟩
abbrev cc19_stg1_0 : Ref sig .tc := ⟨.vmem, 118, rfl⟩
abbrev cc19_stg1_1 : Ref sig .tc := ⟨.vmem, 119, rfl⟩
abbrev cc19_stg2_0 : Ref sig .tc := ⟨.vmem, 120, rfl⟩
abbrev cc19_stg2_1 : Ref sig .tc := ⟨.vmem, 121, rfl⟩
abbrev cc20_stg0_0 : Ref sig .tc := ⟨.vmem, 122, rfl⟩
abbrev cc20_stg0_1 : Ref sig .tc := ⟨.vmem, 123, rfl⟩
abbrev cc20_stg1_0 : Ref sig .tc := ⟨.vmem, 124, rfl⟩
abbrev cc20_stg1_1 : Ref sig .tc := ⟨.vmem, 125, rfl⟩
abbrev cc20_stg2_0 : Ref sig .tc := ⟨.vmem, 126, rfl⟩
abbrev cc20_stg2_1 : Ref sig .tc := ⟨.vmem, 127, rfl⟩
abbrev cc21_stg0_0 : Ref sig .tc := ⟨.vmem, 128, rfl⟩
abbrev cc21_stg0_1 : Ref sig .tc := ⟨.vmem, 129, rfl⟩
abbrev cc21_stg1_0 : Ref sig .tc := ⟨.vmem, 130, rfl⟩
abbrev cc21_stg2_0 : Ref sig .tc := ⟨.vmem, 131, rfl⟩
abbrev cc21_stg3_0 : Ref sig .tc := ⟨.vmem, 132, rfl⟩
abbrev cc21_stg3_1 : Ref sig .tc := ⟨.vmem, 133, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67
abbrev cc11_sem0_0 : DmaSem sig := 68
abbrev cc11_sem0_1 : DmaSem sig := 69
abbrev cc11_sem1_0 : DmaSem sig := 70
abbrev cc11_sem1_1 : DmaSem sig := 71
abbrev cc11_sem2_0 : DmaSem sig := 72
abbrev cc11_sem2_1 : DmaSem sig := 73
abbrev cc12_sem0_0 : DmaSem sig := 74
abbrev cc12_sem0_1 : DmaSem sig := 75
abbrev cc12_sem1_0 : DmaSem sig := 76
abbrev cc12_sem1_1 : DmaSem sig := 77
abbrev cc12_sem2_0 : DmaSem sig := 78
abbrev cc12_sem2_1 : DmaSem sig := 79
abbrev cc13_sem0_0 : DmaSem sig := 80
abbrev cc13_sem0_1 : DmaSem sig := 81
abbrev cc13_sem1_0 : DmaSem sig := 82
abbrev cc13_sem1_1 : DmaSem sig := 83
abbrev cc13_sem2_0 : DmaSem sig := 84
abbrev cc13_sem2_1 : DmaSem sig := 85
abbrev cc14_sem0_0 : DmaSem sig := 86
abbrev cc14_sem0_1 : DmaSem sig := 87
abbrev cc14_sem1_0 : DmaSem sig := 88
abbrev cc14_sem1_1 : DmaSem sig := 89
abbrev cc14_sem2_0 : DmaSem sig := 90
abbrev cc14_sem2_1 : DmaSem sig := 91
abbrev cc15_sem0_0 : DmaSem sig := 92
abbrev cc15_sem0_1 : DmaSem sig := 93
abbrev cc15_sem1_0 : DmaSem sig := 94
abbrev cc15_sem1_1 : DmaSem sig := 95
abbrev cc15_sem2_0 : DmaSem sig := 96
abbrev cc15_sem2_1 : DmaSem sig := 97
abbrev cc16_sem0_0 : DmaSem sig := 98
abbrev cc16_sem0_1 : DmaSem sig := 99
abbrev cc16_sem1_0 : DmaSem sig := 100
abbrev cc16_sem1_1 : DmaSem sig := 101
abbrev cc16_sem2_0 : DmaSem sig := 102
abbrev cc16_sem2_1 : DmaSem sig := 103
abbrev cc17_sem0_0 : DmaSem sig := 104
abbrev cc17_sem0_1 : DmaSem sig := 105
abbrev cc17_sem1_0 : DmaSem sig := 106
abbrev cc17_sem1_1 : DmaSem sig := 107
abbrev cc17_sem2_0 : DmaSem sig := 108
abbrev cc17_sem2_1 : DmaSem sig := 109
abbrev cc18_sem0_0 : DmaSem sig := 110
abbrev cc18_sem0_1 : DmaSem sig := 111
abbrev cc18_sem1_0 : DmaSem sig := 112
abbrev cc18_sem1_1 : DmaSem sig := 113
abbrev cc18_sem2_0 : DmaSem sig := 114
abbrev cc18_sem2_1 : DmaSem sig := 115
abbrev cc19_sem0_0 : DmaSem sig := 116
abbrev cc19_sem0_1 : DmaSem sig := 117
abbrev cc19_sem1_0 : DmaSem sig := 118
abbrev cc19_sem1_1 : DmaSem sig := 119
abbrev cc19_sem2_0 : DmaSem sig := 120
abbrev cc19_sem2_1 : DmaSem sig := 121
abbrev cc20_sem0_0 : DmaSem sig := 122
abbrev cc20_sem0_1 : DmaSem sig := 123
abbrev cc20_sem1_0 : DmaSem sig := 124
abbrev cc20_sem1_1 : DmaSem sig := 125
abbrev cc20_sem2_0 : DmaSem sig := 126
abbrev cc20_sem2_1 : DmaSem sig := 127
abbrev cc21_sem0_0 : DmaSem sig := 128
abbrev cc21_sem0_1 : DmaSem sig := 129
abbrev cc21_sem1_0 : DmaSem sig := 130
abbrev cc21_sem2_0 : DmaSem sig := 131
abbrev cc21_sem3_0 : DmaSem sig := 132
abbrev cc21_sem3_1 : DmaSem sig := 133

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![623], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![623], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![623], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![623], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8192x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![623], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8192x16 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x16 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x16 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![623], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8192x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S8192x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x16 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x16 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x16 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![623], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8192x16 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8192x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8192x16 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x16 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x16 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S10000x16 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![623], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S8192x16 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S8192x1 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S8192x16 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x16 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x16 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S10000x16 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![623], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S8192x16 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S8192x1 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S8192x16 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x16 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S10000x16 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S10000x16 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![623], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S8192x16 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S8192x1 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S8192x16 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x16 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S10000x16 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S10000x16 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S10000x16 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S16x1 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x1 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S10000x1 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

class Facts₀ : Prop where
  slices_S2x5000000_S1x5000000_0_0 : S2x5000000.Slices ![0, 0] S1x5000000
  shapeCasts_S1x5000000_S5000000 : S1x5000000.ShapeCasts S5000000
  concatenates_S5000000_S100000_S5100000_d0 : Shape.Concatenates [S5000000, S100000] S5100000 0
  slices_S2x5000000_S1x5000000_1_0 : S2x5000000.Slices ![1, 0] S1x5000000
  bcast_S_S5100000 : S_.BroadcastsInDim S5100000 (![] : Fin 0 → Fin S5100000.rank)
  bcast_S_S100000 : S_.BroadcastsInDim S100000 (![] : Fin 0 → Fin S100000.rank)
  bcast_S5100000_S5100000x1_0 : S5100000.BroadcastsInDim S5100000x1 (![0] : Fin 1 → Fin S5100000x1.rank)
  bcast_S_S3616 : S_.BroadcastsInDim S3616 (![] : Fin 0 → Fin S3616.rank)
  concatenates_S5100000_S3616_S5103616_d0 : Shape.Concatenates [S5100000, S3616] S5103616 0
  shapeCasts_S5103616_S5103616x1 : S5103616.ShapeCasts S5103616x1
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S10000x16_S10000x16_0_0 : ∀ a, (![0, 0] : Fin 2 → Nat) a + S10000x16.size a ≤ S10000x16.size a
  h_S10000x16 : 0 < S10000x16.numel
  bcast_S_S5103616 : S_.BroadcastsInDim S5103616 (![] : Fin 0 → Fin S5103616.rank)
  bcast_S5103616_S5103616x1_0 : S5103616.BroadcastsInDim S5103616x1 (![0] : Fin 1 → Fin S5103616x1.rank)
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x16 : S8192x1.Broadcasts S8192x16
  bcast_S_S100000x16 : S_.BroadcastsInDim S100000x16 (![] : Fin 0 → Fin S100000x16.rank)
  shapeCasts_S10000x16_S10000x16 : S10000x16.ShapeCasts S10000x16
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S5100000x1_S5100000_n_0_0_1_wf : ScatterDims.WF S100000 S5100000x1 S5100000 [] [0] [0] 1
  gather_S100000_S5100000x1_S5100000_n_0_n_n_0_1_1_wf : GatherDims.WF S100000 S5100000x1 S5100000 [] [0] [] [0] [] 1 ![1]
  dot_S10000x1_S1x16_S10000x16_1_0_0_1_n_n_wf : DotDims.WF S10000x1 S1x16 S10000x16 [1] [0] [0] [1] [] []
  dot_S10000x16_S16x16_S10000x16_1_0_0_1_n_n_wf : DotDims.WF S10000x16 S16x16 S10000x16 [1] [0] [0] [1] [] []
  gather_S100000x16_S5103616x1_S5103616x16_1_0_n_n_0_1_116_wf : GatherDims.WF S100000x16 S5103616x1 S5103616x16 [1] [0] [] [0] [] 1 ![1, 16]
  scatter_S100000x16_S5103616x1_S5103616x16_1_0_0_1_wf : ScatterDims.WF S100000x16 S5103616x1 S5103616x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S5103616x16.size a
  hwx1_0 : ∀ i : grid1.Coords, EltTy.bits .f32 = 32 ∨ (Rect.block (s := S5103616x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S5103616x1.size a
  hwx1_1 : ∀ i : grid1.Coords, EltTy.bits .f32 = 32 ∨ (Rect.block (s := S5103616x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S5103616x16.size a
  hwx1_2 : ∀ i : grid1.Coords, EltTy.bits .f32 = 32 ∨ (Rect.block (s := S5103616x16) S8192x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x16.size a ≤ S5103616x16.size a
  hwx3_0 : ∀ i : grid3.Coords, EltTy.bits .f32 = 32 ∨ (Rect.block (s := S5103616x16) S8192x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S5103616x1.size a
  hwx3_1 : ∀ i : grid3.Coords, EltTy.bits .f32 = 32 ∨ (Rect.block (s := S5103616x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x16.size a ≤ S5103616x16.size a
  hwx3_2 : ∀ i : grid3.Coords, EltTy.bits .f32 = 32 ∨ (Rect.block (s := S5103616x16) S8192x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x16.size a ≤ S100000x16.size a
  hwx4_1 : ∀ i : grid4.Coords, EltTy.bits .f32 = 32 ∨ (Rect.block (s := S100000x16) S10000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x16.size a ≤ S5103616x16.size a
  hwx5_0 : ∀ i : grid5.Coords, EltTy.bits .f32 = 32 ∨ (Rect.block (s := S5103616x16) S8192x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x1.size a ≤ S5103616x1.size a
  hwx5_1 : ∀ i : grid5.Coords, EltTy.bits .f32 = 32 ∨ (Rect.block (s := S5103616x1) S8192x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x16.size a ≤ S5103616x16.size a
  hwx5_2 : ∀ i : grid5.Coords, EltTy.bits .f32 = 32 ∨ (Rect.block (s := S5103616x16) S8192x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x16.size a ≤ S100000x16.size a
  hwx6_0 : ∀ i : grid6.Coords, EltTy.bits .f32 = 32 ∨ (Rect.block (s := S100000x16) S10000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x16.size a ≤ S100000x16.size a
  hwx6_1 : ∀ i : grid6.Coords, EltTy.bits .f32 = 32 ∨ (Rect.block (s := S100000x16) S10000x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x16.size a ≤ S100000x16.size a
  hwx6_2 : ∀ i : grid6.Coords, EltTy.bits .f32 = 32 ∨ (Rect.block (s := S100000x16) S10000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x16.size a ≤ S5103616x16.size a
  hwx7_0 : ∀ i : grid7.Coords, EltTy.bits .f32 = 32 ∨ (Rect.block (s := S5103616x16) S8192x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8192x1.size a ≤ S5103616x1.size a
  hwx7_1 : ∀ i : grid7.Coords, EltTy.bits .f32 = 32 ∨ (Rect.block (s := S5103616x1) S8192x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x16.size a ≤ S5103616x16.size a
  hwx7_2 : ∀ i : grid7.Coords, EltTy.bits .f32 = 32 ∨ (Rect.block (s := S5103616x16) S8192x16.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x16.size a ≤ S100000x16.size a
  hwx8_0 : ∀ i : grid8.Coords, EltTy.bits .f32 = 32 ∨ (Rect.block (s := S100000x16) S10000x16.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x16.size a ≤ S100000x16.size a
  hwx8_1 : ∀ i : grid8.Coords, EltTy.bits .f32 = 32 ∨ (Rect.block (s := S100000x16) S10000x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x16.size a ≤ S100000x16.size a
  hwx8_2 : ∀ i : grid8.Coords, EltTy.bits .f32 = 32 ∨ (Rect.block (s := S100000x16) S10000x16.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x16.size a ≤ S5103616x16.size a
  hwx9_0 : ∀ i : grid9.Coords, EltTy.bits .f32 = 32 ∨ (Rect.block (s := S5103616x16) S8192x16.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8192x1.size a ≤ S5103616x1.size a
  hwx9_1 : ∀ i : grid9.Coords, EltTy.bits .f32 = 32 ∨ (Rect.block (s := S5103616x1) S8192x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x16.size a ≤ S5103616x16.size a
  hwx9_2 : ∀ i : grid9.Coords, EltTy.bits .f32 = 32 ∨ (Rect.block (s := S5103616x16) S8192x16.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x16.size a ≤ S100000x16.size a
  hwx10_0 : ∀ i : grid10.Coords, EltTy.bits .f32 = 32 ∨ (Rect.block (s := S100000x16) S10000x16.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x16.size a ≤ S100000x16.size a
  hwx10_1 : ∀ i : grid10.Coords, EltTy.bits .f32 = 32 ∨ (Rect.block (s := S100000x16) S10000x16.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x16.size a ≤ S100000x16.size a
  hwx10_2 : ∀ i : grid10.Coords, EltTy.bits .f32 = 32 ∨ (Rect.block (s := S100000x16) S10000x16.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8192x16.size a ≤ S5103616x16.size a
  hwx11_0 : ∀ i : grid11.Coords, EltTy.bits .f32 = 32 ∨ (Rect.block (s := S5103616x16) S8192x16.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8192x1.size a ≤ S5103616x1.size a
  hwx11_1 : ∀ i : grid11.Coords, EltTy.bits .f32 = 32 ∨ (Rect.block (s := S5103616x1) S8192x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8192x16.size a ≤ S5103616x16.size a
  hwx11_2 : ∀ i : grid11.Coords, EltTy.bits .f32 = 32 ∨ (Rect.block (s := S5103616x16) S8192x16.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x16.size a ≤ S100000x16.size a
  hwx12_0 : ∀ i : grid12.Coords, EltTy.bits .f32 = 32 ∨ (Rect.block (s := S100000x16) S10000x16.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x16.size a ≤ S100000x16.size a
  hwx12_1 : ∀ i : grid12.Coords, EltTy.bits .f32 = 32 ∨ (Rect.block (s := S100000x16) S10000x16.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x16.size a ≤ S100000x16.size a
  hwx12_2 : ∀ i : grid12.Coords, EltTy.bits .f32 = 32 ∨ (Rect.block (s := S100000x16) S10000x16.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8192x16.size a ≤ S5103616x16.size a
  hwx13_0 : ∀ i : grid13.Coords, EltTy.bits .f32 = 32 ∨ (Rect.block (s := S5103616x16) S8192x16.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8192x1.size a ≤ S5103616x1.size a
  hwx13_1 : ∀ i : grid13.Coords, EltTy.bits .f32 = 32 ∨ (Rect.block (s := S5103616x1) S8192x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8192x16.size a ≤ S5103616x16.size a
  hwx13_2 : ∀ i : grid13.Coords, EltTy.bits .f32 = 32 ∨ (Rect.block (s := S5103616x16) S8192x16.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x16.size a ≤ S100000x16.size a
  hwx14_0 : ∀ i : grid14.Coords, EltTy.bits .f32 = 32 ∨ (Rect.block (s := S100000x16) S10000x16.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x16.size a ≤ S100000x16.size a
  hwx14_1 : ∀ i : grid14.Coords, EltTy.bits .f32 = 32 ∨ (Rect.block (s := S100000x16) S10000x16.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x16.size a ≤ S100000x16.size a
  hwx14_2 : ∀ i : grid14.Coords, EltTy.bits .f32 = 32 ∨ (Rect.block (s := S100000x16) S10000x16.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S8192x16.size a ≤ S5103616x16.size a
  hwx15_0 : ∀ i : grid15.Coords, EltTy.bits .f32 = 32 ∨ (Rect.block (s := S5103616x16) S8192x16.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S8192x1.size a ≤ S5103616x1.size a
  hwx15_1 : ∀ i : grid15.Coords, EltTy.bits .f32 = 32 ∨ (Rect.block (s := S5103616x1) S8192x1.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S8192x16.size a ≤ S5103616x16.size a
  hwx15_2 : ∀ i : grid15.Coords, EltTy.bits .f32 = 32 ∨ (Rect.block (s := S5103616x16) S8192x16.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x16.size a ≤ S100000x16.size a
  hwx16_0 : ∀ i : grid16.Coords, EltTy.bits .f32 = 32 ∨ (Rect.block (s := S100000x16) S10000x16.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x16.size a ≤ S100000x16.size a
  hwx16_1 : ∀ i : grid16.Coords, EltTy.bits .f32 = 32 ∨ (Rect.block (s := S100000x16) S10000x16.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x16.size a ≤ S100000x16.size a
  hwx16_2 : ∀ i : grid16.Coords, EltTy.bits .f32 = 32 ∨ (Rect.block (s := S100000x16) S10000x16.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S8192x16.size a ≤ S5103616x16.size a
  hwx17_0 : ∀ i : grid17.Coords, EltTy.bits .f32 = 32 ∨ (Rect.block (s := S5103616x16) S8192x16.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S8192x1.size a ≤ S5103616x1.size a
  hwx17_1 : ∀ i : grid17.Coords, EltTy.bits .f32 = 32 ∨ (Rect.block (s := S5103616x1) S8192x1.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S8192x16.size a ≤ S5103616x16.size a
  hwx17_2 : ∀ i : grid17.Coords, EltTy.bits .f32 = 32 ∨ (Rect.block (s := S5103616x16) S8192x16.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x16.size a ≤ S100000x16.size a
  hwx18_0 : ∀ i : grid18.Coords, EltTy.bits .f32 = 32 ∨ (Rect.block (s := S100000x16) S10000x16.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S10000x16.size a ≤ S100000x16.size a
  hwx18_1 : ∀ i : grid18.Coords, EltTy.bits .f32 = 32 ∨ (Rect.block (s := S100000x16) S10000x16.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S10000x16.size a ≤ S100000x16.size a
  hwx18_2 : ∀ i : grid18.Coords, EltTy.bits .f32 = 32 ∨ (Rect.block (s := S100000x16) S10000x16.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8192x16.size a ≤ S5103616x16.size a
  hwx19_0 : ∀ i : grid19.Coords, EltTy.bits .f32 = 32 ∨ (Rect.block (s := S5103616x16) S8192x16.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S8192x1.size a ≤ S5103616x1.size a
  hwx19_1 : ∀ i : grid19.Coords, EltTy.bits .f32 = 32 ∨ (Rect.block (s := S5103616x1) S8192x1.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S8192x16.size a ≤ S5103616x16.size a
  hwx19_2 : ∀ i : grid19.Coords, EltTy.bits .f32 = 32 ∨ (Rect.block (s := S5103616x16) S8192x16.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x16.size a ≤ S100000x16.size a
  hwx20_0 : ∀ i : grid20.Coords, EltTy.bits .f32 = 32 ∨ (Rect.block (s := S100000x16) S10000x16.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S10000x16.size a ≤ S100000x16.size a
  hwx20_1 : ∀ i : grid20.Coords, EltTy.bits .f32 = 32 ∨ (Rect.block (s := S100000x16) S10000x16.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S10000x16.size a ≤ S100000x16.size a
  hwx20_2 : ∀ i : grid20.Coords, EltTy.bits .f32 = 32 ∨ (Rect.block (s := S100000x16) S10000x16.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S10000x16.size a ≤ S100000x16.size a
  hwx21_0 : ∀ i : grid21.Coords, EltTy.bits .f32 = 32 ∨ (Rect.block (s := S100000x16) S10000x16.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S16x1.size a ≤ S16x1.size a
  hwx21_1 : ∀ i : grid21.Coords, EltTy.bits .f32 = 32 ∨ (Rect.block (s := S16x1) S16x1.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x1.size a ≤ S1x1.size a
  hwx21_2 : ∀ i : grid21.Coords, EltTy.bits .f32 = 32 ∨ (Rect.block (s := S1x1) S1x1.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S10000x1.size a ≤ S100000x1.size a
  hwx21_3 : ∀ i : grid21.Coords, EltTy.bits .f32 = 32 ∨ (Rect.block (s := S100000x1) S10000x1.size (cc21_transform_3 i) (hinb21_3 i)).WholeWords (EltTy.packing .f32)

variable [Facts₀]

def scatter_S100000_S5100000x1_S5100000_n_0_0_1 : ScatterDims S100000 S5100000x1 S5100000 where
  updateWindowDims := []
  insertedWindowDims := [0]
  scatterDimsToOperandDims := [0]
  indexVectorDim := 1
  wf := scatter_S100000_S5100000x1_S5100000_n_0_0_1_wf
def gather_S100000_S5100000x1_S5100000_n_0_n_n_0_1_1 : GatherDims S100000 S5100000x1 S5100000 where
  offsetDims := []
  collapsedSliceDims := [0]
  operandBatchingDims := []
  startIndicesBatchingDims := []
  startIndexMap := [0]
  indexVectorDim := 1
  sliceSizes := ![1]
  wf := gather_S100000_S5100000x1_S5100000_n_0_n_n_0_1_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S100000x16_S5103616x1_S5103616x16_1_0_n_n_0_1_116 : GatherDims S100000x16 S5103616x1 S5103616x16 where
  offsetDims := [1]
  collapsedSliceDims := [0]
  operandBatchingDims := []
  startIndicesBatchingDims := []
  startIndexMap := [0]
  indexVectorDim := 1
  sliceSizes := ![1, 16]
  wf := gather_S100000x16_S5103616x1_S5103616x16_1_0_n_n_0_1_116_wf
def scatter_S100000x16_S5103616x1_S5103616x16_1_0_0_1 : ScatterDims S100000x16 S5103616x1 S5103616x16 where
  updateWindowDims := [1]
  insertedWindowDims := [0]
  scatterDimsToOperandDims := [0]
  indexVectorDim := 1
  wf := scatter_S100000x16_S5103616x1_S5103616x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S8192x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S8192x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S10000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S8192x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S8192x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S8192x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S10000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S10000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S10000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v82) S8192x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v36) S8192x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v83) S8192x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v86) S10000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v39) S10000x16.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v87) S10000x16.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v94) S8192x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v36) S8192x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v95) S8192x16.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v98) S10000x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v39) S10000x16.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v99) S10000x16.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v106) S8192x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v36) S8192x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v107) S8192x16.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v110) S10000x16.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v39) S10000x16.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v111) S10000x16.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v118) S8192x16.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v36) S8192x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v119) S8192x16.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v122) S10000x16.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v39) S10000x16.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v123) S10000x16.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v130) S8192x16.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v36) S8192x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v131) S8192x16.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v134) S10000x16.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v39) S10000x16.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v135) S10000x16.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v142) S8192x16.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v36) S8192x1.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v143) S8192x16.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v146) S10000x16.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v39) S10000x16.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v147) S10000x16.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v154) S8192x16.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v36) S8192x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v155) S8192x16.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v158) S10000x16.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v39) S10000x16.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v159) S10000x16.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v159) S10000x16.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_arg6) S16x1.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v160) S1x1.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v161) S10000x1.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

class Facts : Prop extends Facts₀ where

variable [Facts]
-- ==== ReferenceIdeal.lean ====
abbrev S100000x1 : Shape := ⟨2, ![100000, 1]⟩
abbrev S2x5000000 : Shape := ⟨2, ![2, 5000000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S100000 : Shape := ⟨1, ![100000]⟩
abbrev S1x5000000 : Shape := ⟨2, ![1, 5000000]⟩
abbrev S5000000 : Shape := ⟨1, ![5000000]⟩
abbrev S5100000 : Shape := ⟨1, ![5100000]⟩
abbrev S_ : Shape := ⟨0, ![]⟩
abbrev S5100000x1 : Shape := ⟨2, ![5100000, 1]⟩
abbrev S100000x16 : Shape := ⟨2, ![100000, 16]⟩
abbrev S5100000x16 : Shape := ⟨2, ![5100000, 16]⟩
abbrev S1x1 : Shape := ⟨2, ![1, 1]⟩

abbrev nBuf : Space → Nat
  | .hbm => 296
  | .vmem => 0
  | .smem => 0
  | _ => 0

abbrev hbmTy0_0 (i : Nat) : BufTy := match i % 128 with
  | 0 => ⟨S100000x1, .f32⟩
  | 1 => ⟨S2x5000000, .i32⟩
  | 2 => ⟨S1x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S100000, .i32⟩
  | 9 => ⟨S1x5000000, .i32⟩
  | 10 => ⟨S5000000, .i32⟩
  | 11 => ⟨S5100000, .i32⟩
  | 12 => ⟨S1x5000000, .i32⟩
  | 13 => ⟨S5000000, .i32⟩
  | 14 => ⟨S5100000, .i32⟩
  | 15 => ⟨S_, .f32⟩
  | 16 => ⟨S5100000, .f32⟩
  | 17 => ⟨S_, .f32⟩
  | 18 => ⟨S100000, .f32⟩
  | 19 => ⟨S5100000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S5100000, .i32⟩
  | 31 => ⟨S5100000, .i1⟩
  | 32 => ⟨S_, .i32⟩
  | 33 => ⟨S5100000, .i32⟩
  | 34 => ⟨S5100000, .i32⟩
  | 35 => ⟨S5100000, .i32⟩
  | 36 => ⟨S5100000x1, .i32⟩
  | 37 => ⟨S5100000, .f32⟩
  | 38 => ⟨S_, .i32⟩
  | 39 => ⟨S5100000, .i32⟩
  | 40 => ⟨S5100000, .i1⟩
  | 41 => ⟨S_, .i32⟩
  | 42 => ⟨S5100000, .i32⟩
  | 43 => ⟨S5100000, .i32⟩
  | 44 => ⟨S5100000, .i32⟩
  | 45 => ⟨S5100000x1, .i32⟩
  | 46 => ⟨S5100000, .f32⟩
  | 47 => ⟨S5100000, .f32⟩
  | 48 => ⟨S100000x16, .f32⟩
  | 49 => ⟨S1x16, .f32⟩
  | 50 => ⟨S100000x16, .f32⟩
  | 51 => ⟨S100000x16, .f32⟩
  | 52 => ⟨S_, .f32⟩
  | 53 => ⟨S100000x16, .f32⟩
  | 54 => ⟨S100000x16, .f32⟩
  | 55 => ⟨S100000x16, .f32⟩
  | 56 => ⟨S1x16, .f32⟩
  | 57 => ⟨S100000x16, .f32⟩
  | 58 => ⟨S100000x16, .f32⟩
  | 59 => ⟨S_, .f32⟩
  | 60 => ⟨S100000x16, .f32⟩
  | 61 => ⟨S100000x16, .f32⟩
  | 62 => ⟨S_, .i32⟩
  | 63 => ⟨S5100000, .i32⟩
  | 64 => ⟨S5100000, .i1⟩
  | 65 => ⟨S_, .i32⟩
  | 66 => ⟨S5100000, .i32⟩
  | 67 => ⟨S5100000, .i32⟩
  | 68 => ⟨S5100000, .i32⟩
  | 69 => ⟨S5100000x1, .i32⟩
  | 70 => ⟨S5100000x16, .f32⟩
  | 71 => ⟨S5100000x1, .f32⟩
  | 72 => ⟨S5100000x16, .f32⟩
  | 73 => ⟨S5100000x16, .f32⟩
  | 74 => ⟨S_, .f32⟩
  | 75 => ⟨S100000x16, .f32⟩
  | 76 => ⟨S5100000x1, .i32⟩
  | 77 => ⟨S100000x16, .f32⟩
  | 78 => ⟨S_, .f32⟩
  | 79 => ⟨S100000x16, .f32⟩
  | 80 => ⟨S100000x16, .f32⟩
  | 81 => ⟨S_, .f32⟩
  | 82 => ⟨S100000x16, .f32⟩
  | 83 => ⟨S100000x16, .f32⟩
  | 84 => ⟨S100000x16, .f32⟩
  | 85 => ⟨S_, .i32⟩
  | 86 => ⟨S5100000, .i32⟩
  | 87 => ⟨S5100000, .i1⟩
  | 88 => ⟨S_, .i32⟩
  | 89 => ⟨S5100000, .i32⟩
  | 90 => ⟨S5100000, .i32⟩
  | 91 => ⟨S5100000, .i32⟩
  | 92 => ⟨S5100000x1, .i32⟩
  | 93 => ⟨S5100000x16, .f32⟩
  | 94 => ⟨S5100000x1, .f32⟩
  | 95 => ⟨S5100000x16, .f32⟩
  | 96 => ⟨S5100000x16, .f32⟩
  | 97 => ⟨S_, .f32⟩
  | 98 => ⟨S100000x16, .f32⟩
  | 99 => ⟨S5100000x1, .i32⟩
  | 100 => ⟨S100000x16, .f32⟩
  | 101 => ⟨S_, .f32⟩
  | 102 => ⟨S100000x16, .f32⟩
  | 103 => ⟨S100000x16, .f32⟩
  | 104 => ⟨S_, .f32⟩
  | 105 => ⟨S100000x16, .f32⟩
  | 106 => ⟨S100000x16, .f32⟩
  | 107 => ⟨S100000x16, .f32⟩
  | 108 => ⟨S_, .i32⟩
  | 109 => ⟨S5100000, .i32⟩
  | 110 => ⟨S5100000, .i1⟩
  | 111 => ⟨S_, .i32⟩
  | 112 => ⟨S5100000, .i32⟩
  | 113 => ⟨S5100000, .i32⟩
  | 114 => ⟨S5100000, .i32⟩
  | 115 => ⟨S5100000x1, .i32⟩
  | 116 => ⟨S5100000x16, .f32⟩
  | 117 => ⟨S5100000x1, .f32⟩
  | 118 => ⟨S5100000x16, .f32⟩
  | 119 => ⟨S5100000x16, .f32⟩
  | 120 => ⟨S_, .f32⟩
  | 121 => ⟨S100000x16, .f32⟩
  | 122 => ⟨S5100000x1, .i32⟩
  | 123 => ⟨S100000x16, .f32⟩
  | 124 => ⟨S_, .f32⟩
  | 125 => ⟨S100000x16, .f32⟩
  | 126 => ⟨S100000x16, .f32⟩
  | 127 => ⟨S_, .f32⟩
  | _ => ⟨S100000x1, .f32⟩

abbrev hbmTy0_1 (i : Nat) : BufTy := match i % 128 with
  | 0 => ⟨S100000x16, .f32⟩
  | 1 => ⟨S100000x16, .f32⟩
  | 2 => ⟨S100000x16, .f32⟩
  | 3 => ⟨S_, .i32⟩
  | 4 => ⟨S5100000, .i32⟩
  | 5 => ⟨S5100000, .i1⟩
  | 6 => ⟨S_, .i32⟩
  | 7 => ⟨S5100000, .i32⟩
  | 8 => ⟨S5100000, .i32⟩
  | 9 => ⟨S5100000, .i32⟩
  | 10 => ⟨S5100000x1, .i32⟩
  | 11 => ⟨S5100000x16, .f32⟩
  | 12 => ⟨S5100000x1, .f32⟩
  | 13 => ⟨S5100000x16, .f32⟩
  | 14 => ⟨S5100000x16, .f32⟩
  | 15 => ⟨S_, .f32⟩
  | 16 => ⟨S100000x16, .f32⟩
  | 17 => ⟨S5100000x1, .i32⟩
  | 18 => ⟨S100000x16, .f32⟩
  | 19 => ⟨S_, .f32⟩
  | 20 => ⟨S100000x16, .f32⟩
  | 21 => ⟨S100000x16, .f32⟩
  | 22 => ⟨S_, .f32⟩
  | 23 => ⟨S100000x16, .f32⟩
  | 24 => ⟨S100000x16, .f32⟩
  | 25 => ⟨S100000x16, .f32⟩
  | 26 => ⟨S_, .i32⟩
  | 27 => ⟨S5100000, .i32⟩
  | 28 => ⟨S5100000, .i1⟩
  | 29 => ⟨S_, .i32⟩
  | 30 => ⟨S5100000, .i32⟩
  | 31 => ⟨S5100000, .i32⟩
  | 32 => ⟨S5100000, .i32⟩
  | 33 => ⟨S5100000x1, .i32⟩
  | 34 => ⟨S5100000x16, .f32⟩
  | 35 => ⟨S5100000x1, .f32⟩
  | 36 => ⟨S5100000x16, .f32⟩
  | 37 => ⟨S5100000x16, .f32⟩
  | 38 => ⟨S_, .f32⟩
  | 39 => ⟨S100000x16, .f32⟩
  | 40 => ⟨S5100000x1, .i32⟩
  | 41 => ⟨S100000x16, .f32⟩
  | 42 => ⟨S_, .f32⟩
  | 43 => ⟨S100000x16, .f32⟩
  | 44 => ⟨S100000x16, .f32⟩
  | 45 => ⟨S_, .f32⟩
  | 46 => ⟨S100000x16, .f32⟩
  | 47 => ⟨S100000x16, .f32⟩
  | 48 => ⟨S100000x16, .f32⟩
  | 49 => ⟨S_, .i32⟩
  | 50 => ⟨S5100000, .i32⟩
  | 51 => ⟨S5100000, .i1⟩
  | 52 => ⟨S_, .i32⟩
  | 53 => ⟨S5100000, .i32⟩
  | 54 => ⟨S5100000, .i32⟩
  | 55 => ⟨S5100000, .i32⟩
  | 56 => ⟨S5100000x1, .i32⟩
  | 57 => ⟨S5100000x16, .f32⟩
  | 58 => ⟨S5100000x1, .f32⟩
  | 59 => ⟨S5100000x16, .f32⟩
  | 60 => ⟨S5100000x16, .f32⟩
  | 61 => ⟨S_, .f32⟩
  | 62 => ⟨S100000x16, .f32⟩
  | 63 => ⟨S5100000x1, .i32⟩
  | 64 => ⟨S100000x16, .f32⟩
  | 65 => ⟨S_, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .i32⟩
  | 73 => ⟨S5100000, .i32⟩
  | 74 => ⟨S5100000, .i1⟩
  | 75 => ⟨S_, .i32⟩
  | 76 => ⟨S5100000, .i32⟩
  | 77 => ⟨S5100000, .i32⟩
  | 78 => ⟨S5100000, .i32⟩
  | 79 => ⟨S5100000x1, .i32⟩
  | 80 => ⟨S5100000x16, .f32⟩
  | 81 => ⟨S5100000x1, .f32⟩
  | 82 => ⟨S5100000x16, .f32⟩
  | 83 => ⟨S5100000x16, .f32⟩
  | 84 => ⟨S_, .f32⟩
  | 85 => ⟨S100000x16, .f32⟩
  | 86 => ⟨S5100000x1, .i32⟩
  | 87 => ⟨S100000x16, .f32⟩
  | 88 => ⟨S_, .f32⟩
  | 89 => ⟨S100000x16, .f32⟩
  | 90 => ⟨S100000x16, .f32⟩
  | 91 => ⟨S_, .f32⟩
  | 92 => ⟨S100000x16, .f32⟩
  | 93 => ⟨S100000x16, .f32⟩
  | 94 => ⟨S100000x16, .f32⟩
  | 95 => ⟨S_, .i32⟩
  | 96 => ⟨S5100000, .i32⟩
  | 97 => ⟨S5100000, .i1⟩
  | 98 => ⟨S_, .i32⟩
  | 99 => ⟨S5100000, .i32⟩
  | 100 => ⟨S5100000, .i32⟩
  | 101 => ⟨S5100000, .i32⟩
  | 102 => ⟨S5100000x1, .i32⟩
  | 103 => ⟨S5100000x16, .f32⟩
  | 104 => ⟨S5100000x1, .f32⟩
  | 105 => ⟨S5100000x16, .f32⟩
  | 106 => ⟨S5100000x16, .f32⟩
  | 107 => ⟨S_, .f32⟩
  | 108 => ⟨S100000x16, .f32⟩
  | 109 => ⟨S5100000x1, .i32⟩
  | 110 => ⟨S100000x16, .f32⟩
  | 111 => ⟨S_, .f32⟩
  | 112 => ⟨S100000x16, .f32⟩
  | 113 => ⟨S100000x16, .f32⟩
  | 114 => ⟨S_, .f32⟩
  | 115 => ⟨S100000x16, .f32⟩
  | 116 => ⟨S100000x16, .f32⟩
  | 117 => ⟨S100000x16, .f32⟩
  | 118 => ⟨S_, .i32⟩
  | 119 => ⟨S5100000, .i32⟩
  | 120 => ⟨S5100000, .i1⟩
  | 121 => ⟨S_, .i32⟩
  | 122 => ⟨S5100000, .i32⟩
  | 123 => ⟨S5100000, .i32⟩
  | 124 => ⟨S5100000, .i32⟩
  | 125 => ⟨S5100000x1, .i32⟩
  | 126 => ⟨S5100000x16, .f32⟩
  | 127 => ⟨S5100000x1, .f32⟩
  | _ => ⟨S100000x1, .f32⟩

abbrev hbmTy0_2 (i : Nat) : BufTy := match i % 128 with
  | 0 => ⟨S5100000x16, .f32⟩
  | 1 => ⟨S5100000x16, .f32⟩
  | 2 => ⟨S_, .f32⟩
  | 3 => ⟨S100000x16, .f32⟩
  | 4 => ⟨S5100000x1, .i32⟩
  | 5 => ⟨S100000x16, .f32⟩
  | 6 => ⟨S_, .f32⟩
  | 7 => ⟨S100000x16, .f32⟩
  | 8 => ⟨S100000x16, .f32⟩
  | 9 => ⟨S_, .f32⟩
  | 10 => ⟨S100000x16, .f32⟩
  | 11 => ⟨S100000x16, .f32⟩
  | 12 => ⟨S100000x16, .f32⟩
  | 13 => ⟨S_, .i32⟩
  | 14 => ⟨S5100000, .i32⟩
  | 15 => ⟨S5100000, .i1⟩
  | 16 => ⟨S_, .i32⟩
  | 17 => ⟨S5100000, .i32⟩
  | 18 => ⟨S5100000, .i32⟩
  | 19 => ⟨S5100000, .i32⟩
  | 20 => ⟨S5100000x1, .i32⟩
  | 21 => ⟨S5100000x16, .f32⟩
  | 22 => ⟨S5100000x1, .f32⟩
  | 23 => ⟨S5100000x16, .f32⟩
  | 24 => ⟨S5100000x16, .f32⟩
  | 25 => ⟨S_, .f32⟩
  | 26 => ⟨S100000x16, .f32⟩
  | 27 => ⟨S5100000x1, .i32⟩
  | 28 => ⟨S100000x16, .f32⟩
  | 29 => ⟨S_, .f32⟩
  | 30 => ⟨S100000x16, .f32⟩
  | 31 => ⟨S100000x16, .f32⟩
  | 32 => ⟨S_, .f32⟩
  | 33 => ⟨S100000x16, .f32⟩
  | 34 => ⟨S100000x16, .f32⟩
  | 35 => ⟨S100000x16, .f32⟩
  | 36 => ⟨S100000x1, .f32⟩
  | 37 => ⟨S1x1, .f32⟩
  | 38 => ⟨S100000x1, .f32⟩
  | 39 => ⟨S100000x1, .f32⟩
  | _ => ⟨S100000x1, .f32⟩

abbrev hbmTy (i : Nat) : BufTy := match i / 128 with
  | 0 => hbmTy0_0 i
  | 1 => hbmTy0_1 i
  | 2 => hbmTy0_2 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_c_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_v108 : Ref sig .tc := ⟨.hbm, 149, rfl⟩
abbrev main_cst_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_c_27 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_28 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_29 : Ref sig .tc := ⟨.hbm, 170, rfl⟩
abbrev main_v125 : Ref sig .tc := ⟨.hbm, 171, rfl⟩
abbrev main_v126 : Ref sig .tc := ⟨.hbm, 172, rfl⟩
abbrev main_cst_30 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_c_31 : Ref sig .tc := ⟨.hbm, 177, rfl⟩
abbrev main_v130 : Ref sig .tc := ⟨.hbm, 178, rfl⟩
abbrev main_v131 : Ref sig .tc := ⟨.hbm, 179, rfl⟩
abbrev main_c_32 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_33 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_34 : Ref sig .tc := ⟨.hbm, 193, rfl⟩
abbrev main_v143 : Ref sig .tc := ⟨.hbm, 194, rfl⟩
abbrev main_v144 : Ref sig .tc := ⟨.hbm, 195, rfl⟩
abbrev main_cst_35 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_c_36 : Ref sig .tc := ⟨.hbm, 200, rfl⟩
abbrev main_v148 : Ref sig .tc := ⟨.hbm, 201, rfl⟩
abbrev main_v149 : Ref sig .tc := ⟨.hbm, 202, rfl⟩
abbrev main_c_37 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_38 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_cst_39 : Ref sig .tc := ⟨.hbm, 216, rfl⟩
abbrev main_v161 : Ref sig .tc := ⟨.hbm, 217, rfl⟩
abbrev main_v162 : Ref sig .tc := ⟨.hbm, 218, rfl⟩
abbrev main_cst_40 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_c_41 : Ref sig .tc := ⟨.hbm, 223, rfl⟩
abbrev main_v166 : Ref sig .tc := ⟨.hbm, 224, rfl⟩
abbrev main_v167 : Ref sig .tc := ⟨.hbm, 225, rfl⟩
abbrev main_c_42 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_43 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_44 : Ref sig .tc := ⟨.hbm, 239, rfl⟩
abbrev main_v179 : Ref sig .tc := ⟨.hbm, 240, rfl⟩
abbrev main_v180 : Ref sig .tc := ⟨.hbm, 241, rfl⟩
abbrev main_cst_45 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_46 : Ref sig .tc := ⟨.hbm, 246, rfl⟩
abbrev main_v184 : Ref sig .tc := ⟨.hbm, 247, rfl⟩
abbrev main_v185 : Ref sig .tc := ⟨.hbm, 248, rfl⟩
abbrev main_c_47 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_cst_48 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_cst_49 : Ref sig .tc := ⟨.hbm, 262, rfl⟩
abbrev main_v197 : Ref sig .tc := ⟨.hbm, 263, rfl⟩
abbrev main_v198 : Ref sig .tc := ⟨.hbm, 264, rfl⟩
abbrev main_cst_50 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_c_51 : Ref sig .tc := ⟨.hbm, 269, rfl⟩
abbrev main_v202 : Ref sig .tc := ⟨.hbm, 270, rfl⟩
abbrev main_v203 : Ref sig .tc := ⟨.hbm, 271, rfl⟩
abbrev main_c_52 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_cst_53 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_cst_54 : Ref sig .tc := ⟨.hbm, 285, rfl⟩
abbrev main_v215 : Ref sig .tc := ⟨.hbm, 286, rfl⟩
abbrev main_v216 : Ref sig .tc := ⟨.hbm, 287, rfl⟩
abbrev main_cst_55 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  concatenates_S5000000_S100000_S5100000_d0 : Shape.Concatenates [S5000000, S100000] S5100000 0
  slices_S2x5000000_S1x5000000_1_0 : S2x5000000.Slices ![1, 0] S1x5000000
  bcast_S_S5100000 : S_.BroadcastsInDim S5100000 (![] : Fin 0 → Fin S5100000.rank)
  bcast_S_S100000 : S_.BroadcastsInDim S100000 (![] : Fin 0 → Fin S100000.rank)
  bcast_S5100000_S5100000x1_0 : S5100000.BroadcastsInDim S5100000x1 (![0] : Fin 1 → Fin S5100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S5100000x1_S5100000x16_0_1 : S5100000x1.BroadcastsInDim S5100000x16 (![0, 1] : Fin 2 → Fin S5100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S5100000x1_S5100000_n_0_0_1_wf : ScatterDims.WF S100000 S5100000x1 S5100000 [] [0] [0] 1
  gather_S100000_S5100000x1_S5100000_n_0_n_n_0_1_1_wf : GatherDims.WF S100000 S5100000x1 S5100000 [] [0] [] [0] [] 1 ![1]
  dot_S100000x1_S1x16_S100000x16_1_0_0_1_n_n_wf : DotDims.WF S100000x1 S1x16 S100000x16 [1] [0] [0] [1] [] []
  dot_S100000x16_S16x16_S100000x16_1_0_0_1_n_n_wf : DotDims.WF S100000x16 S16x16 S100000x16 [1] [0] [0] [1] [] []
  gather_S100000x16_S5100000x1_S5100000x16_1_0_n_n_0_1_116_wf : GatherDims.WF S100000x16 S5100000x1 S5100000x16 [1] [0] [] [0] [] 1 ![1, 16]
  scatter_S100000x16_S5100000x1_S5100000x16_1_0_0_1_wf : ScatterDims.WF S100000x16 S5100000x1 S5100000x16 [1] [0] [0] 1
  dot_S100000x16_S16x1_S100000x1_1_0_0_1_n_n_wf : DotDims.WF S100000x16 S16x1 S100000x1 [1] [0] [0] [1] [] []

variable [Facts₀]

def scatter_S100000_S5100000x1_S5100000_n_0_0_1 : ScatterDims S100000 S5100000x1 S5100000 where
  updateWindowDims := []
  insertedWindowDims := [0]
  scatterDimsToOperandDims := [0]
  indexVectorDim := 1
  wf := scatter_S100000_S5100000x1_S5100000_n_0_0_1_wf
def gather_S100000_S5100000x1_S5100000_n_0_n_n_0_1_1 : GatherDims S100000 S5100000x1 S5100000 where
  offsetDims := []
  collapsedSliceDims := [0]
  operandBatchingDims := []
  startIndicesBatchingDims := []
  startIndexMap := [0]
  indexVectorDim := 1
  sliceSizes := ![1]
  wf := gather_S100000_S5100000x1_S5100000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S5100000x1_S5100000x16_1_0_n_n_0_1_116 : GatherDims S100000x16 S5100000x1 S5100000x16 where
  offsetDims := [1]
  collapsedSliceDims := [0]
  operandBatchingDims := []
  startIndicesBatchingDims := []
  startIndexMap := [0]
  indexVectorDim := 1
  sliceSizes := ![1, 16]
  wf := gather_S100000x16_S5100000x1_S5100000x16_1_0_n_n_0_1_116_wf
def scatter_S100000x16_S5100000x1_S5100000x16_1_0_0_1 : ScatterDims S100000x16 S5100000x1 S5100000x16 where
  updateWindowDims := [1]
  insertedWindowDims := [0]
  scatterDimsToOperandDims := [0]
  indexVectorDim := 1
  wf := scatter_S100000x16_S5100000x1_S5100000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel's run with its RESULT named.

  @main is 22 pipelined regions among stretches of host operations. The library's launch theorem for such a
  program (`Pipeline.θ_run_regions_kit`) ends in a thread state that holds every unscoped buffer at the contents
  of the LAST segment boundary, `Gen.W46`: a fold from the launch memory, one step per segment — a stretch of
  host operations applied (`StableHlo.after`), or a region's arrays replaced by what its write-backs leave.
  Reading that final state at the result buffer as well as at the eight arguments gives: every weakly fair
  execution terminates, nothing faulting, with the result at `Gen.W46 … main_v161` and the arguments unchanged.
  What `Gen.W46 … main_v161` is, as a function of the arguments, is the business of the value modules.
-/
import proofs.«177555_j3504693313563_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the eight arguments as launched. -/
theorem run_value : θ_run defs (onTc (τ := τ) (main (F := F))) ⟨m, fun _ => 0, ρ⟩ (fun r => ∀ c : Dev nD,
      r.2.mem ((c.tc : Thread nD τ).loc main_v161) = W46 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' initial one; no extra per-core resource is asked for
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      -- each segment's post is the next one's pre, literally: one reflexive entailment per boundary
      repeat' (first | exact fun _ => .rfl | apply And.intro))
    (hinit := by
      -- the first thread state: every unscoped buffer at its launch contents, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W46 m ρ c b)
    (hfin := fun c s' => by
      -- the last thread state holds every unscoped buffer at the last boundary's contents: read them all
      iintro ⟨⟨Hh, -⟩, HSI⟩
      unfold StableHlo.held
      imodintro
      iapply (pointsTo_read_all (Pipeline.ucRefs τ sig) (fun b => (((c : Thread nD τ)).1, b)) (W46 m ρ c) s')
      isplitl [Hh] <;> iassumption)
    (hQ := fun s h c =>
      ⟨h c _ (mem_uc main_v161 (by decide)),
       (h c _ (mem_uc main_arg0 (by decide))).trans (W46_main_arg0 m ρ c),
       (h c _ (mem_uc main_arg1 (by decide))).trans (W46_main_arg1 m ρ c),
       (h c _ (mem_uc main_arg2 (by decide))).trans (W46_main_arg2 m ρ c),
       (h c _ (mem_uc main_arg3 (by decide))).trans (W46_main_arg3 m ρ c),
       (h c _ (mem_uc main_arg4 (by decide))).trans (W46_main_arg4 m ρ c),
       (h c _ (mem_uc main_arg5 (by decide))).trans (W46_main_arg5 m ρ c),
       (h c _ (mem_uc main_arg6 (by decide))).trans (W46_main_arg6 m ρ c),
       (h c _ (mem_uc main_arg7 (by decide))).trans (W46_main_arg7 m ρ c)⟩)

end Cert.KernelIdeal.KRun

end
-- ==== Proof.KSpec.lean ====
/-
  The idealized kernel as whole-array functions on the extended reals.

  Each of the four pipelined kernels acts on a whole array the way its body acts on a block, because a block's rows are
  rows of the array and every body is row-wise:
  * `scaleG g w`     : messages — gathered feature rows times the row's edge weight, `g (e, c) · w (e, 0)`;
  * `combineG a h₀`  : the propagation step's mix `c₁ · a + c₂ · h₀` with the two printed float literals;
  * `encG`           : the two-layer rectified encoder of a node's scalar feature;
  * `readoutG`       : the final dense layer.
  One propagation step of the kernel's program, `kStep`, is: gather the rows of `h` at the (padded, sign-fixed) source
  numbers, scale by the (padded) edge weights, scatter-add into zeros at the (padded) destination numbers, mix with `h₀`.
-/
import proofs.«177555_j3504693313563_2_alg».proof.KernelIdeal
import proofs.«177555_j3504693313563_2_alg».proof.Proof.Gen.KernelIdeal
import Idealize.ShloMosaic.Lib.ValueIdx
import Idealize.ShloMosaic.PureOps.Ideal.Laws

noncomputable section

namespace Cert.KernelIdeal.KSpec

open Idealize.ShloMosaic Idealize.ShloMosaic.ValueIdx Cert.KernelIdeal Cert.KernelIdeal.Facts₀ Cert.KernelIdeal.Facts
open scoped BigOperators

/-- The first and second coordinate of a rank-2 index, at the literal extent. -/
abbrev row {a b : Nat} (i : (⟨2, ![a, b]⟩ : Shape).Idx) : Fin a := ⟨(i 0).val, idx2_lt0 i⟩
abbrev col {a b : Nat} (i : (⟨2, ![a, b]⟩ : Shape).Idx) : Fin b := ⟨(i 1).val, idx2_lt1 i⟩

/-- Messages: each gathered row times its edge weight. -/
def scaleG (g : S5103616x16.Idx → EReal) (w : S5103616x1.Idx → EReal) : S5103616x16.Idx → EReal :=
  fun i => g i * w (ix2 (row i) (0 : Fin 1))

/-- The propagation step's mix, with the float literals as printed. -/
def combineG (a h0 : S100000x16.Idx → EReal) : S100000x16.Idx → EReal :=
  fun i => Ideal.ofBits .f32 0x3F666666#32 * a i + Ideal.ofBits .f32 0x3DCCCCCD#32 * h0 i

/-- The encoder at node `p`, hidden unit `q`. -/
def encAt (x : S100000x1.Idx → EReal) (w1 b1 : S1x16.Idx → EReal) (w2 : S16x16.Idx → EReal) (b2 : S1x16.Idx → EReal)
    (p : Fin 100000) (q : Fin 16) : EReal :=
  max ((∑ k : Fin 16, max ((∑ j : Fin 1, x (ix2 p j) * w1 (ix2 j k)) + b1 (ix2 (0 : Fin 1) k))
        (Ideal.ofBits .f32 0x00000000#32) * w2 (ix2 k q)) + b2 (ix2 (0 : Fin 1) q))
    (Ideal.ofBits .f32 0x00000000#32)

def encG (x : S100000x1.Idx → EReal) (w1 b1 : S1x16.Idx → EReal) (w2 : S16x16.Idx → EReal) (b2 : S1x16.Idx → EReal) :
    S100000x16.Idx → EReal := fun i => encAt x w1 b1 w2 b2 (row i) (col i)

/-- The readout at node `p` (the one output column `u`). -/
def readoutAt (h : S100000x16.Idx → EReal) (w3 : S16x1.Idx → EReal) (b3 : S1x1.Idx → EReal) (p : Fin 100000) (u : Fin 1) : EReal :=
  (∑ k : Fin 16, h (ix2 p k) * w3 (ix2 k u)) + b3 (ix2 (0 : Fin 1) u)

def readoutG (h : S100000x16.Idx → EReal) (w3 : S16x1.Idx → EReal) (b3 : S1x1.Idx → EReal) : S100000x1.Idx → EReal :=
  fun i => readoutAt h w3 b3 (row i) (col i)

/-! ## The host chain both programs start with: edge numbers, degrees, edge weights -/

/-- The source numbers: row 0 of the edge list, then one self-loop per node. -/
def kSrc (ei : S2x5000000.Idx → BitVec 32) : S5100000.Idx → BitVec 32 :=
  concatenate S5100000 0
    [⟨S5000000, shapeCast S5000000 (extractStridedSlice S1x5000000 ![0, 0] ei slices_S2x5000000_S1x5000000_0_0)
        shapeCasts_S1x5000000_S5000000⟩, ⟨S100000, iotaInDim S100000 32 0⟩]
    concatenates_S5000000_S100000_S5100000_d0

/-- The destination numbers: row 1 of the edge list, then the self-loops. -/
def kDst (ei : S2x5000000.Idx → BitVec 32) : S5100000.Idx → BitVec 32 :=
  concatenate S5100000 0
    [⟨S5000000, shapeCast S5000000 (extractStridedSlice S1x5000000 ![1, 0] ei slices_S2x5000000_S1x5000000_1_0)
        shapeCasts_S1x5000000_S5000000⟩, ⟨S100000, iotaInDim S100000 32 0⟩]
    concatenates_S5000000_S100000_S5100000_d0

/-- numpy's reading of a possibly negative row number, `v < 0 ? v + 100000 : v`, entrywise. -/
def fixR (v : S5100000.Idx → BitVec 32) : S5100000.Idx → BitVec 32 :=
  select (cmpi .slt v (broadcastInDim S5100000 ![] bcast_S_S5100000 (constantI S_ 32 0#32)))
    (addi v (broadcastInDim S5100000 ![] bcast_S_S5100000 (constantI S_ 32 100000#32))) v

/-- In-degrees (self-loops included): ones scatter-added at the destination numbers. -/
def kDeg (ei : S2x5000000.Idx → BitVec 32) : FVec Ideal S100000 .f32 :=
  Host.scatterAdd (F := Ideal) scatter_S100000_S5100000x1_S5100000_n_0_0_1
    (broadcastInDim S100000 ![] bcast_S_S100000 (constant (F := Ideal) S_ .f32 0x00000000#32))
    (broadcastInDim S5100000x1 ![0] bcast_S5100000_S5100000x1_0 (kDst ei))
    (broadcastInDim S5100000 ![] bcast_S_S5100000 (constant (F := Ideal) S_ .f32 0x3F800000#32))

/-- `deg > 0 ? rsqrt deg : 0`. -/
def kDinv (ei : S2x5000000.Idx → BitVec 32) : FVec Ideal S100000 .f32 :=
  select (cmpf (F := Ideal) (φ := .f32) .ogt (kDeg ei) (broadcastInDim S100000 ![] bcast_S_S100000 (constant (F := Ideal) S_ .f32 0x00000000#32)))
    (Host.rsqrt (F := Ideal) (φ := .f32) (kDeg ei))
    (broadcastInDim S100000 ![] bcast_S_S100000 (id (constant (F := Ideal) S_ .f32 0x00000000#32)))

/-- The edge weights `dinv[src] · dinv[dst]`. -/
def kNorm (ei : S2x5000000.Idx → BitVec 32) : FVec Ideal S5100000 .f32 :=
  mulf (F := Ideal) (φ := .f32)
    (Host.gather gather_S100000_S5100000x1_S5100000_n_0_n_n_0_1_1 (kDinv ei)
      (broadcastInDim S5100000x1 ![0] bcast_S5100000_S5100000x1_0 (fixR (kSrc ei))))
    (Host.gather gather_S100000_S5100000x1_S5100000_n_0_n_n_0_1_1 (kDinv ei)
      (broadcastInDim S5100000x1 ![0] bcast_S5100000_S5100000x1_0 (fixR (kDst ei))))

/-- A list of 5100000 numbers padded with 3616 zeros. -/
def padI (v : S5100000.Idx → BitVec 32) : S5103616.Idx → BitVec 32 :=
  concatenate S5103616 0 [⟨S5100000, v⟩, ⟨S3616, broadcastInDim S3616 ![] bcast_S_S3616 (constantI S_ 32 0#32)⟩]
    concatenates_S5100000_S3616_S5103616_d0

/-- The edge weights padded with 3616 zeros, as a column. -/
def padW (v : S5100000.Idx → EReal) : S5103616x1.Idx → EReal :=
  shapeCast S5103616x1 (concatenate S5103616 0
    [⟨S5100000, v⟩, ⟨S3616, broadcastInDim S3616 ![] bcast_S_S3616 (constant (F := Ideal) S_ .f32 0x00000000#32)⟩]
    concatenates_S5100000_S3616_S5103616_d0) shapeCasts_S5103616_S5103616x1

/-- numpy's reading of a possibly negative row number: `v < 0 ? v + 100000 : v`, entrywise, on the padded list. -/
def fixP (v : S5103616.Idx → BitVec 32) : S5103616.Idx → BitVec 32 :=
  select (cmpi .slt v (broadcastInDim S5103616 ![] bcast_S_S5103616 (constantI S_ 32 0#32)))
    (addi v (broadcastInDim S5103616 ![] bcast_S_S5103616 (constantI S_ 32 100000#32))) v

/-- One propagation step of the kernel's program, from the padded source and destination numbers `srcp`, `dstp`, the
    padded edge weights `w2` as a column, the encoder's output `h0` and the current features `h`. -/
def kStep (srcp dstp : S5103616.Idx → BitVec 32) (w2 : S5103616x1.Idx → EReal) (h0 h : S100000x16.Idx → EReal) :
    S100000x16.Idx → EReal :=
  combineG
    (Host.scatterAdd (F := Ideal) scatter_S100000x16_S5103616x1_S5103616x16_1_0_0_1
      (broadcastInDim S100000x16 ![] bcast_S_S100000x16 (constant (F := Ideal) S_ .f32 0x00000000#32))
      (broadcastInDim S5103616x1 ![0] bcast_S5103616_S5103616x1_0 dstp)
      (scaleG (Host.gather gather_S100000x16_S5103616x1_S5103616x16_1_0_n_n_0_1_116 h
        (broadcastInDim S5103616x1 ![0] bcast_S5103616_S5103616x1_0 (fixP srcp))) w2))
    h0

end Cert.KernelIdeal.KSpec

end
-- ==== Proof.KPrefix.lean ====
/-
  What the launches find in the buffers that no launch and no later host operation writes.

  Before the first launch, @main computes from the edge list alone the source numbers, the destination numbers and the
  edge weights, pads each with 3616 zeros, and reshapes the two bias vectors to rows. Read back through the three
  stretches of host operations, the padded lists' buffers hold `padI (kSrc ei)`, `padI (kDst ei)`, `padW (kNorm ei)` of
  the edge list `ei` as launched, the bias rows hold the biases shape-cast, and the float arguments are as launched.
-/
import proofs.«177555_j3504693313563_2_alg».proof.Proof.Gen.KernelIdeal.Frame
import proofs.«177555_j3504693313563_2_alg».proof.Proof.KSpec

set_option maxRecDepth 16384

noncomputable section

namespace Cert.KernelIdeal.KValue

open Idealize.ShloMosaic Idealize.ShloMosaic.ValueIdx Idealize.ShloMosaic.TcCoe Idealize.SL.Sem Idealize.ShloMosaic.StableHlo
open Cert.KernelIdeal Cert.KernelIdeal.Facts₀ Cert.KernelIdeal.Facts Cert.KernelIdeal.Gen Cert.KernelIdeal.KSpec

variable (m : (ℓ : Loc nD τ sig) → Buf (Elt Ideal) ℓ) (ρ : Dev nD → PrngReg) (c : Dev nD)

/-- The edge list as launched. -/
abbrev ei : S2x5000000.Idx → BitVec 32 := m ((c : Thread nD τ).loc main_arg1)

/-- The padded source numbers, at the first launch's entry. -/
theorem srcp_entry : W3 m ρ c (Proc.devRef .tc main_v31) = padI (kSrc (ei m c)) := by
  dsimp only [W3, W2, W1, W0]
  after_results_simp
  rfl

/-- The padded destination numbers. -/
theorem dstp_entry : W3 m ρ c (Proc.devRef .tc main_v33) = padI (kDst (ei m c)) := by
  dsimp only [W3, W2, W1, W0]
  after_results_simp
  rfl

/-! The weights' chain is long: it is read one stretch at a time, each stretch from an ARBITRARY valuation before it. -/

section Stretches
variable (Wx : Valuation τ sig (Elt Ideal))

/-- The first stretch: the source and destination numbers, and the degree test's two branches. -/
theorem src0 : StableHlo.after hostOps0 Wx (Proc.devRef .tc main_v3) = kSrc (Wx (Proc.devRef .tc main_arg1)) := by
  after_results_simp
  rfl

theorem dst0 : StableHlo.after hostOps0 Wx (Proc.devRef .tc main_v6) = kDst (Wx (Proc.devRef .tc main_arg1)) := by
  after_results_simp
  rfl

theorem mask0 : StableHlo.after hostOps0 Wx (Proc.devRef .tc main_v12)
    = cmpf (F := Ideal) (φ := .f32) .ogt (kDeg (Wx (Proc.devRef .tc main_arg1)))
        (broadcastInDim S100000 ![] Facts₀.bcast_S_S100000 (constant (F := Ideal) S_ .f32 0x00000000#32)) := by
  after_results_simp
  rfl

theorem rsq0 : StableHlo.after hostOps0 Wx (Proc.devRef .tc main_v13)
    = Host.rsqrt (F := Ideal) (φ := .f32) (kDeg (Wx (Proc.devRef .tc main_arg1))) := by
  after_results_simp
  rfl

theorem zero0 : StableHlo.after hostOps0 Wx (Proc.devRef .tc main_cst_2) = constant (F := Ideal) S_ .f32 0x00000000#32 := by
  after_results_simp

/-- The second stretch (the outlined `where`): a select of the first stretch's values; it writes neither list. -/
theorem where1 : StableHlo.after hostOps0_1 Wx (Proc.devRef .tc main_v14)
    = select (Wx (Proc.devRef .tc main_v12)) (Wx (Proc.devRef .tc main_v13))
        (broadcastInDim S100000 ![] Facts₀.bcast_S_S100000 (id (Wx (Proc.devRef .tc main_cst_2)))) := by
  after_results
  rfl

theorem src1 : StableHlo.after hostOps0_1 Wx (Proc.devRef .tc main_v3) = Wx (Proc.devRef .tc main_v3) := by
  after_results

theorem dst1 : StableHlo.after hostOps0_1 Wx (Proc.devRef .tc main_v6) = Wx (Proc.devRef .tc main_v6) := by
  after_results

/-- The third stretch: the weights gathered, multiplied, padded and reshaped to a column. -/
theorem nrm_after : StableHlo.after hostOps0_2 Wx (Proc.devRef .tc main_v36)
    = padW (mulf (F := Ideal) (φ := .f32)
        (Host.gather gather_S100000_S5100000x1_S5100000_n_0_n_n_0_1_1 (Wx (Proc.devRef .tc main_v14))
          (broadcastInDim S5100000x1 ![0] Facts₀.bcast_S5100000_S5100000x1_0 (fixR (Wx (Proc.devRef .tc main_v3)))))
        (Host.gather gather_S100000_S5100000x1_S5100000_n_0_n_n_0_1_1 (Wx (Proc.devRef .tc main_v14))
          (broadcastInDim S5100000x1 ![0] Facts₀.bcast_S5100000_S5100000x1_0 (fixR (Wx (Proc.devRef .tc main_v6)))))) := by
  after_results_simp
  rfl

end Stretches

/-- The padded edge weights, as a column. -/
theorem nrm_entry : W3 m ρ c (Proc.devRef .tc main_v36) = padW (kNorm (ei m c)) := by
  have h14 : W2 m ρ c (Proc.devRef .tc main_v14) = kDinv (ei m c) := by
    refine (where1 (W1 m ρ c)).trans ?_
    rw [show W1 m ρ c (Proc.devRef .tc main_v12) = _ from mask0 (W0 m ρ c),
      show W1 m ρ c (Proc.devRef .tc main_v13) = _ from rsq0 (W0 m ρ c),
      show W1 m ρ c (Proc.devRef .tc main_cst_2) = _ from zero0 (W0 m ρ c)]
    rfl
  have h3 : W2 m ρ c (Proc.devRef .tc main_v3) = kSrc (ei m c) := (src1 (W1 m ρ c)).trans (src0 (W0 m ρ c))
  have h6 : W2 m ρ c (Proc.devRef .tc main_v6) = kDst (ei m c) := (dst1 (W1 m ρ c)).trans (dst0 (W0 m ρ c))
  refine (nrm_after (W2 m ρ c)).trans ?_
  rw [h14, h3, h6]
  rfl

/-- The bias rows. -/
theorem b1_entry : W3 m ρ c (Proc.devRef .tc main_v37)
    = shapeCast S1x16 (m ((c : Thread nD τ).loc main_arg3)) Facts₀.shapeCasts_S16_S1x16 := by
  dsimp only [W3, W2, W1, W0]
  after_results_simp
  rfl

theorem b2_entry : W3 m ρ c (Proc.devRef .tc main_v38)
    = shapeCast S1x16 (m ((c : Thread nD τ).loc main_arg5)) Facts₀.shapeCasts_S16_S1x16 := by
  dsimp only [W3, W2, W1, W0]
  after_results_simp
  rfl

/-- The float arguments the encoder reads. -/
theorem x_entry : W3 m ρ c (Proc.devRef .tc main_arg0) = m ((c : Thread nD τ).loc main_arg0) := by
  dsimp only [W3, W2, W1, W0]
  after_results_simp

theorem w1_entry : W3 m ρ c (Proc.devRef .tc main_arg2) = m ((c : Thread nD τ).loc main_arg2) := by
  dsimp only [W3, W2, W1, W0]
  after_results_simp

theorem w2_entry : W3 m ρ c (Proc.devRef .tc main_arg4) = m ((c : Thread nD τ).loc main_arg4) := by
  dsimp only [W3, W2, W1, W0]
  after_results_simp

end Cert.KernelIdeal.KValue

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibPlainDot.lean ====
/-
  The plain matrix product's dimension numbers, once.

  A product of an `[a, k]` matrix with a `[k, b]` matrix contracts the left operand's axis 1 with the right operand's
  axis 0 and has no batch axis: the record `<[1], [0], [0], [1], [], []>`. For that record — whatever the extents —
  the contraction index has one coordinate of extent `k`, and at result index `(p, q)` and contraction coordinate `i`
  the operands are read at `(p, i)` and `(i, q)`. So both the matrix unit's product into a zero accumulator and the
  host's `dot_general` are the textbook sum at every entry. A printed record with these lists IS `plainDims`, by `rfl`.
  Library imports and the companion file on a product read at an entry.
-/
import Idealize.ShloMosaic.PureOps.Ideal.Laws
import Idealize.ShloMosaic.Lib.ValueIdx
import proofs.«177555_j3504693313563_2_alg».proof.Proof.LibDot

noncomputable section

namespace Cert.LibPlainDot

open Idealize.ShloMosaic Idealize.ShloMosaic.ValueIdx
open scoped BigOperators

/-- The plain product's record over operands `[a, k]`, `[k, b]` and result `[a, b]`. -/
abbrev plainDims (a k b : Nat)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

variable {a k b : Nat} (wf : DotDims.WF ⟨2, ![a, k]⟩ ⟨2, ![k, b]⟩ ⟨2, ![a, b]⟩ [1] [0] [0] [1] [] [])

theorem lhs0 (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

theorem lhs1 (j : (⟨2, ![a, b]⟩ : Shape).Idx) (q : (plainDims a k b wf).contr.Idx) :
    ((plainDims a k b wf).lhsIdx j q 1).val = (q ⟨0, Nat.one_pos⟩).val := by
  unfold DotDims.lhsIdx
  rw [dif_neg (show ¬(1 : Fin 2) ∈ (plainDims a k b wf).lhsBatch from List.not_mem_nil),
    dif_neg (show ¬(1 : Fin 2) ∈ (plainDims a k b wf).lhsNonContracting by
      show ¬(1 : Fin 2) ∈ [(0 : Fin 2)]; decide)]
  rfl

theorem rhs0 (j : (⟨2, ![a, b]⟩ : Shape).Idx) (q : (plainDims a k b wf).contr.Idx) :
    ((plainDims a k b wf).rhsIdx j q 0).val = (q ⟨0, Nat.one_pos⟩).val := by
  unfold DotDims.rhsIdx
  rw [dif_neg (show ¬(0 : Fin 2) ∈ (plainDims a k b wf).rhsBatch from List.not_mem_nil),
    dif_neg (show ¬(0 : Fin 2) ∈ (plainDims a k b wf).rhsNonContracting by
      show ¬(0 : Fin 2) ∈ [(1 : Fin 2)]; decide)]
  rfl

theorem rhs1 (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The matrix unit's product into a zero accumulator at entry `(p, q)`: the sum over `i` of `lhs (p, i) · rhs (i, q)`. -/
theorem matmul_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul (plainDims a k b wf) prec lhs rhs (constant ⟨2, ![a, b]⟩ .f32 0x00000000#32) (ix2 p q)
      = ∑ i : Fin k, lhs (ix2 p i) * rhs (ix2 i q) :=
  LibDot.matmul_zero_apply (plainDims a k b wf) rfl rfl (lhs0 wf) (lhs1 wf) (rhs0 wf) (rhs1 wf) prec lhs rhs p q

/-- The host's `dot_general` at entry `(p, q)`: the same sum. -/
theorem dotGeneral_apply {φ₁ φ₂ : FTy} (prec : Option ContractPrecision) (sched : HostSchedule)
    (lhs : FVec Ideal ⟨2, ![a, k]⟩ φ₁) (rhs : FVec Ideal ⟨2, ![k, b]⟩ φ₂) (p : Fin a) (q : Fin b) :
    FloatOps.dotGeneral (plainDims a k b wf) prec sched lhs rhs (ix2 p q)
      = ∑ i : Fin k, lhs (ix2 p i) * rhs (ix2 i q) :=
  LibDot.dotGeneral_apply (plainDims a k b wf) rfl rfl (lhs0 wf) (lhs1 wf) (rhs0 wf) (rhs1 wf) prec sched lhs rhs p q

end Cert.LibPlainDot

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.Bodies.lean ====
/-
  What each of the four kernel bodies computes on its blocks, entry by entry, on the extended reals.

  * the scale body: a block of gathered feature rows times the edge weight of its row,
      out (p, q) = g (p, q) · w (p, 0);
  * the combine body: the propagation step's convex mix, with the two float literals as they are printed,
      out (p, q) = c₁ · a (p, q) + c₂ · h₀ (p, q);
  * the encoder body: two dense layers with rectification; a change of float format is the identity, a product into
    a zero accumulator is the textbook sum, and a bias block [1, 16] is laid under every row,
      out (p, q) = max (Σ_k max (Σ_i x (p, i) · W₁ (i, k) + b₁ (0, k), 0) · W₂ (k, q) + b₂ (0, q), 0);
  * the readout body: one dense layer,
      out (p, u) = Σ_k h (p, k) · W₃ (k, u) + b₃ (0, u).
  Nothing is rearranged, so nothing is asked of the entries.
-/
import proofs.«177555_j3504693313563_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«177555_j3504693313563_2_alg».proof.Proof.LibPlainDot
import proofs.«177555_j3504693313563_2_alg».proof.Proof.LibColumnLayout
import proofs.«177555_j3504693313563_2_alg».proof.Proof.KSpec

noncomputable section

namespace Cert.KernelIdeal.Bodies

open Idealize.ShloMosaic Idealize.ShloMosaic.ValueIdx Cert.KernelIdeal Cert.KernelIdeal.Facts₀ Cert.KernelIdeal.Facts Cert.KernelIdeal.Gen Cert.KernelIdeal.KSpec
open scoped BigOperators

/-- The scale body at entry (p, q). -/
theorem scale_entry (x0 : Vec Ideal S8192x16 .f32) (x2 : Vec Ideal S8192x1 .f32) (p : Fin 8192) (q : Fin 16) :
    k1_pay1 x0 x2 (ix2 p q) = x0 (ix2 p q) * x2 (ix2 p (0 : Fin 1)) := by
  unfold k1_pay1
  rw [mulf_apply, shapeCast_self, shapeCast_self, LibColumnLayout.broadcastTo_a1_ab_apply]

/-- The combine body at an entry. -/
theorem combine_entry (x0 x4 : Vec Ideal S10000x16 .f32) (j : S10000x16.Idx) :
    k2_pay1 x0 x4 j = Ideal.ofBits .f32 0x3F666666#32 * x0 j + Ideal.ofBits .f32 0x3DCCCCCD#32 * x4 j := by
  unfold k2_pay1
  rw [addf_apply, mulf_apply, mulf_apply, shapeCast_self, shapeCast_self]
  rfl

/-- The encoder body at entry (p, q). -/
theorem encoder_entry (x0 : Vec Ideal S10000x1 .f32) (x2 x5 : Vec Ideal S1x16 .f32) (x12 : Vec Ideal S16x16 .f32)
    (x15 : Vec Ideal S1x16 .f32) (p : Fin 10000) (q : Fin 16) :
    k0_pay1 x0 x2 x5 x12 x15 (ix2 p q)
      = max ((∑ k : Fin 16, max ((∑ i : Fin 1, x0 (ix2 p i) * x2 (ix2 i k)) + x5 (ix2 (0 : Fin 1) k))
                (Ideal.ofBits .f32 0x00000000#32) * x12 (ix2 k q)) + x15 (ix2 (0 : Fin 1) q))
          (Ideal.ofBits .f32 0x00000000#32) := by
  unfold k0_pay1
  simp only [shapeCast_self]
  rw [maximumf_apply, addf_apply, broadcast_apply, broadcastTo_1b_ab_apply]
  refine congrArg₂ max (congrArg₂ (· + ·) ?_ rfl) rfl
  refine (LibPlainDot.matmul_apply Facts₀.dot_S10000x16_S16x16_S10000x16_1_0_0_1_n_n_wf none _ _ p q).trans ?_
  refine Finset.sum_congr rfl fun k _ => ?_
  rw [truncf_apply, truncf_apply, maximumf_apply, addf_apply, broadcast_apply, broadcastTo_1b_ab_apply]
  refine congrArg₂ (· * ·) (congrArg₂ max (congrArg₂ (· + ·) ?_ rfl) rfl) rfl
  refine (LibPlainDot.matmul_apply Facts₀.dot_S10000x1_S1x16_S10000x16_1_0_0_1_n_n_wf none _ _ p k).trans ?_
  refine Finset.sum_congr rfl fun i _ => ?_
  rw [truncf_apply, truncf_apply]

/-- The readout body at entry (p, u). -/
theorem readout_entry (x0 : Vec Ideal S10000x16 .f32) (x3 : Vec Ideal S16x1 .f32) (x6 : Vec Ideal S1x1 .f32)
    (p : Fin 10000) (u : Fin 1) :
    k21_pay1 x0 x3 x6 (ix2 p u) = (∑ k : Fin 16, x0 (ix2 p k) * x3 (ix2 k u)) + x6 (ix2 (0 : Fin 1) u) := by
  unfold k21_pay1
  simp only [shapeCast_self]
  rw [addf_apply, broadcastTo_1b_ab_apply]
  refine congrArg₂ (· + ·) ?_ rfl
  refine (LibPlainDot.matmul_apply Facts₀.dot_S10000x16_S16x1_S10000x1_1_0_0_1_n_n_wf none _ _ p u).trans ?_
  refine Finset.sum_congr rfl fun k _ => ?_
  rw [truncf_apply, truncf_apply]

/-- The same four facts at a whole block index `j`, its coordinates read off by `row` and `col`. -/
theorem scale_at (x0 : Vec Ideal S8192x16 .f32) (x2 : Vec Ideal S8192x1 .f32) (j : S8192x16.Idx) :
    k1_pay1 x0 x2 j = x0 j * x2 (ix2 (row j) (0 : Fin 1)) := by
  obtain ⟨p, q, rfl⟩ : ∃ (p : Fin 8192) (q : Fin 16), j = ix2 p q := ⟨j 0, j 1, eq_ix2 j⟩
  exact scale_entry x0 x2 p q

theorem encoder_at (x0 : Vec Ideal S10000x1 .f32) (x2 x5 : Vec Ideal S1x16 .f32) (x12 : Vec Ideal S16x16 .f32)
    (x15 : Vec Ideal S1x16 .f32) (j : S10000x16.Idx) :
    k0_pay1 x0 x2 x5 x12 x15 j
      = max ((∑ k : Fin 16, max ((∑ i : Fin 1, x0 (ix2 (row j) i) * x2 (ix2 i k)) + x5 (ix2 (0 : Fin 1) k))
                (Ideal.ofBits .f32 0x00000000#32) * x12 (ix2 k (col j))) + x15 (ix2 (0 : Fin 1) (col j)))
          (Ideal.ofBits .f32 0x00000000#32) := by
  obtain ⟨p, q, rfl⟩ : ∃ (p : Fin 10000) (q : Fin 16), j = ix2 p q := ⟨j 0, j 1, eq_ix2 j⟩
  exact encoder_entry x0 x2 x5 x12 x15 p q

theorem readout_at (x0 : Vec Ideal S10000x16 .f32) (x3 : Vec Ideal S16x1 .f32) (x6 : Vec Ideal S1x1 .f32)
    (j : S10000x1.Idx) :
    k21_pay1 x0 x3 x6 j = (∑ k : Fin 16, x0 (ix2 (row j) k) * x3 (ix2 k (col j))) + x6 (ix2 (0 : Fin 1) (col j)) := by
  obtain ⟨p, u, rfl⟩ : ∃ (p : Fin 10000) (u : Fin 1), j = ix2 p u := ⟨j 0, j 1, eq_ix2 j⟩
  exact readout_entry x0 x3 x6 p u

end Cert.KernelIdeal.Bodies

end
-- ==== Proof.RegEnc.lean ====
/-
  The encoder launch as a whole-array function.

  The launch walks 10 points; at point `t` its first window holds rows `10000·t …` of the node feature column, its last
  those rows of the output, and the four parameter windows hold their whole (small) arrays at every point. The body
  computes, for row `p` of the block and hidden unit `q`, the two-layer rectified encoder of that row's feature; row `p` of
  block `t` is row `10000·t + p` of the arrays, so point `t` writes back block `t` of `encG`, and the 10 blocks tile the rows.
-/
import proofs.«177555_j3504693313563_2_alg».proof.Proof.Gen.KernelIdeal.Frame
import proofs.«177555_j3504693313563_2_alg».proof.Proof.Bodies
import proofs.«177555_j3504693313563_2_alg».proof.Proof.KSpec
import Idealize.ShloMosaic.Lib.Pipeline.Value

set_option maxRecDepth 16384

noncomputable section

namespace Cert.KernelIdeal.Regions

open Idealize.ShloMosaic Idealize.ShloMosaic.ValueIdx Idealize.ShloMosaic.TcCoe Idealize.SL.Sem
open Cert.KernelIdeal Cert.KernelIdeal.Facts₀ Cert.KernelIdeal.Facts Cert.KernelIdeal.Gen Cert.KernelIdeal.KSpec
open Idealize.ShloMosaic.Pipeline (Dat Cfg Window)
open scoped BigOperators

theorem hze : (![0, 0] : Fin 2 → Nat) = fun _ => 0 := funext fun a => by fin_cases a <;> rfl

section
variable (V : (c : Dev nD) → (b : Ref sig .tc) → Buf (Elt Ideal) ((c : Thread nD τ).loc b))

set_option maxHeartbeats 4000000 in
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed0 (c : Dev nD) (t : Fin cfg0.N) :
    (dat0 V c).flushed 5 t = ((cfg0.win 5).blk t).view.read (Elt Ideal)
      (encG (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hze]
  simp only [View.ld_unit_zero (S := S10000x1) hze, View.ld_unit_zero (S := S1x16) hze,
    View.ld_unit_zero (S := S16x16) hze]
  obtain ⟨a0, a1, b0, b1, c0, c1, d0, d1, f0, f1, g0, g1⟩ := idx0 t
  funext j
  refine (Bodies.encoder_at _ _ _ _ _ j).trans ?_
  let X : S100000x1.Idx → EReal := V c (Pipeline.arrRef spec0 0)
  let W1 : S1x16.Idx → EReal := V c (Pipeline.arrRef spec0 1)
  let B1 : S1x16.Idx → EReal := V c (Pipeline.arrRef spec0 2)
  let W2 : S16x16.Idx → EReal := V c (Pipeline.arrRef spec0 3)
  let B2 : S1x16.Idx → EReal := V c (Pipeline.arrRef spec0 4)
  show max ((∑ k : Fin 16, max ((∑ i : Fin 1,
              X (((cfg0.win 0).blk t).view.emb (ix2 (row j) i)) * W1 (((cfg0.win 1).blk t).view.emb (ix2 i k)))
            + B1 (((cfg0.win 2).blk t).view.emb (ix2 (0 : Fin 1) k)))
          (Ideal.ofBits .f32 0x00000000#32)
        * W2 (((cfg0.win 3).blk t).view.emb (ix2 k (col j))))
      + B2 (((cfg0.win 4).blk t).view.emb (ix2 (0 : Fin 1) (col j))))
      (Ideal.ofBits .f32 0x00000000#32)
    = encAt X W1 B1 W2 B2 (row (((cfg0.win 5).blk t).view.emb j)) (col (((cfg0.win 5).blk t).view.emb j))
  have hx : ∀ i : Fin 1, ((cfg0.win 0).blk t).view.emb (ix2 (row j) i)
      = ix2 (row (((cfg0.win 5).blk t).view.emb j)) i := fun i => by
    funext a; apply Fin.ext
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 1 + 1 * i.val = i.val; omega
  have hw1 : ∀ (i : Fin 1) (k : Fin 16), ((cfg0.win 1).blk t).view.emb (ix2 i k) = ix2 i k := fun i k => by
    funext a; apply Fin.ext
    match a with
    | ⟨0, _⟩ => show win0_1.index t (0 : Fin 2) * 1 + 1 * i.val = i.val; omega
    | ⟨1, _⟩ => show win0_1.index t (1 : Fin 2) * 16 + 1 * k.val = k.val; omega
  have hb1 : ∀ k : Fin 16, ((cfg0.win 2).blk t).view.emb (ix2 (0 : Fin 1) k) = ix2 (0 : Fin 1) k := fun k => by
    funext a; apply Fin.ext
    match a with
    | ⟨0, _⟩ => show win0_2.index t (0 : Fin 2) * 1 + 1 * 0 = 0; omega
    | ⟨1, _⟩ => show win0_2.index t (1 : Fin 2) * 16 + 1 * k.val = k.val; omega
  have hw2 : ∀ k : Fin 16, ((cfg0.win 3).blk t).view.emb (ix2 k (col j))
      = ix2 k (col (((cfg0.win 5).blk t).view.emb j)) := fun k => by
    funext a; apply Fin.ext
    match a with
    | ⟨0, _⟩ => show win0_3.index t (0 : Fin 2) * 16 + 1 * k.val = k.val; omega
    | ⟨1, _⟩ => show win0_3.index t (1 : Fin 2) * 16 + 1 * (j 1).val = win0_5.index t (1 : Fin 2) * 16 + 1 * (j 1).val; omega
  have hb2 : ((cfg0.win 4).blk t).view.emb (ix2 (0 : Fin 1) (col j))
      = ix2 (0 : Fin 1) (col (((cfg0.win 5).blk t).view.emb j)) := by
    funext a; apply Fin.ext
    match a with
    | ⟨0, _⟩ => show win0_4.index t (0 : Fin 2) * 1 + 1 * 0 = 0; omega
    | ⟨1, _⟩ => show win0_4.index t (1 : Fin 2) * 16 + 1 * (j 1).val = win0_5.index t (1 : Fin 2) * 16 + 1 * (j 1).val; omega
  simp only [hx, hw1, hb1, hw2, hb2]
  rfl

theorem mem_blk0 (t : Fin cfg0.N) (i : S100000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole (Pipeline.arrRef spec0 5)).slice (win0_5.rect t)).set ↔ _
  rw [View.set_slice_whole, Rect.mem_set_unit]
  exact Iff.rfl

theorem cover0 (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have ht : (i 0).val / 10000 < 10 := by omega
  refine ⟨⟨(i 0).val / 10000, ht⟩, flush0_5 _, ?_⟩
  rw [mem_blk0]
  obtain ⟨a0, a1, b0, b1, c0, c1, d0, d1, f0, f1, g0, g1⟩ := idx0 ⟨(i 0).val / 10000, ht⟩
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [g0]; show (i 0).val / 10000 * 10000 ≤ (i 0).val ∧ (i 0).val < (i 0).val / 10000 * 10000 + 10000; omega
  | ⟨1, _⟩ =>
    show win0_5.index ⟨(i 0).val / 10000, ht⟩ (1 : Fin 2) * 16 ≤ (i 1).val
      ∧ (i 1).val < win0_5.index ⟨(i 0).val / 10000, ht⟩ (1 : Fin 2) * 16 + 16
    rw [g1]; omega

/-- The encoder's output array after the launch. -/
theorem final0 (c : Dev nD) :
    (dat0 V c).arrAt 5 cfg0.N = encG (V c (Pipeline.arrRef spec0 0)) (V c (Pipeline.arrRef spec0 1))
      (V c (Pipeline.arrRef spec0 2)) (V c (Pipeline.arrRef spec0 3)) (V c (Pipeline.arrRef spec0 4)) :=
  (dat0 V c).arrAt_eq_of_cover 5 _ (fun t _ => flushed0 V c t) cover0

end

end Cert.KernelIdeal.Regions

end
-- ==== Proof.RegScale.lean ====
/-
  The scale launches as whole-array functions.

  A scale launch walks its grid of 623 points; at point `t` its three windows hold rows `8192·t … 8192·t + 8191` of the
  gathered features, of the edge-weight column and of the message array, and the body writes
  `g (p, q) · w (p, 0)` on the block. Row `p` of block `t` is row `8192·t + p` of each array, so what point `t` writes back
  is block `t` of `scaleG` of the two input arrays as the launch finds them; the 623 blocks tile the 5103616 rows, so the
  message array ends holding `scaleG` everywhere.

  The program launches this kernel ten times, and prints each launch with its own numbered windows, grid and proof data.
  The argument above is the same for each; it is written once, as a macro over the launch number, and stated at the ten
  launches 1, 3, …, 19.
-/
import proofs.«177555_j3504693313563_2_alg».proof.Proof.Gen.KernelIdeal.Frame
import proofs.«177555_j3504693313563_2_alg».proof.Proof.Bodies
import proofs.«177555_j3504693313563_2_alg».proof.Proof.KSpec
import Idealize.ShloMosaic.Lib.Pipeline.Value

set_option maxRecDepth 16384

noncomputable section

namespace Cert.KernelIdeal.Regions

open Idealize.ShloMosaic Idealize.ShloMosaic.ValueIdx Idealize.ShloMosaic.TcCoe Idealize.SL.Sem
open Cert.KernelIdeal Cert.KernelIdeal.Facts₀ Cert.KernelIdeal.Facts Cert.KernelIdeal.Gen Cert.KernelIdeal.KSpec
open Idealize.ShloMosaic.Pipeline (Dat Cfg Window)

theorem hz : (![0, 0] : Fin 2 → Nat) = fun _ => 0 := funext fun a => by fin_cases a <;> rfl

open Lean in
/-- `scale_launch r`: the closed form of scale launch number `r` (its windows `win{r}_0/1/2`, proof data `dat{r}`, …). The
    launches differ only in those numbers; the argument is the one in this module's header. -/
macro "scale_launch " rr:num : command => do
  let r := rr.getNat
  let i (s : String) : Ident := mkIdent (Name.mkSimple s)
  let cfg := i s!"cfg{r}"; let grid := i s!"grid{r}"; let dat := i s!"dat{r}"; let spec := i s!"spec{r}"
  let w0 := i s!"win{r}_0"; let w1 := i s!"win{r}_1"; let w2 := i s!"win{r}_2"
  let after := i s!"after{r}_2"; let out := i s!"out{r}_2"; let flush := i s!"flush{r}_2"; let kpay := i s!"k{r}_pay1"
  let idx := i s!"idx{r}"; let flushed := i s!"flushed{r}"; let memblk := i s!"mem_blk{r}"; let cover := i s!"cover{r}"
  let final := i s!"final{r}"
  `(
  theorem $idx : ∀ t : Fin ($cfg).N,
      ($w0).index t (0 : Fin 2) = t.val ∧ ($w0).index t (1 : Fin 2) = 0
      ∧ ($w1).index t (0 : Fin 2) = t.val ∧ ($w1).index t (1 : Fin 2) = 0
      ∧ ($w2).index t (0 : Fin 2) = t.val ∧ ($w2).index t (1 : Fin 2) = 0 :=
    (by decide +kernel : ∀ t : Fin ($grid).N, _)

  theorem $flushed (V : (c : Dev nD) → (b : Ref sig .tc) → Buf (Elt Ideal) ((c : Thread nD τ).loc b))
      (c : Dev nD) (t : Fin ($cfg).N) :
      ($dat V c).flushed 2 t = ((($cfg).win 2).blk t).view.read (Elt Ideal)
        (scaleG (V c (Pipeline.arrRef $spec 0)) (V c (Pipeline.arrRef $spec 1))) := by
    show (($cfg).win 2).cut (($grid).coords t) (($dat V c).after 2 t) = _
    rw [$after:ident]
    unfold $out
    rw [View.canon_unit_zero hz]
    simp only [View.ld_unit_zero (S := S8192x16) hz, View.ld_unit_zero (S := S8192x1) hz]
    obtain ⟨e0, e1, e2, e3, e4, e5⟩ := $idx t
    funext j
    refine ((show $kpay _ _ j = k1_pay1 _ _ j from rfl).trans (Bodies.scale_at _ _ j)).trans ?_
    let G : S5103616x16.Idx → EReal := V c (Pipeline.arrRef $spec 0)
    let Wt : S5103616x1.Idx → EReal := V c (Pipeline.arrRef $spec 1)
    show G (((($cfg).win 0).blk t).view.emb j) * Wt (((($cfg).win 1).blk t).view.emb (ix2 (row j) (0 : Fin 1)))
      = G (((($cfg).win 2).blk t).view.emb j) * Wt (ix2 (row (((($cfg).win 2).blk t).view.emb j)) (0 : Fin 1))
    have h0 : ((($cfg).win 0).blk t).view.emb j = ((($cfg).win 2).blk t).view.emb j := by
      funext a; apply Fin.ext
      match a with
      | ⟨0, _⟩ => show ($w0).index t (0 : Fin 2) * 8192 + 1 * (j 0).val = ($w2).index t (0 : Fin 2) * 8192 + 1 * (j 0).val; omega
      | ⟨1, _⟩ => show ($w0).index t (1 : Fin 2) * 16 + 1 * (j 1).val = ($w2).index t (1 : Fin 2) * 16 + 1 * (j 1).val; omega
    have h1 : ((($cfg).win 1).blk t).view.emb (ix2 (row j) (0 : Fin 1))
        = ix2 (row (((($cfg).win 2).blk t).view.emb j)) (0 : Fin 1) := by
      funext a; apply Fin.ext
      match a with
      | ⟨0, _⟩ => show ($w1).index t (0 : Fin 2) * 8192 + 1 * (j 0).val = ($w2).index t (0 : Fin 2) * 8192 + 1 * (j 0).val; omega
      | ⟨1, _⟩ => show ($w1).index t (1 : Fin 2) * 1 + 1 * 0 = 0; omega
    rw [h0, h1]

  theorem $memblk (t : Fin ($cfg).N) (i : S5103616x16.Idx) :
      i ∈ ((($cfg).win 2).blk t).view.set ↔ ∀ a : Fin 2, ($w2).index t a * S8192x16.size a ≤ (i a).val
        ∧ (i a).val < ($w2).index t a * S8192x16.size a + S8192x16.size a := by
    show i ∈ ((View.whole (Pipeline.arrRef $spec 2)).slice (($w2).rect t)).set ↔ _
    rw [View.set_slice_whole, Rect.mem_set_unit]
    exact Iff.rfl

  theorem $cover (i : S5103616x16.Idx) :
      ∃ t : Fin ($cfg).N, (($cfg).win 2).flush t = true ∧ i ∈ ((($cfg).win 2).blk t).view.set := by
    have hi0 : (i 0).val < 5103616 := (i 0).isLt
    have hi1 : (i 1).val < 16 := (i 1).isLt
    have ht : (i 0).val / 8192 < 623 := by omega
    refine ⟨⟨(i 0).val / 8192, ht⟩, $flush _, ?_⟩
    rw [$memblk:ident]
    obtain ⟨e0, e1, e2, e3, e4, e5⟩ := $idx ⟨(i 0).val / 8192, ht⟩
    intro a
    match a with
    | ⟨0, _⟩ =>
      show ($w2).index ⟨(i 0).val / 8192, ht⟩ (0 : Fin 2) * 8192 ≤ (i 0).val
        ∧ (i 0).val < ($w2).index ⟨(i 0).val / 8192, ht⟩ (0 : Fin 2) * 8192 + 8192
      rw [e4]; show (i 0).val / 8192 * 8192 ≤ (i 0).val ∧ (i 0).val < (i 0).val / 8192 * 8192 + 8192; omega
    | ⟨1, _⟩ =>
      show ($w2).index ⟨(i 0).val / 8192, ht⟩ (1 : Fin 2) * 16 ≤ (i 1).val
        ∧ (i 1).val < ($w2).index ⟨(i 0).val / 8192, ht⟩ (1 : Fin 2) * 16 + 16
      rw [e5]; omega

  theorem $final (V : (c : Dev nD) → (b : Ref sig .tc) → Buf (Elt Ideal) ((c : Thread nD τ).loc b)) (c : Dev nD) :
      ($dat V c).arrAt 2 ($cfg).N = scaleG (V c (Pipeline.arrRef $spec 0)) (V c (Pipeline.arrRef $spec 1)) :=
    ($dat V c).arrAt_eq_of_cover 2 _ (fun t _ => $flushed V c t) $cover
  )

scale_launch 1
scale_launch 3
scale_launch 5
scale_launch 7
scale_launch 9
scale_launch 11
scale_launch 13
scale_launch 15
scale_launch 17
scale_launch 19

end Cert.KernelIdeal.Regions

end
-- ==== Proof.RegCombine.lean ====
/-
  The combine launches as whole-array functions.

  A combine launch walks 10 points; at point `t` its three windows hold rows `10000·t … 10000·t + 9999` of the aggregated
  messages, of the encoder's output and of the new features, and the body writes `c₁ · a + c₂ · h₀` entry by entry. So what
  point `t` writes back is block `t` of `combineG` of the two input arrays, and the 10 blocks tile the 100000 rows.

  The program launches this kernel ten times, each printed with its own numbered windows, grid and proof data; the
  argument is written once, as a macro over the launch number, and stated at the ten launches 2, 4, …, 20.
-/
import proofs.«177555_j3504693313563_2_alg».proof.Proof.Gen.KernelIdeal.Frame
import proofs.«177555_j3504693313563_2_alg».proof.Proof.Bodies
import proofs.«177555_j3504693313563_2_alg».proof.Proof.KSpec
import Idealize.ShloMosaic.Lib.Pipeline.Value

set_option maxRecDepth 16384

noncomputable section

namespace Cert.KernelIdeal.Regions

open Idealize.ShloMosaic Idealize.ShloMosaic.ValueIdx Idealize.ShloMosaic.TcCoe Idealize.SL.Sem
open Cert.KernelIdeal Cert.KernelIdeal.Facts₀ Cert.KernelIdeal.Facts Cert.KernelIdeal.Gen Cert.KernelIdeal.KSpec
open Idealize.ShloMosaic.Pipeline (Dat Cfg Window)
open scoped BigOperators

theorem hzc : (![0, 0] : Fin 2 → Nat) = fun _ => 0 := funext fun a => by fin_cases a <;> rfl

open Lean in
/-- `combine_launch r`: the closed form of combine launch number `r`. -/
macro "combine_launch " rr:num : command => do
  let r := rr.getNat
  let i (s : String) : Ident := mkIdent (Name.mkSimple s)
  let cfg := i s!"cfg{r}"; let grid := i s!"grid{r}"; let dat := i s!"dat{r}"; let spec := i s!"spec{r}"
  let w0 := i s!"win{r}_0"; let w1 := i s!"win{r}_1"; let w2 := i s!"win{r}_2"
  let after := i s!"after{r}_2"; let out := i s!"out{r}_2"; let flush := i s!"flush{r}_2"; let kpay := i s!"k{r}_pay1"
  let idx := i s!"idx{r}"; let flushed := i s!"flushed{r}"; let memblk := i s!"mem_blk{r}"; let cover := i s!"cover{r}"
  let final := i s!"final{r}"
  `(
  theorem $idx : ∀ t : Fin ($cfg).N,
      ($w0).index t (0 : Fin 2) = t.val ∧ ($w0).index t (1 : Fin 2) = 0
      ∧ ($w1).index t (0 : Fin 2) = t.val ∧ ($w1).index t (1 : Fin 2) = 0
      ∧ ($w2).index t (0 : Fin 2) = t.val ∧ ($w2).index t (1 : Fin 2) = 0 :=
    (by decide +kernel : ∀ t : Fin ($grid).N, _)

  theorem $flushed (V : (c : Dev nD) → (b : Ref sig .tc) → Buf (Elt Ideal) ((c : Thread nD τ).loc b))
      (c : Dev nD) (t : Fin ($cfg).N) :
      ($dat V c).flushed 2 t = ((($cfg).win 2).blk t).view.read (Elt Ideal)
        (combineG (V c (Pipeline.arrRef $spec 0)) (V c (Pipeline.arrRef $spec 1))) := by
    show (($cfg).win 2).cut (($grid).coords t) (($dat V c).after 2 t) = _
    rw [$after:ident]
    unfold $out
    rw [View.canon_unit_zero hzc]
    simp only [View.ld_unit_zero (S := S10000x16) hzc]
    obtain ⟨e0, e1, e2, e3, e4, e5⟩ := $idx t
    funext j
    refine ((show $kpay _ _ j = k2_pay1 _ _ j from rfl).trans (Bodies.combine_entry _ _ j)).trans ?_
    let A : S100000x16.Idx → EReal := V c (Pipeline.arrRef $spec 0)
    let H : S100000x16.Idx → EReal := V c (Pipeline.arrRef $spec 1)
    show Ideal.ofBits .f32 0x3F666666#32 * A (((($cfg).win 0).blk t).view.emb j)
        + Ideal.ofBits .f32 0x3DCCCCCD#32 * H (((($cfg).win 1).blk t).view.emb j)
      = Ideal.ofBits .f32 0x3F666666#32 * A (((($cfg).win 2).blk t).view.emb j)
        + Ideal.ofBits .f32 0x3DCCCCCD#32 * H (((($cfg).win 2).blk t).view.emb j)
    have h0 : ((($cfg).win 0).blk t).view.emb j = ((($cfg).win 2).blk t).view.emb j := by
      funext a; apply Fin.ext
      match a with
      | ⟨0, _⟩ => show ($w0).index t (0 : Fin 2) * 10000 + 1 * (j 0).val = ($w2).index t (0 : Fin 2) * 10000 + 1 * (j 0).val; omega
      | ⟨1, _⟩ => show ($w0).index t (1 : Fin 2) * 16 + 1 * (j 1).val = ($w2).index t (1 : Fin 2) * 16 + 1 * (j 1).val; omega
    have h1 : ((($cfg).win 1).blk t).view.emb j = ((($cfg).win 2).blk t).view.emb j := by
      funext a; apply Fin.ext
      match a with
      | ⟨0, _⟩ => show ($w1).index t (0 : Fin 2) * 10000 + 1 * (j 0).val = ($w2).index t (0 : Fin 2) * 10000 + 1 * (j 0).val; omega
      | ⟨1, _⟩ => show ($w1).index t (1 : Fin 2) * 16 + 1 * (j 1).val = ($w2).index t (1 : Fin 2) * 16 + 1 * (j 1).val; omega
    rw [h0, h1]

  theorem $memblk (t : Fin ($cfg).N) (i : S100000x16.Idx) :
      i ∈ ((($cfg).win 2).blk t).view.set ↔ ∀ a : Fin 2, ($w2).index t a * S10000x16.size a ≤ (i a).val
        ∧ (i a).val < ($w2).index t a * S10000x16.size a + S10000x16.size a := by
    show i ∈ ((View.whole (Pipeline.arrRef $spec 2)).slice (($w2).rect t)).set ↔ _
    rw [View.set_slice_whole, Rect.mem_set_unit]
    exact Iff.rfl

  theorem $cover (i : S100000x16.Idx) :
      ∃ t : Fin ($cfg).N, (($cfg).win 2).flush t = true ∧ i ∈ ((($cfg).win 2).blk t).view.set := by
    have hi0 : (i 0).val < 100000 := (i 0).isLt
    have hi1 : (i 1).val < 16 := (i 1).isLt
    have ht : (i 0).val / 10000 < 10 := by omega
    refine ⟨⟨(i 0).val / 10000, ht⟩, $flush _, ?_⟩
    rw [$memblk:ident]
    obtain ⟨e0, e1, e2, e3, e4, e5⟩ := $idx ⟨(i 0).val / 10000, ht⟩
    intro a
    match a with
    | ⟨0, _⟩ =>
      show ($w2).index ⟨(i 0).val / 10000, ht⟩ (0 : Fin 2) * 10000 ≤ (i 0).val
        ∧ (i 0).val < ($w2).index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show ($w2).index ⟨(i 0).val / 10000, ht⟩ (1 : Fin 2) * 16 ≤ (i 1).val
        ∧ (i 1).val < ($w2).index ⟨(i 0).val / 10000, ht⟩ (1 : Fin 2) * 16 + 16
      rw [e5]; omega

  theorem $final (V : (c : Dev nD) → (b : Ref sig .tc) → Buf (Elt Ideal) ((c : Thread nD τ).loc b)) (c : Dev nD) :
      ($dat V c).arrAt 2 ($cfg).N = combineG (V c (Pipeline.arrRef $spec 0)) (V c (Pipeline.arrRef $spec 1)) :=
    ($dat V c).arrAt_eq_of_cover 2 _ (fun t _ => $flushed V c t) $cover

  )

combine_launch 2
combine_launch 4
combine_launch 6
combine_launch 8
combine_launch 10
combine_launch 12
combine_launch 14
combine_launch 16
combine_launch 18
combine_launch 20

end Cert.KernelIdeal.Regions

end
-- ==== Proof.RegReadout.lean ====
/-
  The readout launch as a whole-array function.

  The launch walks 10 points; at point `t` its first window holds rows `10000·t …` of the final features, its last those
  rows of the result column, and the weight and bias windows hold their whole arrays. The body computes, for row `p` of the
  block, `Σ_k h (p, k) · W₃ (k, 0) + b₃ (0, 0)`; so point `t` writes back block `t` of `readoutG`, and the 10 blocks tile the rows.
-/
import proofs.«177555_j3504693313563_2_alg».proof.Proof.Gen.KernelIdeal.Frame
import proofs.«177555_j3504693313563_2_alg».proof.Proof.Bodies
import proofs.«177555_j3504693313563_2_alg».proof.Proof.KSpec
import Idealize.ShloMosaic.Lib.Pipeline.Value

set_option maxRecDepth 16384

noncomputable section

namespace Cert.KernelIdeal.Regions

open Idealize.ShloMosaic Idealize.ShloMosaic.ValueIdx Idealize.ShloMosaic.TcCoe Idealize.SL.Sem
open Cert.KernelIdeal Cert.KernelIdeal.Facts₀ Cert.KernelIdeal.Facts Cert.KernelIdeal.Gen Cert.KernelIdeal.KSpec
open Idealize.ShloMosaic.Pipeline (Dat Cfg Window)
open scoped BigOperators

theorem hzr : (![0, 0] : Fin 2 → Nat) = fun _ => 0 := funext fun a => by fin_cases a <;> rfl

section
variable (V : (c : Dev nD) → (b : Ref sig .tc) → Buf (Elt Ideal) ((c : Thread nD τ).loc b))

set_option maxHeartbeats 4000000 in
theorem idx21 : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = t.val ∧ win21_3.index t (1 : Fin 2) = 0 :=
  (by decide +kernel : ∀ t : Fin grid21.N, _)

theorem flushed21 (c : Dev nD) (t : Fin cfg21.N) :
    (dat21 V c).flushed 3 t = ((cfg21.win 3).blk t).view.read (Elt Ideal)
      (readoutG (V c (Pipeline.arrRef spec21 0)) (V c (Pipeline.arrRef spec21 1)) (V c (Pipeline.arrRef spec21 2))) := by
  show (cfg21.win 3).cut (grid21.coords t) ((dat21 V c).after 3 t) = _
  rw [after21_3]
  unfold out21_3
  rw [View.canon_unit_zero hzr]
  simp only [View.ld_unit_zero (S := S10000x16) hzr, View.ld_unit_zero (S := S16x1) hzr,
    View.ld_unit_zero (S := S1x1) hzr]
  obtain ⟨a0, a1, b0, b1, c0, c1, d0, d1⟩ := idx21 t
  funext j
  refine (Bodies.readout_at _ _ _ j).trans ?_
  let Hh : S100000x16.Idx → EReal := V c (Pipeline.arrRef spec21 0)
  let W3 : S16x1.Idx → EReal := V c (Pipeline.arrRef spec21 1)
  let B3 : S1x1.Idx → EReal := V c (Pipeline.arrRef spec21 2)
  show (∑ k : Fin 16, Hh (((cfg21.win 0).blk t).view.emb (ix2 (row j) k))
          * W3 (((cfg21.win 1).blk t).view.emb (ix2 k (col j))))
      + B3 (((cfg21.win 2).blk t).view.emb (ix2 (0 : Fin 1) (col j)))
    = readoutAt Hh W3 B3 (row (((cfg21.win 3).blk t).view.emb j)) (col (((cfg21.win 3).blk t).view.emb j))
  have hh : ∀ k : Fin 16, ((cfg21.win 0).blk t).view.emb (ix2 (row j) k)
      = ix2 (row (((cfg21.win 3).blk t).view.emb j)) k := fun k => by
    funext a; apply Fin.ext
    match a with
    | ⟨0, _⟩ => show win21_0.index t (0 : Fin 2) * 10000 + 1 * (j 0).val = win21_3.index t (0 : Fin 2) * 10000 + 1 * (j 0).val; omega
    | ⟨1, _⟩ => show win21_0.index t (1 : Fin 2) * 16 + 1 * k.val = k.val; omega
  have hw : ∀ k : Fin 16, ((cfg21.win 1).blk t).view.emb (ix2 k (col j))
      = ix2 k (col (((cfg21.win 3).blk t).view.emb j)) := fun k => by
    funext a; apply Fin.ext
    match a with
    | ⟨0, _⟩ => show win21_1.index t (0 : Fin 2) * 16 + 1 * k.val = k.val; omega
    | ⟨1, _⟩ => show win21_1.index t (1 : Fin 2) * 1 + 1 * (j 1).val = win21_3.index t (1 : Fin 2) * 1 + 1 * (j 1).val; omega
  have hb : ((cfg21.win 2).blk t).view.emb (ix2 (0 : Fin 1) (col j))
      = ix2 (0 : Fin 1) (col (((cfg21.win 3).blk t).view.emb j)) := by
    funext a; apply Fin.ext
    match a with
    | ⟨0, _⟩ => show win21_2.index t (0 : Fin 2) * 1 + 1 * 0 = 0; omega
    | ⟨1, _⟩ => show win21_2.index t (1 : Fin 2) * 1 + 1 * (j 1).val = win21_3.index t (1 : Fin 2) * 1 + 1 * (j 1).val; omega
  simp only [hh, hw, hb]
  rfl

theorem mem_blk21 (t : Fin cfg21.N) (i : S100000x1.Idx) :
    i ∈ ((cfg21.win 3).blk t).view.set ↔ ∀ a : Fin 2, win21_3.index t a * S10000x1.size a ≤ (i a).val
      ∧ (i a).val < win21_3.index t a * S10000x1.size a + S10000x1.size a := by
  show i ∈ ((View.whole (Pipeline.arrRef spec21 3)).slice (win21_3.rect t)).set ↔ _
  rw [View.set_slice_whole, Rect.mem_set_unit]
  exact Iff.rfl

theorem cover21 (i : S100000x1.Idx) :
    ∃ t : Fin cfg21.N, (cfg21.win 3).flush t = true ∧ i ∈ ((cfg21.win 3).blk t).view.set := by
  have hi0 : (i 0).val < 100000 := (i 0).isLt
  have hi1 : (i 1).val < 1 := (i 1).isLt
  have ht : (i 0).val / 10000 < 10 := by omega
  refine ⟨⟨(i 0).val / 10000, ht⟩, flush21_3 _, ?_⟩
  rw [mem_blk21]
  obtain ⟨a0, a1, b0, b1, c0, c1, d0, d1⟩ := idx21 ⟨(i 0).val / 10000, ht⟩
  intro a
  match a with
  | ⟨0, _⟩ =>
    show win21_3.index ⟨(i 0).val / 10000, ht⟩ (0 : Fin 2) * 10000 ≤ (i 0).val
      ∧ (i 0).val < win21_3.index ⟨(i 0).val / 10000, ht⟩ (0 : Fin 2) * 10000 + 10000
    rw [d0]; show (i 0).val / 10000 * 10000 ≤ (i 0).val ∧ (i 0).val < (i 0).val / 10000 * 10000 + 10000; omega
  | ⟨1, _⟩ =>
    show win21_3.index ⟨(i 0).val / 10000, ht⟩ (1 : Fin 2) * 1 ≤ (i 1).val
      ∧ (i 1).val < win21_3.index ⟨(i 0).val / 10000, ht⟩ (1 : Fin 2) * 1 + 1
    rw [d1]; omega

/-- The result column after the launch. -/
theorem final21 (c : Dev nD) :
    (dat21 V c).arrAt 3 cfg21.N = readoutG (V c (Pipeline.arrRef spec21 0)) (V c (Pipeline.arrRef spec21 1))
      (V c (Pipeline.arrRef spec21 2)) :=
  (dat21 V c).arrAt_eq_of_cover 3 _ (fun t _ => flushed21 V c t) cover21

end

end Cert.KernelIdeal.Regions

end
-- ==== Proof.KValue.lean ====
/-
  The idealized kernel's result as a function of its arguments.

  The last boundary's contents at the result buffer (`Gen.W46 … main_v161`, what the kernel's run ends with) are read back
  through the 46 segments of @main:
  * the first three stretches of host operations compute, from the edge list alone, the source and destination numbers
    and the edge weights (`kSrc`, `kDst`, `kNorm`) and pad each with 3616 zeros (read back in KPrefix);
  * the encoder launch leaves `encG` of the arguments;
  * ten times: a stretch gathers the rows of the current features, a scale launch leaves `scaleG`, a stretch scatter-adds,
    a combine launch leaves `combineG` — together `kStep`, one propagation step; the padded lists and the encoder's
    output sit untouched in their buffers all along (no launch writes an input window's array, no stretch writes them);
  * the readout launch leaves `readoutG`.
  So the result is the readout of the ten-fold iterate of `kStep` from the encoder's output.
-/
import proofs.«177555_j3504693313563_2_alg».proof.Proof.Gen.KernelIdeal.Frame
import proofs.«177555_j3504693313563_2_alg».proof.Proof.KSpec
import proofs.«177555_j3504693313563_2_alg».proof.Proof.KPrefix
import proofs.«177555_j3504693313563_2_alg».proof.Proof.RegEnc
import proofs.«177555_j3504693313563_2_alg».proof.Proof.RegScale
import proofs.«177555_j3504693313563_2_alg».proof.Proof.RegCombine
import proofs.«177555_j3504693313563_2_alg».proof.Proof.RegReadout

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Facts₀ Cert.KernelIdeal.Facts Cert.KernelIdeal.Gen Cert.KernelIdeal.KSpec
open Cert.KernelIdeal.Regions
open Idealize.ShloMosaic.Pipeline (Dat Cfg Window)

section Base
variable (m : (ℓ : Loc nD τ sig) → Buf (Elt Ideal) ℓ) (ρ : Dev nD → PrngReg) (c : Dev nD)

/-- The encoder's output, of the arguments as launched. -/
def H0 : S100000x16.Idx → EReal :=
  encG (m ((c : Thread nD τ).loc main_arg0)) (m ((c : Thread nD τ).loc main_arg2))
    (shapeCast S1x16 (m ((c : Thread nD τ).loc main_arg3)) Facts₀.shapeCasts_S16_S1x16)
    (m ((c : Thread nD τ).loc main_arg4))
    (shapeCast S1x16 (m ((c : Thread nD τ).loc main_arg5)) Facts₀.shapeCasts_S16_S1x16)

/-- At the encoder launch's exit: the padded lists as the host chain left them, and the encoder's output. -/
theorem fixed0 : W4 m ρ c (Proc.devRef .tc main_v31) = padI (kSrc (ei m c))
    ∧ W4 m ρ c (Proc.devRef .tc main_v33) = padI (kDst (ei m c))
    ∧ W4 m ρ c (Proc.devRef .tc main_v36) = padW (kNorm (ei m c))
    ∧ W4 m ρ c (Proc.devRef .tc main_v39) = H0 m c := by
  refine ⟨(W4_of_ne m ρ c main_v31 (by decide)).trans (srcp_entry m ρ c),
    (W4_of_ne m ρ c main_v33 (by decide)).trans (dstp_entry m ρ c),
    (W4_of_ne m ρ c main_v36 (by decide)).trans (nrm_entry m ρ c), ?_⟩
  refine ((W4_arr m ρ c 5).trans (final0 (V3 m ρ) c)).trans ?_
  show encG (W3 m ρ c (Proc.devRef .tc main_arg0)) (W3 m ρ c (Proc.devRef .tc main_arg2))
      (W3 m ρ c (Proc.devRef .tc main_v37)) (W3 m ρ c (Proc.devRef .tc main_arg4))
      (W3 m ρ c (Proc.devRef .tc main_v38)) = H0 m c
  rw [x_entry, w1_entry, b1_entry, w2_entry, b2_entry]
  rfl

theorem feat0 : W4 m ρ c (Proc.devRef .tc main_v39)
    = (kStep (padI (kSrc (ei m c))) (padI (kDst (ei m c))) (padW (kNorm (ei m c))) (H0 m c))^[0] (H0 m c) :=
  (fixed0 m ρ c).2.2.2

end Base

/-! ## One propagation round, across its four boundaries

Round `k` (`k = 0 … 9`) runs from boundary `4k + 4` (the exit of the launch that wrote the current features) to boundary
`4k + 8`: a stretch of host operations (the gather), the scale launch `2k + 1`, a stretch (the scatter-add), the combine
launch `2k + 2`. The printed program numbers every buffer, stretch and launch of every round apart, so the statement
and its proof are one text in which only those numbers change: the macro below writes it at a given `k`. -/

open Lean in
/-- `propagation_round k`: the features after round `k` are `kStep` of the features before it, and the four buffers the
    rounds only read (padded source and destination numbers, padded weights, encoder output) are as before the round. -/
macro "propagation_round " kk:num : command => do
  let k := kk.getNat
  let i (s : String) : Ident := mkIdent (Name.mkSimple s)
  let wA := i s!"W{4*k+4}"; let wB := i s!"W{4*k+5}"; let wC := i s!"W{4*k+6}"; let wD := i s!"W{4*k+7}"; let wE := i s!"W{4*k+8}"
  let vB := i s!"V{4*k+5}"; let vD := i s!"V{4*k+7}"
  let wCarr := i s!"W{4*k+6}_arr"; let wEarr := i s!"W{4*k+8}_arr"
  let wCne := i s!"W{4*k+6}_of_ne"; let wEne := i s!"W{4*k+8}_of_ne"
  let ops1 := i s!"hostOps{2*k+1}"; let ops2 := i s!"hostOps{2*k+2}"
  let fin1 := i s!"final{2*k+1}"; let fin2 := i s!"final{2*k+2}"
  let dat1 := i s!"dat{2*k+1}"; let dat2 := i s!"dat{2*k+2}"
  let aeq1 := i s!"A_eq{2*k+1}"; let aeq2 := i s!"A_eq{2*k+2}"
  let hin := i (if k = 0 then "main_v39" else s!"main_v{51+12*(k-1)}")
  let gath := i s!"main_v{46+12*k}"; let msg := i s!"main_v{47+12*k}"
  let agg := i s!"main_v{50+12*k}"; let hout := i s!"main_v{51+12*k}"
  let round := i s!"round{k}"; let keep := i s!"keep{k}"
  let fixedA := i s!"fixed{k}"; let fixedE := i s!"fixed{k+1}"; let featA := i s!"feat{k}"; let featE := i s!"feat{k+1}"
  let nE := Syntax.mkNumLit (toString (k+1))
  `(
  set_option maxHeartbeats 2000000 in
  theorem $keep (m : (ℓ : Loc nD τ sig) → Buf (Elt Ideal) ℓ) (ρ : Dev nD → PrngReg) (c : Dev nD) :
      $wE m ρ c (Proc.devRef .tc main_v31) = $wA m ρ c (Proc.devRef .tc main_v31)
      ∧ $wE m ρ c (Proc.devRef .tc main_v33) = $wA m ρ c (Proc.devRef .tc main_v33)
      ∧ $wE m ρ c (Proc.devRef .tc main_v36) = $wA m ρ c (Proc.devRef .tc main_v36)
      ∧ $wE m ρ c (Proc.devRef .tc main_v39) = $wA m ρ c (Proc.devRef .tc main_v39) := by
    -- a stretch of host operations leaves a buffer it does not write as it was
    have hB : ∀ b : Ref sig .tc, b = main_v31 ∨ b = main_v33 ∨ b = main_v36 ∨ b = main_v39 →
        $wB m ρ c (Proc.devRef .tc b) = $wA m ρ c (Proc.devRef .tc b) := by
      intro b hb
      show StableHlo.after $ops1 ($wA m ρ c) (Proc.devRef .tc b) = _
      rcases hb with h | h | h | h <;> subst h <;> after_results
    have hD : ∀ b : Ref sig .tc, b = main_v31 ∨ b = main_v33 ∨ b = main_v36 ∨ b = main_v39 →
        $wD m ρ c (Proc.devRef .tc b) = $wC m ρ c (Proc.devRef .tc b) := by
      intro b hb
      show StableHlo.after $ops2 ($wC m ρ c) (Proc.devRef .tc b) = _
      rcases hb with h | h | h | h <;> subst h <;> after_results
    -- a launch leaves a buffer that is none of its arrays as it was, and an input window's array as it was
    have s36 : $wC m ρ c (Proc.devRef .tc main_v36) = $wB m ρ c (Proc.devRef .tc main_v36) :=
      ($wCarr m ρ c 1).trans ((($dat1 ($vB m ρ) c).arrAt_in 1 rfl _).trans ($aeq1 ($vB m ρ) c 1))
    have c39 : $wE m ρ c (Proc.devRef .tc main_v39) = $wD m ρ c (Proc.devRef .tc main_v39) :=
      ($wEarr m ρ c 1).trans ((($dat2 ($vD m ρ) c).arrAt_in 1 rfl _).trans ($aeq2 ($vD m ρ) c 1))
    refine ⟨?_, ?_, ?_, ?_⟩
    · exact (($wEne m ρ c main_v31 (by decide)).trans (hD _ (.inl rfl))).trans
        (($wCne m ρ c main_v31 (by decide)).trans (hB _ (.inl rfl)))
    · exact (($wEne m ρ c main_v33 (by decide)).trans (hD _ (.inr (.inl rfl)))).trans
        (($wCne m ρ c main_v33 (by decide)).trans (hB _ (.inr (.inl rfl))))
    · exact (($wEne m ρ c main_v36 (by decide)).trans (hD _ (.inr (.inr (.inl rfl))))).trans
        (s36.trans (hB _ (.inr (.inr (.inl rfl)))))
    · exact (c39.trans (hD _ (.inr (.inr (.inr rfl))))).trans
        (($wCne m ρ c main_v39 (by decide)).trans (hB _ (.inr (.inr (.inr rfl)))))

  set_option maxHeartbeats 2000000 in
  theorem $round (m : (ℓ : Loc nD τ sig) → Buf (Elt Ideal) ℓ) (ρ : Dev nD → PrngReg) (c : Dev nD) :
      $wE m ρ c (Proc.devRef .tc $hout)
        = kStep ($wA m ρ c (Proc.devRef .tc main_v31)) ($wA m ρ c (Proc.devRef .tc main_v33))
            ($wA m ρ c (Proc.devRef .tc main_v36)) ($wA m ρ c (Proc.devRef .tc main_v39))
            ($wA m ρ c (Proc.devRef .tc $hin)) := by
    -- the gather stretch
    have g1 : $wB m ρ c (Proc.devRef .tc $gath)
        = Host.gather gather_S100000x16_S5103616x1_S5103616x16_1_0_n_n_0_1_116 ($wA m ρ c (Proc.devRef .tc $hin))
            (broadcastInDim S5103616x1 ![0] Facts₀.bcast_S5103616_S5103616x1_0 (fixP ($wA m ρ c (Proc.devRef .tc main_v31)))) := by
      show StableHlo.after $ops1 ($wA m ρ c) (Proc.devRef .tc $gath) = _
      after_results
      try rfl
    have g36 : $wB m ρ c (Proc.devRef .tc main_v36) = $wA m ρ c (Proc.devRef .tc main_v36) := by
      show StableHlo.after $ops1 ($wA m ρ c) (Proc.devRef .tc main_v36) = _
      after_results
    have g33 : $wB m ρ c (Proc.devRef .tc main_v33) = $wA m ρ c (Proc.devRef .tc main_v33) := by
      show StableHlo.after $ops1 ($wA m ρ c) (Proc.devRef .tc main_v33) = _
      after_results
    have g39 : $wB m ρ c (Proc.devRef .tc main_v39) = $wA m ρ c (Proc.devRef .tc main_v39) := by
      show StableHlo.after $ops1 ($wA m ρ c) (Proc.devRef .tc main_v39) = _
      after_results
    -- the scale launch
    have s1 : $wC m ρ c (Proc.devRef .tc $msg)
        = scaleG ($wB m ρ c (Proc.devRef .tc $gath)) ($wB m ρ c (Proc.devRef .tc main_v36)) :=
      ($wCarr m ρ c 2).trans ($fin1 ($vB m ρ) c)
    have s33 : $wC m ρ c (Proc.devRef .tc main_v33) = $wB m ρ c (Proc.devRef .tc main_v33) :=
      $wCne m ρ c main_v33 (by decide)
    have s39 : $wC m ρ c (Proc.devRef .tc main_v39) = $wB m ρ c (Proc.devRef .tc main_v39) :=
      $wCne m ρ c main_v39 (by decide)
    -- the scatter-add stretch
    have a1 : $wD m ρ c (Proc.devRef .tc $agg)
        = Host.scatterAdd (F := Ideal) scatter_S100000x16_S5103616x1_S5103616x16_1_0_0_1
            (broadcastInDim S100000x16 ![] Facts₀.bcast_S_S100000x16 (constant (F := Ideal) S_ .f32 0x00000000#32))
            (broadcastInDim S5103616x1 ![0] Facts₀.bcast_S5103616_S5103616x1_0 ($wC m ρ c (Proc.devRef .tc main_v33)))
            ($wC m ρ c (Proc.devRef .tc $msg)) := by
      show StableHlo.after $ops2 ($wC m ρ c) (Proc.devRef .tc $agg) = _
      after_results
      try rfl
    have a39 : $wD m ρ c (Proc.devRef .tc main_v39) = $wC m ρ c (Proc.devRef .tc main_v39) := by
      show StableHlo.after $ops2 ($wC m ρ c) (Proc.devRef .tc main_v39) = _
      after_results
    -- the combine launch
    have c1 : $wE m ρ c (Proc.devRef .tc $hout)
        = combineG ($wD m ρ c (Proc.devRef .tc $agg)) ($wD m ρ c (Proc.devRef .tc main_v39)) :=
      ($wEarr m ρ c 2).trans ($fin2 ($vD m ρ) c)
    rw [c1, a1, a39, s1, s33, s39, g1, g36, g33, g39]
    rfl

  /-- After round `k` the four read-only buffers still hold the padded lists and the encoder's output. -/
  theorem $fixedE (m : (ℓ : Loc nD τ sig) → Buf (Elt Ideal) ℓ) (ρ : Dev nD → PrngReg) (c : Dev nD) :
      $wE m ρ c (Proc.devRef .tc main_v31) = padI (kSrc (ei m c))
      ∧ $wE m ρ c (Proc.devRef .tc main_v33) = padI (kDst (ei m c))
      ∧ $wE m ρ c (Proc.devRef .tc main_v36) = padW (kNorm (ei m c))
      ∧ $wE m ρ c (Proc.devRef .tc main_v39) = H0 m c := by
    obtain ⟨k1, k2, k3, k4⟩ := $keep m ρ c
    obtain ⟨f1, f2, f3, f4⟩ := $fixedA m ρ c
    exact ⟨k1.trans f1, k2.trans f2, k3.trans f3, k4.trans f4⟩

  /-- After round `k` the features are the step function iterated `k + 1` times from the encoder's output. -/
  theorem $featE (m : (ℓ : Loc nD τ sig) → Buf (Elt Ideal) ℓ) (ρ : Dev nD → PrngReg) (c : Dev nD) :
      $wE m ρ c (Proc.devRef .tc $hout)
        = (kStep (padI (kSrc (ei m c))) (padI (kDst (ei m c))) (padW (kNorm (ei m c))) (H0 m c))^[$nE] (H0 m c) := by
    obtain ⟨f1, f2, f3, f4⟩ := $fixedA m ρ c
    rw [$round:ident m ρ c]
    simp only [f1, f2, f3, f4, $featA:ident m ρ c] <;> rfl
  )

propagation_round 0
propagation_round 1
propagation_round 2
propagation_round 3
propagation_round 4
propagation_round 5
propagation_round 6
propagation_round 7
propagation_round 8
propagation_round 9

/-! ## The readout -/

section Tail
variable (m : (ℓ : Loc nD τ sig) → Buf (Elt Ideal) ℓ) (ρ : Dev nD → PrngReg) (c : Dev nD)

/-- **The kernel's result**: the readout of the ten-fold iterate of the propagation step from the encoder's output. -/
theorem kernel_value : W46 m ρ c (Proc.devRef .tc main_v161)
    = readoutG ((kStep (padI (kSrc (ei m c))) (padI (kDst (ei m c))) (padW (kNorm (ei m c))) (H0 m c))^[10] (H0 m c))
        (m ((c : Thread nD τ).loc main_arg6))
        (shapeCast S1x1 (m ((c : Thread nD τ).loc main_arg7)) Facts₀.shapeCasts_S1_S1x1) := by
  -- the last stretch: the bias reshaped; the features and the weights untouched
  have t1 : W45 m ρ c (Proc.devRef .tc main_v159) = W44 m ρ c (Proc.devRef .tc main_v159) := by
    show StableHlo.after hostOps21 (W44 m ρ c) (Proc.devRef .tc main_v159) = _
    after_results
  have t2 : W45 m ρ c (Proc.devRef .tc main_v160)
      = shapeCast S1x1 (W44 m ρ c (Proc.devRef .tc main_arg7)) Facts₀.shapeCasts_S1_S1x1 := by
    show StableHlo.after hostOps21 (W44 m ρ c) (Proc.devRef .tc main_v160) = _
    after_results
    rfl
  have t3 : W45 m ρ c (Proc.devRef .tc main_arg7) = W44 m ρ c (Proc.devRef .tc main_arg7) := by
    show StableHlo.after hostOps21 (W44 m ρ c) (Proc.devRef .tc main_arg7) = _
    after_results
  -- the two arguments the readout reads are as launched: they end as launched, and the readout launch does not write them
  have a6 : W45 m ρ c (Proc.devRef .tc main_arg6) = m ((c : Thread nD τ).loc main_arg6) :=
    (((W46_arr m ρ c 1).trans (((dat21 (V45 m ρ) c).arrAt_in 1 rfl _).trans (A_eq21 (V45 m ρ) c 1))).symm).trans
      (W46_main_arg6 m ρ c)
  have a7 : W44 m ρ c (Proc.devRef .tc main_arg7) = m ((c : Thread nD τ).loc main_arg7) :=
    (t3.symm.trans (W46_of_ne m ρ c main_arg7 (by decide)).symm).trans (W46_main_arg7 m ρ c)
  refine ((W46_arr m ρ c 3).trans (final21 (V45 m ρ) c)).trans ?_
  show readoutG (W45 m ρ c (Proc.devRef .tc main_v159)) (W45 m ρ c (Proc.devRef .tc main_arg6))
      (W45 m ρ c (Proc.devRef .tc main_v160)) = _
  rw [t1, t2, a6, a7, feat10 m ρ c]

end Tail

end Cert.KernelIdeal.KValue

end
-- ==== Proof.RefValue.lean ====
/-
  The reference program as an iteration.

  The plain jnp program is: the encoder `h₀`; ten times the propagation step
      h ↦ c₁ · segment_sum (h[src] · w, dst) + c₂ · h₀
  (gather the rows of `h` at the sign-fixed source numbers, scale each by its edge weight, scatter-add into zeros at
  the destination numbers, mix with `h₀`); the readout `h · W₃ + b₃`. Its generated stages spell the ten steps out one
  after the other, each with its own copies of the constants; every copy unfolds to the same term, so each stage IS
  the one step function `rStep` applied to the stage before — by unfolding definitions, nothing else.
-/
import proofs.«177555_j3504693313563_2_alg».proof.Proof.RefRunP
import proofs.«177555_j3504693313563_2_alg».proof.Proof.RefReadP
import Idealize.ShloMosaic.Lib.ValueIdx
import Idealize.ShloMosaic.PureOps.Ideal.Laws

set_option maxRecDepth 200000

noncomputable section

namespace Cert.ReferenceIdeal.RefValue

open Idealize.ShloMosaic Idealize.ShloMosaic.ValueIdx
open Cert.ReferenceIdeal Cert.ReferenceIdeal.Facts₀ Cert.ReferenceIdeal.Facts Cert.ReferenceIdeal.Read

/-- One propagation step of the reference, from the edge list `x1`, the encoder's output `h0` and the current features `h`. -/
def rStep (x1 : (⟨S2x5000000, .i32⟩ : BufTy).Contents (Elt Ideal)) (h0 h : FVec Ideal S100000x16 .f32) : FVec Ideal S100000x16 .f32 :=
  addf (F := Ideal) (mulf (F := Ideal) (val_main_v53 (F := Ideal))
      (Host.scatterAdd (F := Ideal) scatter_S100000x16_S5100000x1_S5100000x16_1_0_0_1 (val_main_v50 (F := Ideal)) (val_main_v51 (F := Ideal) x1)
        (mulf (F := Ideal) (Host.gather gather_S100000x16_S5100000x1_S5100000x16_1_0_n_n_0_1_116 h (val_main_v45 (F := Ideal) x1))
          (val_main_v48 (F := Ideal) x1))))
    (mulf (F := Ideal) (val_main_v55 (F := Ideal)) h0)

/-- The readout of the reference, from the final features `h`. -/
def rOut (h : FVec Ideal S100000x16 .f32) (x6 : FVec Ideal S16x1 .f32) (x7 : (⟨S1, .f32⟩ : BufTy).Contents (Elt Ideal)) :
    FVec Ideal S100000x1 .f32 :=
  addf (F := Ideal) (Host.dotGeneral (F := Ideal) dot_S100000x16_S16x1_S100000x1_1_0_0_1_n_n none h x6) (val_main_v222 (F := Ideal) x7)

section
variable (x0 : (⟨S100000x1, .f32⟩ : BufTy).Contents (Elt Ideal)) (x1 : (⟨S2x5000000, .i32⟩ : BufTy).Contents (Elt Ideal))
  (x2 : (⟨S1x16, .f32⟩ : BufTy).Contents (Elt Ideal)) (x3 : (⟨S16, .f32⟩ : BufTy).Contents (Elt Ideal))
  (x4 : (⟨S16x16, .f32⟩ : BufTy).Contents (Elt Ideal)) (x5 : (⟨S16, .f32⟩ : BufTy).Contents (Elt Ideal))
  (x6 : (⟨S16x1, .f32⟩ : BufTy).Contents (Elt Ideal)) (x7 : (⟨S1, .f32⟩ : BufTy).Contents (Elt Ideal))

theorem stage1 : val_main_v57 (F := Ideal) x0 x1 x2 x3 x4 x5 = rStep x1 (val_main_v39 (F := Ideal) x0 x2 x3 x4 x5) (val_main_v39 (F := Ideal) x0 x2 x3 x4 x5) := rfl
theorem stage2 : val_main_v75 (F := Ideal) x0 x1 x2 x3 x4 x5 = rStep x1 (val_main_v39 (F := Ideal) x0 x2 x3 x4 x5) (val_main_v57 (F := Ideal) x0 x1 x2 x3 x4 x5) := rfl
theorem stage3 : val_main_v93 (F := Ideal) x0 x1 x2 x3 x4 x5 = rStep x1 (val_main_v39 (F := Ideal) x0 x2 x3 x4 x5) (val_main_v75 (F := Ideal) x0 x1 x2 x3 x4 x5) := rfl
theorem stage4 : val_main_v111 (F := Ideal) x0 x1 x2 x3 x4 x5 = rStep x1 (val_main_v39 (F := Ideal) x0 x2 x3 x4 x5) (val_main_v93 (F := Ideal) x0 x1 x2 x3 x4 x5) := rfl
theorem stage5 : val_main_v129 (F := Ideal) x0 x1 x2 x3 x4 x5 = rStep x1 (val_main_v39 (F := Ideal) x0 x2 x3 x4 x5) (val_main_v111 (F := Ideal) x0 x1 x2 x3 x4 x5) := rfl
theorem stage6 : val_main_v147 (F := Ideal) x0 x1 x2 x3 x4 x5 = rStep x1 (val_main_v39 (F := Ideal) x0 x2 x3 x4 x5) (val_main_v129 (F := Ideal) x0 x1 x2 x3 x4 x5) := rfl
theorem stage7 : val_main_v165 (F := Ideal) x0 x1 x2 x3 x4 x5 = rStep x1 (val_main_v39 (F := Ideal) x0 x2 x3 x4 x5) (val_main_v147 (F := Ideal) x0 x1 x2 x3 x4 x5) := rfl
theorem stage8 : val_main_v183 (F := Ideal) x0 x1 x2 x3 x4 x5 = rStep x1 (val_main_v39 (F := Ideal) x0 x2 x3 x4 x5) (val_main_v165 (F := Ideal) x0 x1 x2 x3 x4 x5) := rfl
theorem stage9 : val_main_v201 (F := Ideal) x0 x1 x2 x3 x4 x5 = rStep x1 (val_main_v39 (F := Ideal) x0 x2 x3 x4 x5) (val_main_v183 (F := Ideal) x0 x1 x2 x3 x4 x5) := rfl
theorem stage10 : val_main_v219 (F := Ideal) x0 x1 x2 x3 x4 x5 = rStep x1 (val_main_v39 (F := Ideal) x0 x2 x3 x4 x5) (val_main_v201 (F := Ideal) x0 x1 x2 x3 x4 x5) := rfl

/-- The features after `k` steps: the step function iterated `k` times from the encoder's output. -/
theorem iter1 : val_main_v57 (F := Ideal) x0 x1 x2 x3 x4 x5 = (rStep x1 (val_main_v39 (F := Ideal) x0 x2 x3 x4 x5))^[1] (val_main_v39 (F := Ideal) x0 x2 x3 x4 x5) :=
  stage1 x0 x1 x2 x3 x4 x5
theorem iter2 : val_main_v75 (F := Ideal) x0 x1 x2 x3 x4 x5 = (rStep x1 (val_main_v39 (F := Ideal) x0 x2 x3 x4 x5))^[2] (val_main_v39 (F := Ideal) x0 x2 x3 x4 x5) :=
  (stage2 x0 x1 x2 x3 x4 x5).trans ((congrArg (rStep x1 (val_main_v39 (F := Ideal) x0 x2 x3 x4 x5)) (iter1 x0 x1 x2 x3 x4 x5)).trans
    (Function.iterate_succ_apply' (rStep x1 (val_main_v39 (F := Ideal) x0 x2 x3 x4 x5)) 1 _).symm)
theorem iter3 : val_main_v93 (F := Ideal) x0 x1 x2 x3 x4 x5 = (rStep x1 (val_main_v39 (F := Ideal) x0 x2 x3 x4 x5))^[3] (val_main_v39 (F := Ideal) x0 x2 x3 x4 x5) :=
  (stage3 x0 x1 x2 x3 x4 x5).trans ((congrArg (rStep x1 (val_main_v39 (F := Ideal) x0 x2 x3 x4 x5)) (iter2 x0 x1 x2 x3 x4 x5)).trans
    (Function.iterate_succ_apply' (rStep x1 (val_main_v39 (F := Ideal) x0 x2 x3 x4 x5)) 2 _).symm)
theorem iter4 : val_main_v111 (F := Ideal) x0 x1 x2 x3 x4 x5 = (rStep x1 (val_main_v39 (F := Ideal) x0 x2 x3 x4 x5))^[4] (val_main_v39 (F := Ideal) x0 x2 x3 x4 x5) :=
  (stage4 x0 x1 x2 x3 x4 x5).trans ((congrArg (rStep x1 (val_main_v39 (F := Ideal) x0 x2 x3 x4 x5)) (iter3 x0 x1 x2 x3 x4 x5)).trans
    (Function.iterate_succ_apply' (rStep x1 (val_main_v39 (F := Ideal) x0 x2 x3 x4 x5)) 3 _).symm)
theorem iter5 : val_main_v129 (F := Ideal) x0 x1 x2 x3 x4 x5 = (rStep x1 (val_main_v39 (F := Ideal) x0 x2 x3 x4 x5))^[5] (val_main_v39 (F := Ideal) x0 x2 x3 x4 x5) :=
  (stage5 x0 x1 x2 x3 x4 x5).trans ((congrArg (rStep x1 (val_main_v39 (F := Ideal) x0 x2 x3 x4 x5)) (iter4 x0 x1 x2 x3 x4 x5)).trans
    (Function.iterate_succ_apply' (rStep x1 (val_main_v39 (F := Ideal) x0 x2 x3 x4 x5)) 4 _).symm)
theorem iter6 : val_main_v147 (F := Ideal) x0 x1 x2 x3 x4 x5 = (rStep x1 (val_main_v39 (F := Ideal) x0 x2 x3 x4 x5))^[6] (val_main_v39 (F := Ideal) x0 x2 x3 x4 x5) :=
  (stage6 x0 x1 x2 x3 x4 x5).trans ((congrArg (rStep x1 (val_main_v39 (F := Ideal) x0 x2 x3 x4 x5)) (iter5 x0 x1 x2 x3 x4 x5)).trans
    (Function.iterate_succ_apply' (rStep x1 (val_main_v39 (F := Ideal) x0 x2 x3 x4 x5)) 5 _).symm)
theorem iter7 : val_main_v165 (F := Ideal) x0 x1 x2 x3 x4 x5 = (rStep x1 (val_main_v39 (F := Ideal) x0 x2 x3 x4 x5))^[7] (val_main_v39 (F := Ideal) x0 x2 x3 x4 x5) :=
  (stage7 x0 x1 x2 x3 x4 x5).trans ((congrArg (rStep x1 (val_main_v39 (F := Ideal) x0 x2 x3 x4 x5)) (iter6 x0 x1 x2 x3 x4 x5)).trans
    (Function.iterate_succ_apply' (rStep x1 (val_main_v39 (F := Ideal) x0 x2 x3 x4 x5)) 6 _).symm)
theorem iter8 : val_main_v183 (F := Ideal) x0 x1 x2 x3 x4 x5 = (rStep x1 (val_main_v39 (F := Ideal) x0 x2 x3 x4 x5))^[8] (val_main_v39 (F := Ideal) x0 x2 x3 x4 x5) :=
  (stage8 x0 x1 x2 x3 x4 x5).trans ((congrArg (rStep x1 (val_main_v39 (F := Ideal) x0 x2 x3 x4 x5)) (iter7 x0 x1 x2 x3 x4 x5)).trans
    (Function.iterate_succ_apply' (rStep x1 (val_main_v39 (F := Ideal) x0 x2 x3 x4 x5)) 7 _).symm)
theorem iter9 : val_main_v201 (F := Ideal) x0 x1 x2 x3 x4 x5 = (rStep x1 (val_main_v39 (F := Ideal) x0 x2 x3 x4 x5))^[9] (val_main_v39 (F := Ideal) x0 x2 x3 x4 x5) :=
  (stage9 x0 x1 x2 x3 x4 x5).trans ((congrArg (rStep x1 (val_main_v39 (F := Ideal) x0 x2 x3 x4 x5)) (iter8 x0 x1 x2 x3 x4 x5)).trans
    (Function.iterate_succ_apply' (rStep x1 (val_main_v39 (F := Ideal) x0 x2 x3 x4 x5)) 8 _).symm)
theorem iter10 : val_main_v219 (F := Ideal) x0 x1 x2 x3 x4 x5 = (rStep x1 (val_main_v39 (F := Ideal) x0 x2 x3 x4 x5))^[10] (val_main_v39 (F := Ideal) x0 x2 x3 x4 x5) :=
  (stage10 x0 x1 x2 x3 x4 x5).trans ((congrArg (rStep x1 (val_main_v39 (F := Ideal) x0 x2 x3 x4 x5)) (iter9 x0 x1 x2 x3 x4 x5)).trans
    (Function.iterate_succ_apply' (rStep x1 (val_main_v39 (F := Ideal) x0 x2 x3 x4 x5)) 9 _).symm)

/-- The features after the ten steps. -/
theorem features : val_main_v219 (F := Ideal) x0 x1 x2 x3 x4 x5
    = (rStep x1 (val_main_v39 (F := Ideal) x0 x2 x3 x4 x5))^[10] (val_main_v39 (F := Ideal) x0 x2 x3 x4 x5) :=
  iter10 x0 x1 x2 x3 x4 x5

/-- The reference's result: the readout of the ten-fold iterate. -/
theorem value : val_main_v223 (F := Ideal) x0 x1 x2 x3 x4 x5 x6 x7
    = rOut ((rStep x1 (val_main_v39 (F := Ideal) x0 x2 x3 x4 x5))^[10] (val_main_v39 (F := Ideal) x0 x2 x3 x4 x5)) x6 x7 := by
  rw [← features x0 x1 x2 x3 x4 x5]
  rfl

end

end Cert.ReferenceIdeal.RefValue

end
-- ==== Proof.LibGatherRow.lean ====
/-
  A row lookup read at an index. `table[idx]` for a table of `N` rows of `D` columns and `R` row numbers lowers to a
  gather whose start indices are the row numbers as an `R × 1` array: offset axis 1, operand axis 0 collapsed, start
  index map `[0]`, index vector axis 1, slice sizes `[1, D]`. Result element `(e, c)` is the table's element in
  column `c` of the row that the start index `idx[e, 0]` names, read as a signed number and clamped into `[0, N − 1]`.
-/
import Idealize.ShloMosaic.Lib.ValueIdx

namespace Cert.GatherRow

open Idealize.ShloMosaic Idealize.ShloMosaic.ValueIdx

variable {α : Type}

/-- Those dimension numbers for a table `[N, D]`, start indices `[R, 1]` and result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (e : Fin R) (c : Fin D)

/-- On the table's row axis the operand index is the clamped start index: the axis is collapsed and there is no
    batching. -/
theorem operand_row :
    (rowDims N D R wf).start (ix2 e c) idx 0 + (rowDims N D R wf).batchCoord (ix2 e c) 0
        + (rowDims N D R wf).offCoord (ix2 e c) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 e c) ⟨List.idxOf (0 : Fin 2) (rowDims N D R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the table's column axis the operand index is the result's column: the start index map does not name the axis,
    and it is the one offset axis. -/
theorem operand_col :
    (rowDims N D R wf).start (ix2 e c) idx 1 + (rowDims N D R wf).batchCoord (ix2 e c) 1
        + (rowDims N D R wf).offCoord (ix2 e c) 1
      = c.val := by
  have h1 : (1 : Fin 2) ∉ (rowDims N D R wf).startIndexMap := by
    show (1 : Fin 2) ∉ [(0 : Fin 2)]
    decide
  have hk : (1 : Fin 2) ∈ (rowDims N D R wf).sKept :=
    ((GatherDims.mem_sKept _ _).mpr ⟨by show (1 : Fin 2) ∉ [(0 : Fin 2)]; decide, List.not_mem_nil⟩)
  rw [GatherDims.batchCoord_eq_zero _ _ _ List.not_mem_nil]
  unfold GatherDims.start GatherDims.offCoord
  rw [dif_neg h1, dif_pos hk]
  simp only [Nat.zero_add]
  rfl

end

/-- The gather read at `(e, c)`: column `c` of the row the start index `idx[e, 0]` names, read signed and clamped
    into `[0, N − 1]`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (c : Fin D) :
    Host.gather (rowDims N D R wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact operand_row wf idx e c
  | ⟨1, _⟩ => exact operand_col wf idx e c

/-- A start index whose unsigned value is below the table's height names that row: read signed it is its unsigned
    value, and the clamp leaves it. -/
theorem clamp_of_lt {N : Nat} (hN : N ≤ 2 ^ 31) (v : BitVec 32) (h : v.toNat < N) :
    min v.toInt.toNat (N - 1) = v.toNat := by
  have e : v.toInt = (v.toNat : Int) := by
    rw [BitVec.toInt_eq_toNat_cond]
    split
    · rfl
    · omega
  rw [e, Int.toNat_natCast]
  omega

end Cert.GatherRow
-- ==== Proof.LibScatterRows.lean ====
/-
  A row scatter's target read off its start index. `segment_sum(v, ids)` for `R` update rows of `D` columns added into an
  operand of `N` rows lowers to a scatter whose scatter indices are the row numbers as an `R × 1` array: update window axis 1,
  inserted window axis 0, the scatter-dims-to-operand-dims map `[0]`, index vector axis 1. Update element `(e, c)` is aimed
  at row `ids[e, 0]` read as a signed number (not clamped: a row outside the operand drops the update), column `c`. So an
  update that lands on row `n` has start index `n`.
  Library imports only.
-/
import Idealize.ShloMosaic.PureOps.ShapeOps
import Idealize.ShloMosaic.Lib.ValueIdx

namespace Cert.LibScatterRows

open Idealize.ShloMosaic Idealize.ShloMosaic.ValueIdx

/-- Those dimension numbers for an operand `[N, D]`, scatter indices `[R, 1]` and updates `[R, D]`. -/
abbrev rowDims (N D R : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

variable {N D R w : Nat} (wf : ScatterDims.WF ⟨2, ![N, D]⟩ ⟨2, ![R, 1]⟩ ⟨2, ![R, D]⟩ [1] [0] [0] 1)
  (idx : IVec ⟨2, ![R, 1]⟩ w) (e : Fin R) (c : Fin D)

/-- On the operand's row axis the window starts at the start index `idx[e, 0]`, read signed. -/
theorem start_row : (rowDims N D R wf).start (ix2 e c) idx 0 = (idx (ix2 e (0 : Fin 1))).toInt := by
  unfold ScatterDims.start
  rw [dif_pos (show (0 : Fin 2) ∈ (rowDims N D R wf).scatterDimsToOperandDims from List.mem_singleton.mpr rfl)]
  have hsi : (rowDims N D R wf).siIdx (ix2 e c) ⟨List.idxOf (0 : Fin 2) (rowDims N D R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is an inserted window axis: the window coordinate there is 0. -/
theorem window_row : (rowDims N D R wf).window (ix2 e c) 0 = 0 := by
  unfold ScatterDims.window
  rw [dif_neg]
  show (0 : Fin 2) ∉ (⟨2, ![N, D]⟩ : Shape).kept [(0 : Fin 2)]
  simp [Shape.kept, List.mem_filter]

/-- An update element that lands on row `n` has start index `n`. -/
theorem row_of_resultIdx? (n : Fin N) (q : Fin D)
    (h : (rowDims N D R wf).resultIdx? (ix2 e c) idx = some (ix2 n q)) :
    (idx (ix2 e (0 : Fin 1))).toInt = (n.val : Int) := by
  unfold ScatterDims.resultIdx? at h
  split at h
  · rename_i hb
    have e0 := congrArg (fun k => (k (0 : Fin 2)).val) (Option.some.inj h)
    dsimp only at e0
    have h0 := (hb 0).1
    rw [start_row, window_row] at h0 e0
    have : ((idx (ix2 e (0 : Fin 1))).toInt + ((0 : Nat) : Int)).toNat = n.val := e0
    rw [Nat.cast_zero, Int.add_zero] at this h0
    rw [← this]
    exact (Int.toNat_of_nonneg h0).symm
  · exact absurd h (by simp)

end Cert.LibScatterRows
-- ==== Proof.LibScatterInit.lean ====
/-
  A scatter-add into an operand is the operand plus a scatter-add into zeros.

  At the ideal reading the host's accumulating scatter gives, at every index, the operand's entry plus the sum of the
  updates that land there.  So adding the same updates at the same places into x, or into an all-zero array and then
  adding x, is the same array: x i + Σ u = x i + (0 + Σ u).  No finiteness is asked: only that 0 is neutral.
  Any shapes, any dimension numbers.  Library imports only.
-/
import Idealize.ShloMosaic.PureOps.Ideal.Laws
import Idealize.ShloMosaic.Lib.ValueIdx

noncomputable section

namespace Cert.LibScatterInit

open Idealize.ShloMosaic Idealize.ShloMosaic.ValueIdx

/-- The accumulating scatter at an index: the operand's entry plus the sum of the updates landing there. -/
theorem scatterAdd_apply {s si su : Shape} {φ : FTy} {w : ℕ} (d : ScatterDims s si su) (x : FVec Ideal s φ)
    (idx : IVec si w) (u : FVec Ideal su φ) (i : s.Idx) :
    Host.scatterAdd d x idx u i = x i + ∑ j ∈ Finset.univ.filter (fun j => d.resultIdx? j idx = some i), u j := rfl

/-- Scatter-adding into x is x plus the scatter-add of the same updates into any array z that is zero everywhere. -/
theorem scatterAdd_eq_add_zeros {s si su : Shape} {φ : FTy} {w : ℕ} (d : ScatterDims s si su) (x z : FVec Ideal s φ)
    (hz : ∀ i, z i = 0) (idx : IVec si w) (u : FVec Ideal su φ) :
    Host.scatterAdd d x idx u = addf x (Host.scatterAdd d z idx u) := by
  funext i
  rw [addf_apply, scatterAdd_apply, scatterAdd_apply, hz i, zero_add]

end Cert.LibScatterInit

end
-- ==== Proof.LibPadScatter.lean ====
/-
  A row scatter-add with trailing zero updates.

  `segment_sum(v, ids)` adds row `e` of `v` into row `ids[e]` of the result. Lengthen `v` and `ids` by `P` further rows:
  if the further rows of `v` are all zero, they add nothing wherever their row numbers point (an index outside the
  operand drops the update, one inside adds 0), so the result is the one of the first `R` rows alone. On the extended
  reals this asks nothing of the entries: a sum gains only zeros.

  The reason is that where an update element `(e, c)` lands depends on nothing but its start index `ids[e, 0]` and its
  column `c` — not on how many update rows there are.

  Operand `[N, D]`, scatter indices `[R, 1]`, updates `[R, D]`, update window axis 1, inserted window axis 0, the
  scatter-dims-to-operand-dims map `[0]`, index vector axis 1. Library imports, and the two companion files on a
  scatter-add read at an index and on a row scatter's start index.
-/
import Idealize.ShloMosaic.PureOps.Ideal.Laws
import Idealize.ShloMosaic.Lib.ValueIdx
import proofs.«177555_j3504693313563_2_alg».proof.Proof.LibScatterInit
import proofs.«177555_j3504693313563_2_alg».proof.Proof.LibScatterRows

noncomputable section

namespace Cert.LibPadScatter

open Idealize.ShloMosaic Idealize.ShloMosaic.ValueIdx Cert.LibScatterRows Cert.LibScatterInit

/-- Where an update element lands is a function of "window start + window coordinate" on every operand axis: two
    scatters into one operand shape that agree on those sums agree on the landing place (or on dropping the update). -/
theorem resultIdx?_congr {s si u si' u' : Shape} {w : Nat} (d : ScatterDims s si u) (d' : ScatterDims s si' u')
    (j : u.Idx) (idx : IVec si w) (j' : u'.Idx) (idx' : IVec si' w)
    (h : ∀ a, d.start j idx a + d.window j a = d'.start j' idx' a + d'.window j' a) :
    d.resultIdx? j idx = d'.resultIdx? j' idx' := by
  unfold ScatterDims.resultIdx?
  simp only [h]

section Row
variable {N D R w : Nat} (wf : ScatterDims.WF ⟨2, ![N, D]⟩ ⟨2, ![R, 1]⟩ ⟨2, ![R, D]⟩ [1] [0] [0] 1)
  (idx : IVec ⟨2, ![R, 1]⟩ w) (e : Fin R) (c : Fin D)

/-- On the operand's column axis the window starts at 0: the start index map does not name the axis. -/
theorem start_col : (rowDims N D R wf).start (ix2 e c) idx 1 = 0 := by
  unfold ScatterDims.start
  rw [dif_neg]
  show (1 : Fin 2) ∉ [(0 : Fin 2)]
  decide

/-- The column axis is the one window axis: the window coordinate there is the update's column. -/
theorem window_col : (rowDims N D R wf).window (ix2 e c) 1 = c.val := by
  unfold ScatterDims.window
  have hk : (1 : Fin 2) ∈ (rowDims N D R wf).sKept := by
    show (1 : Fin 2) ∈ (⟨2, ![N, D]⟩ : Shape).kept [(0 : Fin 2)]
    simp [Shape.kept, List.mem_filter]
  rw [dif_pos hk]
  rfl

end Row

/-- A row scatter's landing place for update element `(e, c)` is decided by the start index `ids[e, 0]` and the column
    `c` alone, whatever the number of update rows. -/
theorem row_resultIdx?_congr {N D R R' w : Nat}
    (wf : ScatterDims.WF ⟨2, ![N, D]⟩ ⟨2, ![R, 1]⟩ ⟨2, ![R, D]⟩ [1] [0] [0] 1)
    (wf' : ScatterDims.WF ⟨2, ![N, D]⟩ ⟨2, ![R', 1]⟩ ⟨2, ![R', D]⟩ [1] [0] [0] 1)
    (idx : IVec ⟨2, ![R, 1]⟩ w) (idx' : IVec ⟨2, ![R', 1]⟩ w) (e : Fin R) (e' : Fin R') (c : Fin D)
    (h : idx' (ix2 e' (0 : Fin 1)) = idx (ix2 e (0 : Fin 1))) :
    (rowDims N D R' wf').resultIdx? (ix2 e' c) idx' = (rowDims N D R wf).resultIdx? (ix2 e c) idx := by
  refine resultIdx?_congr _ _ _ _ _ _ (fun a => ?_)
  match a with
  | ⟨0, _⟩ =>
    show (rowDims N D R' wf').start (ix2 e' c) idx' 0 + ((rowDims N D R' wf').window (ix2 e' c) 0 : Nat)
      = (rowDims N D R wf).start (ix2 e c) idx 0 + ((rowDims N D R wf).window (ix2 e c) 0 : Nat)
    rw [start_row, window_row, start_row, window_row, h]
  | ⟨1, _⟩ =>
    show (rowDims N D R' wf').start (ix2 e' c) idx' 1 + ((rowDims N D R' wf').window (ix2 e' c) 1 : Nat)
      = (rowDims N D R wf).start (ix2 e c) idx 1 + ((rowDims N D R wf).window (ix2 e c) 1 : Nat)
    rw [start_col, window_col, start_col, window_col]

/-- **Trailing zero updates add nothing.** Updates `u'` of `R + P` rows whose first `R` rows are `u`, aimed by row numbers
    whose first `R` are those of `u`, and whose last `P` rows are zero: the two scatter-adds into one operand are one
    array. No entry is asked to be finite. -/
theorem scatterAdd_pad {N D R P w : Nat} {φ : FTy}
    (wf : ScatterDims.WF ⟨2, ![N, D]⟩ ⟨2, ![R, 1]⟩ ⟨2, ![R, D]⟩ [1] [0] [0] 1)
    (wf' : ScatterDims.WF ⟨2, ![N, D]⟩ ⟨2, ![R + P, 1]⟩ ⟨2, ![R + P, D]⟩ [1] [0] [0] 1)
    (z : FVec Ideal ⟨2, ![N, D]⟩ φ) (idx : IVec ⟨2, ![R, 1]⟩ w) (idx' : IVec ⟨2, ![R + P, 1]⟩ w)
    (u : FVec Ideal ⟨2, ![R, D]⟩ φ) (u' : FVec Ideal ⟨2, ![R + P, D]⟩ φ)
    (hidx : ∀ e : Fin R, idx' (ix2 (Fin.castAdd P e) (0 : Fin 1)) = idx (ix2 e (0 : Fin 1)))
    (hu : ∀ (e : Fin R) (c : Fin D), u' (ix2 (Fin.castAdd P e) c) = u (ix2 e c))
    (hpad : ∀ (p : Fin P) (c : Fin D), u' (ix2 (Fin.natAdd R p) c) = 0) :
    Host.scatterAdd (rowDims N D (R + P) wf') z idx' u' = Host.scatterAdd (rowDims N D R wf) z idx u := by
  funext i
  rw [scatterAdd_apply, scatterAdd_apply]
  congr 1
  rw [Finset.sum_filter, Finset.sum_filter, sum_idx2, sum_idx2, Fin.sum_univ_add]
  have hz : (∑ p : Fin P, ∑ c : Fin D,
      if (rowDims N D (R + P) wf').resultIdx? (ix2 (Fin.natAdd R p) c) idx' = some i
        then u' (ix2 (Fin.natAdd R p) c) else 0) = 0 :=
    Finset.sum_eq_zero fun p _ => Finset.sum_eq_zero fun c _ => by rw [hpad]; exact ite_self 0
  rw [hz, add_zero]
  refine Finset.sum_congr rfl fun e _ => Finset.sum_congr rfl fun c _ => ?_
  rw [row_resultIdx?_congr wf wf' idx idx' e (Fin.castAdd P e) c (hidx e), hu]

end Cert.LibPadScatter

end
-- ==== Proof.LibPadStep.lean ====
/-
  Message passing with padded edges.

  One round of message passing over `R` edges: gather row `src[e]` of the node features `h`, scale it by the edge's weight,
  add it into row `dst[e]` of an array of zeros. Pad the three edge lists to `R + P` entries — any source and destination
  numbers, but weight 0 on the `P` extra edges. The extra messages are `h[src] · 0 = 0` whatever `h` holds (on the extended
  reals `x · 0 = 0` for infinite `x` too), and a scatter-add gains nothing from zero updates, so the padded round and the
  plain round give one array.

  Features `[N, D]`; edge numbers as `[R, 1]` / `[R + P, 1]` columns; the plain round's weights already laid along the rows
  (`[R, D]`), the padded round's as a column `[R + P, 1]`. Library imports and three companion lemma files.
-/
import Idealize.ShloMosaic.PureOps.Ideal.Laws
import Idealize.ShloMosaic.Lib.ValueIdx
import proofs.«177555_j3504693313563_2_alg».proof.Proof.LibGatherRow
import proofs.«177555_j3504693313563_2_alg».proof.Proof.LibScatterRows
import proofs.«177555_j3504693313563_2_alg».proof.Proof.LibPadScatter

noncomputable section

namespace Cert.LibPadStep

open Idealize.ShloMosaic Idealize.ShloMosaic.ValueIdx

/-- The padded round's messages: gathered rows times the weight column's entry of the row. -/
def scaled {R D : Nat} (g : (⟨2, ![R, D]⟩ : Shape).Idx → EReal) (w : (⟨2, ![R, 1]⟩ : Shape).Idx → EReal) :
    (⟨2, ![R, D]⟩ : Shape).Idx → EReal :=
  fun i => g i * w (ix2 (⟨(i 0).val, idx2_lt0 i⟩ : Fin R) (0 : Fin 1))

theorem scaled_ix2 {R D : Nat} (g : (⟨2, ![R, D]⟩ : Shape).Idx → EReal) (w : (⟨2, ![R, 1]⟩ : Shape).Idx → EReal)
    (e : Fin R) (c : Fin D) : scaled g w (ix2 e c) = g (ix2 e c) * w (ix2 e (0 : Fin 1)) := rfl

/-- **The padded round is the plain round.** -/
theorem round_pad {N D R P : Nat} (hN : 0 < N)
    (gwf : GatherDims.WF ⟨2, ![N, D]⟩ ⟨2, ![R, 1]⟩ ⟨2, ![R, D]⟩ [1] [0] [] [0] [] 1 ![1, D])
    (gwf' : GatherDims.WF ⟨2, ![N, D]⟩ ⟨2, ![R + P, 1]⟩ ⟨2, ![R + P, D]⟩ [1] [0] [] [0] [] 1 ![1, D])
    (swf : ScatterDims.WF ⟨2, ![N, D]⟩ ⟨2, ![R, 1]⟩ ⟨2, ![R, D]⟩ [1] [0] [0] 1)
    (swf' : ScatterDims.WF ⟨2, ![N, D]⟩ ⟨2, ![R + P, 1]⟩ ⟨2, ![R + P, D]⟩ [1] [0] [0] 1)
    (z : FVec Ideal ⟨2, ![N, D]⟩ .f32) (h : (⟨2, ![N, D]⟩ : Shape).Idx → EReal)
    (src dst : IVec ⟨2, ![R, 1]⟩ 32) (src' dst' : IVec ⟨2, ![R + P, 1]⟩ 32)
    (w : (⟨2, ![R, D]⟩ : Shape).Idx → EReal) (w' : (⟨2, ![R + P, 1]⟩ : Shape).Idx → EReal)
    (hsrc : ∀ e : Fin R, src' (ix2 (Fin.castAdd P e) (0 : Fin 1)) = src (ix2 e (0 : Fin 1)))
    (hdst : ∀ e : Fin R, dst' (ix2 (Fin.castAdd P e) (0 : Fin 1)) = dst (ix2 e (0 : Fin 1)))
    (hw : ∀ (e : Fin R) (c : Fin D), w' (ix2 (Fin.castAdd P e) (0 : Fin 1)) = w (ix2 e c))
    (hw0 : ∀ p : Fin P, w' (ix2 (Fin.natAdd R p) (0 : Fin 1)) = 0) :
    Host.scatterAdd (F := Ideal) (LibScatterRows.rowDims N D (R + P) swf') z dst'
        (scaled (Host.gather (GatherRow.rowDims N D (R + P) gwf') h src') w')
      = Host.scatterAdd (F := Ideal) (LibScatterRows.rowDims N D R swf) z dst
        (mulf (F := Ideal) (φ := .f32) (Host.gather (GatherRow.rowDims N D R gwf) h src) w) := by
  refine LibPadScatter.scatterAdd_pad swf swf' z dst dst' _ _ hdst (fun e c => ?_) (fun p c => ?_)
  · rw [scaled_ix2, mulf_apply, GatherRow.gather_row_apply hN gwf' h src' (Fin.castAdd P e) c,
      GatherRow.gather_row_apply hN gwf h src e c, hw e c]
    -- the two gathered rows are one row: the start indices agree
    refine congrArg (fun t : Fin N => h (ix2 t c) * w (ix2 e c)) (Fin.ext ?_)
    show min (src' (ix2 (Fin.castAdd P e) (0 : Fin 1))).toInt.toNat (N - 1)
      = min (src (ix2 e (0 : Fin 1))).toInt.toNat (N - 1)
    rw [hsrc e]
  · rw [scaled_ix2, hw0 p, mul_zero]

/-- The same with the padded length named on its own: `R'` rows with `R + P = R'`, the first `R` rows at their own
    numbers, the padding rows at `R + p`. -/
theorem round_pad' {N D R P R' : Nat} (hR : R + P = R') (hN : 0 < N)
    (gwf : GatherDims.WF ⟨2, ![N, D]⟩ ⟨2, ![R, 1]⟩ ⟨2, ![R, D]⟩ [1] [0] [] [0] [] 1 ![1, D])
    (gwf' : GatherDims.WF ⟨2, ![N, D]⟩ ⟨2, ![R', 1]⟩ ⟨2, ![R', D]⟩ [1] [0] [] [0] [] 1 ![1, D])
    (swf : ScatterDims.WF ⟨2, ![N, D]⟩ ⟨2, ![R, 1]⟩ ⟨2, ![R, D]⟩ [1] [0] [0] 1)
    (swf' : ScatterDims.WF ⟨2, ![N, D]⟩ ⟨2, ![R', 1]⟩ ⟨2, ![R', D]⟩ [1] [0] [0] 1)
    (z : FVec Ideal ⟨2, ![N, D]⟩ .f32) (h : (⟨2, ![N, D]⟩ : Shape).Idx → EReal)
    (src dst : IVec ⟨2, ![R, 1]⟩ 32) (src' dst' : IVec ⟨2, ![R', 1]⟩ 32)
    (w : (⟨2, ![R, D]⟩ : Shape).Idx → EReal) (w' : (⟨2, ![R', 1]⟩ : Shape).Idx → EReal)
    (hsrc : ∀ e : Fin R, src' (ix2 (⟨e.val, by omega⟩ : Fin R') (0 : Fin 1)) = src (ix2 e (0 : Fin 1)))
    (hdst : ∀ e : Fin R, dst' (ix2 (⟨e.val, by omega⟩ : Fin R') (0 : Fin 1)) = dst (ix2 e (0 : Fin 1)))
    (hw : ∀ (e : Fin R) (c : Fin D), w' (ix2 (⟨e.val, by omega⟩ : Fin R') (0 : Fin 1)) = w (ix2 e c))
    (hw0 : ∀ p : Fin P, w' (ix2 (⟨R + p.val, by omega⟩ : Fin R') (0 : Fin 1)) = 0) :
    Host.scatterAdd (F := Ideal) (LibScatterRows.rowDims N D R' swf') z dst'
        (scaled (Host.gather (GatherRow.rowDims N D R' gwf') h src') w')
      = Host.scatterAdd (F := Ideal) (LibScatterRows.rowDims N D R swf) z dst
        (mulf (F := Ideal) (φ := .f32) (Host.gather (GatherRow.rowDims N D R gwf) h src) w) := by
  subst hR
  exact round_pad hN gwf gwf' swf swf' z h src dst src' dst' w w' hsrc hdst hw hw0

end Cert.LibPadStep

end
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.LibBcastIn.lean ====
/-
  The host's broadcast_in_dim in the forms a row-wise layer meets, read at an entry.

  A scalar broadcast to any shape reads the scalar everywhere.  A vector [c] sent to [1, c] along axis 1 and then to
  [n, c] reads, at (p, q), its entry q: a bias row laid under every row.  A vector [n] sent to [n, 1] along axis 0
  reads, at (p, u), its entry p, and sent on to [n, c] reads, at (p, q), its entry p: one factor per row laid beside
  every column.  Library imports only.
-/
import Idealize.ShloMosaic.Lib.ValueIdx
import Idealize.ShloMosaic.Lib.Pipeline.Value

namespace Cert.LibBcastIn

open Idealize.ShloMosaic Idealize.ShloMosaic.ValueIdx

variable {α : Type}

/-- A scalar broadcast to a shape reads the scalar at every index. -/
theorem scalar_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- [c] → [1, c] along axis 1, at (u, q): entry q. -/
theorem row1_apply {c : ℕ} (dims : Fin (⟨1, ![c]⟩ : Shape).rank → Fin (⟨2, ![1, c]⟩ : Shape).rank) (hd : dims 0 = 1)
    (h : (⟨1, ![c]⟩ : Shape).BroadcastsInDim ⟨2, ![1, c]⟩ dims) (b : (⟨1, ![c]⟩ : Shape).Idx → α) (u : Fin 1) (q : Fin c) :
    broadcastInDim ⟨2, ![1, c]⟩ dims h b (ix2 u q) = b (ix1 q) :=
  broadcastInDim_apply dims h b (ix2 u q) (ix1 q) (fun a => by
    match a with
    | ⟨0, _⟩ =>
      show q.val = if c = 1 then 0 else ((ix2 u q) (dims 0)).val
      rw [hd]
      split
      · have := q.isLt; omega
      · rfl)

/-- [1, c] → [n, c] along axes 0 and 1, at (p, q): entry (0, q). -/
theorem rows_apply {n c : ℕ} (dims : Fin (⟨2, ![1, c]⟩ : Shape).rank → Fin (⟨2, ![n, c]⟩ : Shape).rank) (hd0 : dims 0 = 0) (hd1 : dims 1 = 1)
    (h : (⟨2, ![1, c]⟩ : Shape).BroadcastsInDim ⟨2, ![n, c]⟩ dims) (b : (⟨2, ![1, c]⟩ : Shape).Idx → α) (p : Fin n) (q : Fin c) :
    broadcastInDim ⟨2, ![n, c]⟩ dims h b (ix2 p q) = b (ix2 (0 : Fin 1) q) :=
  broadcastInDim_apply dims h b (ix2 p q) (ix2 (0 : Fin 1) q) (fun a => by
    match a with
    | ⟨0, _⟩ =>
      show (0 : ℕ) = if (1 : ℕ) = 1 then 0 else ((ix2 p q) (dims 0)).val
      rw [if_pos rfl]
    | ⟨1, _⟩ =>
      show q.val = if c = 1 then 0 else ((ix2 p q) (dims 1)).val
      rw [hd1]
      split
      · have := q.isLt; omega
      · rfl)

/-- A bias row laid under every row: [c] → [1, c] → [n, c], at (p, q): entry q. -/
theorem biasRow_apply {n c : ℕ} (d1 : Fin (⟨1, ![c]⟩ : Shape).rank → Fin (⟨2, ![1, c]⟩ : Shape).rank) (hd : d1 0 = 1)
    (h1 : (⟨1, ![c]⟩ : Shape).BroadcastsInDim ⟨2, ![1, c]⟩ d1)
    (d2 : Fin (⟨2, ![1, c]⟩ : Shape).rank → Fin (⟨2, ![n, c]⟩ : Shape).rank) (hd0 : d2 0 = 0) (hd1 : d2 1 = 1)
    (h2 : (⟨2, ![1, c]⟩ : Shape).BroadcastsInDim ⟨2, ![n, c]⟩ d2) (b : (⟨1, ![c]⟩ : Shape).Idx → α) (p : Fin n) (q : Fin c) :
    broadcastInDim ⟨2, ![n, c]⟩ d2 h2 (broadcastInDim ⟨2, ![1, c]⟩ d1 h1 b) (ix2 p q) = b (ix1 q) :=
  (rows_apply d2 hd0 hd1 h2 _ p q).trans (row1_apply d1 hd h1 b 0 q)

/-- [n] → [n, 1] along axis 0, at (p, u): entry p. -/
theorem col1_apply {n : ℕ} (dims : Fin (⟨1, ![n]⟩ : Shape).rank → Fin (⟨2, ![n, 1]⟩ : Shape).rank) (hd : dims 0 = 0)
    (h : (⟨1, ![n]⟩ : Shape).BroadcastsInDim ⟨2, ![n, 1]⟩ dims) (v : (⟨1, ![n]⟩ : Shape).Idx → α) (p : Fin n) (u : Fin 1) :
    broadcastInDim ⟨2, ![n, 1]⟩ dims h v (ix2 p u) = v (ix1 p) :=
  broadcastInDim_apply dims h v (ix2 p u) (ix1 p) (fun a => by
    match a with
    | ⟨0, _⟩ =>
      show p.val = if n = 1 then 0 else ((ix2 p u) (dims 0)).val
      rw [hd]
      split
      · have := p.isLt; omega
      · rfl)

/-- [n, 1] → [n, c] along axes 0 and 1, at (p, q): entry (p, 0). -/
theorem cols_apply {n c : ℕ} (dims : Fin (⟨2, ![n, 1]⟩ : Shape).rank → Fin (⟨2, ![n, c]⟩ : Shape).rank) (hd0 : dims 0 = 0) (hd1 : dims 1 = 1)
    (h : (⟨2, ![n, 1]⟩ : Shape).BroadcastsInDim ⟨2, ![n, c]⟩ dims) (v : (⟨2, ![n, 1]⟩ : Shape).Idx → α) (p : Fin n) (q : Fin c) :
    broadcastInDim ⟨2, ![n, c]⟩ dims h v (ix2 p q) = v (ix2 p (0 : Fin 1)) :=
  broadcastInDim_apply dims h v (ix2 p q) (ix2 p (0 : Fin 1)) (fun a => by
    match a with
    | ⟨0, _⟩ =>
      show p.val = if n = 1 then 0 else ((ix2 p q) (dims 0)).val
      rw [hd0]
      split
      · have := p.isLt; omega
      · rfl
    | ⟨1, _⟩ =>
      show (0 : ℕ) = if (1 : ℕ) = 1 then 0 else ((ix2 p q) (dims 1)).val
      rw [if_pos rfl])

end Cert.LibBcastIn
-- ==== Proof.Bridge.lean ====
/-
  The two programs compute one function.

  On the extended reals the idealized kernel and the plain jnp reference differ in exactly one place: the kernel pads its
  three edge lists with 3616 entries — source 0, destination 0, weight 0 — so that 8192 divides their length. Everything
  else is the same operations on the same values:
  * the edge numbers, degrees and edge weights are computed by the same host operations (`kSrc`, `kDst`, `kNorm` ARE the
    reference's stages, by unfolding);
  * the encoder and the readout are the same sums (a product into a zero accumulator and the host's product are one sum;
    a bias row shape-cast and laid under every row, or broadcast twice, reads the same entry);
  * one propagation round differs by the padding alone, and padded edges of weight 0 send the message `h[0] · 0 = 0`,
    which a scatter-add does not feel (`LibPadStep.round_pad`). No entry is asked to be finite anywhere.
-/
import proofs.«177555_j3504693313563_2_alg».proof.Proof.KSpec
import proofs.«177555_j3504693313563_2_alg».proof.Proof.RefValue
import proofs.«177555_j3504693313563_2_alg».proof.Proof.LibPadStep
import proofs.«177555_j3504693313563_2_alg».proof.Proof.LibConcatPair
import proofs.«177555_j3504693313563_2_alg».proof.Proof.LibBcastIn
import proofs.«177555_j3504693313563_2_alg».proof.Proof.LibColumnLayout
import proofs.«177555_j3504693313563_2_alg».proof.Proof.LibPlainDot
import Idealize.ShloMosaic.Lib.ValueLayout

set_option maxRecDepth 16384

noncomputable section

namespace Cert.Bridge

open Idealize.ShloMosaic Idealize.ShloMosaic.ValueIdx
open Cert.KernelIdeal.KSpec Cert.ReferenceIdeal.RefValue Cert.ReferenceIdeal.Read
open scoped BigOperators

/-! ## The shared host chain -/

theorem src_eq (ei : (⟨2, ![2, 5000000]⟩ : Shape).Idx → BitVec 32) : kSrc ei = val_main_v3 (F := Ideal) ei := rfl
theorem dst_eq (ei : (⟨2, ![2, 5000000]⟩ : Shape).Idx → BitVec 32) : kDst ei = val_main_v6 (F := Ideal) ei := rfl
theorem norm_eq (ei : (⟨2, ![2, 5000000]⟩ : Shape).Idx → BitVec 32) : kNorm ei = val_main_v29 (F := Ideal) ei := rfl

/-! ## Entrywise operations on row numbers -/

/-- numpy's sign fix is entrywise: at corresponding entries of two lists it gives corresponding results. -/
theorem fix_congr {s s' : Shape} (v z k : s.Idx → BitVec 32) (v' z' k' : s'.Idx → BitVec 32) (i : s.Idx) (i' : s'.Idx)
    (hv : v' i' = v i) (hz : z' i' = z i) (hk : k' i' = k i) :
    select (cmpi .slt v' z') (addi v' k') v' i' = select (cmpi .slt v z) (addi v k) v i := by
  show Scalar.select (IntOp.cmpi .slt (v' i') (z' i')) (IntOp.addi (v' i') (k' i')) (v' i')
    = Scalar.select (IntOp.cmpi .slt (v i) (z i)) (IntOp.addi (v i) (k i)) (v i)
  rw [hv, hz, hk]

/-- Row `e` of the 5100000 edges, as one of the padded list's 5103616 rows. -/
abbrev up (e : Fin 5100000) : Fin 5103616 := ⟨e.val, by omega⟩
/-- Padding row `p`, as one of the padded list's rows. -/
abbrev pad (p : Fin 3616) : Fin 5103616 := ⟨5100000 + p.val, by omega⟩

section Lists
open Cert.KernelIdeal Cert.KernelIdeal.Facts₀ Cert.KernelIdeal.Facts

/-- A padded list of numbers at one of the first 5100000 places. -/
theorem padI_up (v : S5100000.Idx → BitVec 32) (e : Fin 5100000) : padI v (ix1 (up e)) = v (ix1 e) :=
  LibConcatPair.vec_left v _ concatenates_S5100000_S3616_S5103616_d0 e (up e) rfl

/-- The padded weight column at one of the first 5100000 rows. -/
theorem padW_up (v : S5100000.Idx → EReal) (e : Fin 5100000) : padW v (ix2 (up e) (0 : Fin 1)) = v (ix1 e) := by
  unfold padW
  rw [LibColumnLayout.shapeCast_a_a1_apply]
  exact LibConcatPair.vec_left v _ concatenates_S5100000_S3616_S5103616_d0 e (up e) rfl

/-- The padded weight column at a padding row: zero. -/
theorem padW_pad (v : S5100000.Idx → EReal) (p : Fin 3616) : padW v (ix2 (pad p) (0 : Fin 1)) = 0 := by
  unfold padW
  rw [LibColumnLayout.shapeCast_a_a1_apply,
    LibConcatPair.vec_right v _ concatenates_S5100000_S3616_S5103616_d0 p (pad p) rfl,
    LibBcastIn.scalar_apply]
  exact Ideal.ofBits_zero_f32

end Lists

/-! ## One propagation round -/

section Round
open Cert.ReferenceIdeal Cert.ReferenceIdeal.Facts₀ Cert.ReferenceIdeal.Facts

variable (ei : (⟨S2x5000000, .i32⟩ : BufTy).Contents (Elt Ideal))

theorem i45 (e : Fin 5100000) (u : Fin 1) : idx_main_v45 (ix2 e u) = ix1 e :=
  funext fun a => by match a with | ⟨0, _⟩ => rfl
theorem i51 (e : Fin 5100000) (u : Fin 1) : idx_main_v51 (ix2 e u) = ix1 e :=
  funext fun a => by match a with | ⟨0, _⟩ => rfl
theorem i47 (e : Fin 5100000) (q : Fin 16) : idx_main_v47 (idx_main_v48 (ix2 e q)) = ix1 e :=
  funext fun a => by match a with | ⟨0, _⟩ => rfl

set_option maxHeartbeats 1000000 in
/-- The padded, sign-fixed source column at one of the first 5100000 rows is the reference's source column there. -/
theorem src_col (e : Fin 5100000) :
    broadcastInDim Cert.KernelIdeal.S5103616x1 ![0] Cert.KernelIdeal.Facts₀.bcast_S5103616_S5103616x1_0
        (fixP (padI (kSrc ei))) (ix2 (up e) (0 : Fin 1))
      = val_main_v45 (F := Ideal) ei (ix2 e (0 : Fin 1)) := by
  refine (LibBcastIn.col1_apply (n := 5103616) ![0] rfl Cert.KernelIdeal.Facts₀.bcast_S5103616_S5103616x1_0
    (fixP (padI (kSrc ei))) (up e) (0 : Fin 1)).trans ?_
  refine Eq.trans ?_ (val_main_v45_apply (F := Ideal) ei (ix2 e (0 : Fin 1))).symm
  rw [i45]
  unfold fixP
  refine (fix_congr (val_main_v3 (F := Ideal) ei) (val_main_v40 (F := Ideal)) (val_main_v42 (F := Ideal)) _ _ _
    (ix1 e) (ix1 (up e)) ?_ ?_ ?_).trans rfl
  · rw [padI_up, src_eq]
  · rw [LibBcastIn.scalar_apply, val_main_v40_apply]; rfl
  · rw [LibBcastIn.scalar_apply, val_main_v42_apply]; rfl

set_option maxHeartbeats 1000000 in
/-- The padded destination column at one of the first 5100000 rows is the reference's destination column there. -/
theorem dst_col (e : Fin 5100000) :
    broadcastInDim Cert.KernelIdeal.S5103616x1 ![0] Cert.KernelIdeal.Facts₀.bcast_S5103616_S5103616x1_0
        (padI (kDst ei)) (ix2 (up e) (0 : Fin 1))
      = val_main_v51 (F := Ideal) ei (ix2 e (0 : Fin 1)) := by
  refine (LibBcastIn.col1_apply (n := 5103616) ![0] rfl Cert.KernelIdeal.Facts₀.bcast_S5103616_S5103616x1_0
    (padI (kDst ei)) (up e) (0 : Fin 1)).trans ?_
  refine Eq.trans ?_ (val_main_v51_apply (F := Ideal) ei (ix2 e (0 : Fin 1))).symm
  rw [i51, padI_up, dst_eq]

set_option maxHeartbeats 1000000 in
/-- The padded weight column at one of the first 5100000 rows is the reference's weight, laid along the row. -/
theorem w_col (e : Fin 5100000) (q : Fin 16) :
    padW (kNorm ei) (ix2 (up e) (0 : Fin 1)) = val_main_v48 (F := Ideal) ei (ix2 e q) := by
  refine (padW_up (kNorm ei) e).trans ?_
  refine Eq.trans ?_ (val_main_v48_apply (F := Ideal) ei (ix2 e q)).symm
  refine Eq.trans ?_ (val_main_v47_apply (F := Ideal) ei (idx_main_v48 (ix2 e q))).symm
  rw [i47, norm_eq]

/-- The padded round in the two programs' own records, for ANY edge arrays related as padded to plain. (Stated over
    variables so that applying it never has to look inside the arrays.) -/
theorem round_key (h : Cert.KernelIdeal.S100000x16.Idx → EReal)
    (src' dst' : IVec Cert.KernelIdeal.S5103616x1 32) (w' : Cert.KernelIdeal.S5103616x1.Idx → EReal)
    (src dst : IVec S5100000x1 32) (w : S5100000x16.Idx → EReal)
    (hsrc : ∀ e : Fin 5100000, src' (ix2 (up e) (0 : Fin 1)) = src (ix2 e (0 : Fin 1)))
    (hdst : ∀ e : Fin 5100000, dst' (ix2 (up e) (0 : Fin 1)) = dst (ix2 e (0 : Fin 1)))
    (hw : ∀ (e : Fin 5100000) (q : Fin 16), w' (ix2 (up e) (0 : Fin 1)) = w (ix2 e q))
    (hw0 : ∀ p : Fin 3616, w' (ix2 (pad p) (0 : Fin 1)) = 0) :
    Host.scatterAdd (F := Ideal) Cert.KernelIdeal.scatter_S100000x16_S5103616x1_S5103616x16_1_0_0_1
        (val_main_v50 (F := Ideal)) dst'
        (scaleG (Host.gather Cert.KernelIdeal.gather_S100000x16_S5103616x1_S5103616x16_1_0_n_n_0_1_116 h src') w')
      = Host.scatterAdd (F := Ideal) scatter_S100000x16_S5100000x1_S5100000x16_1_0_0_1 (val_main_v50 (F := Ideal)) dst
        (mulf (F := Ideal) (φ := .f32) (Host.gather gather_S100000x16_S5100000x1_S5100000x16_1_0_n_n_0_1_116 h src) w) :=
  LibPadStep.round_pad' (N := 100000) (D := 16) (R := 5100000) (P := 3616) (R' := 5103616) rfl (by norm_num)
    gather_S100000x16_S5100000x1_S5100000x16_1_0_n_n_0_1_116_wf
    Cert.KernelIdeal.Facts₀.gather_S100000x16_S5103616x1_S5103616x16_1_0_n_n_0_1_116_wf
    scatter_S100000x16_S5100000x1_S5100000x16_1_0_0_1_wf
    Cert.KernelIdeal.Facts₀.scatter_S100000x16_S5103616x1_S5103616x16_1_0_0_1_wf
    (val_main_v50 (F := Ideal)) h src dst src' dst' w w' hsrc hdst hw hw0

/-- The kernel's array of zeros is the reference's. -/
theorem zeros_eq : broadcastInDim Cert.KernelIdeal.S100000x16 ![] Cert.KernelIdeal.Facts₀.bcast_S_S100000x16
      (constant (F := Ideal) Cert.KernelIdeal.S_ .f32 0x00000000#32) = val_main_v50 (F := Ideal) := rfl

/-- The mix, entry by entry, over any aggregated array `S`: the kernel's literals are the reference's broadcast constants. -/
theorem mix_eq (S h0 : Cert.KernelIdeal.S100000x16.Idx → EReal) :
    combineG S h0 = addf (F := Ideal) (φ := .f32) (mulf (F := Ideal) (val_main_v53 (F := Ideal)) S)
      (mulf (F := Ideal) (val_main_v55 (F := Ideal)) h0) := by
  funext i
  show Ideal.ofBits .f32 0x3F666666#32 * S i + Ideal.ofBits .f32 0x3DCCCCCD#32 * h0 i
    = val_main_v53 (F := Ideal) i * S i + val_main_v55 (F := Ideal) i * h0 i
  rw [val_main_v53_apply, val_main_cst_9_apply, val_main_v55_apply, val_main_cst_10_apply]
  rfl

/-- **One propagation round of the kernel's program is one round of the reference.** The padded edges carry weight 0. -/
theorem round_eq (h0 h : Cert.KernelIdeal.S100000x16.Idx → EReal) :
    kStep (padI (kSrc ei)) (padI (kDst ei)) (padW (kNorm ei)) h0 h = rStep ei h0 h := by
  unfold kStep rStep
  rw [zeros_eq]
  -- the six edge arrays, with what relates the padded ones to the plain ones; from here on they are opaque
  have e1 := src_col ei
  have e2 := dst_col ei
  have e3 := w_col ei
  have e4 := padW_pad (kNorm ei)
  generalize broadcastInDim Cert.KernelIdeal.S5103616x1 ![0] Cert.KernelIdeal.Facts₀.bcast_S5103616_S5103616x1_0
    (fixP (padI (kSrc ei))) = src' at e1 ⊢
  generalize broadcastInDim Cert.KernelIdeal.S5103616x1 ![0] Cert.KernelIdeal.Facts₀.bcast_S5103616_S5103616x1_0
    (padI (kDst ei)) = dst' at e2 ⊢
  generalize padW (kNorm ei) = w' at e3 e4 ⊢
  generalize val_main_v45 (F := Ideal) ei = src at e1 ⊢
  generalize val_main_v51 (F := Ideal) ei = dst at e2 ⊢
  generalize val_main_v48 (F := Ideal) ei = w at e3 ⊢
  rw [round_key h src' dst' w' src dst w e1 e2 e3 e4]
  exact mix_eq _ h0

end Round
/-! ## The encoder and the readout -/

section Ends
open Cert.ReferenceIdeal Cert.ReferenceIdeal.Facts₀ Cert.ReferenceIdeal.Facts

theorem l35 (p : Fin 100000) (q k : Fin 16) : lidx_main_v35 (ix2 p q) k = ix2 p k :=
  funext fun a => by match a with | ⟨0, _⟩ => rfl | ⟨1, _⟩ => rfl
theorem r35 (p : Fin 100000) (q k : Fin 16) : ridx_main_v35 (ix2 p q) k = ix2 k q :=
  funext fun a => by match a with | ⟨0, _⟩ => rfl | ⟨1, _⟩ => rfl
theorem l30 (p : Fin 100000) (k : Fin 16) (j : Fin 1) : lidx_main_v30 (ix2 p k) j = ix2 p j :=
  funext fun a => by match a with | ⟨0, _⟩ => rfl | ⟨1, _⟩ => rfl
theorem r30 (p : Fin 100000) (k : Fin 16) (j : Fin 1) : ridx_main_v30 (ix2 p k) j = ix2 j k :=
  funext fun a => by match a with | ⟨0, _⟩ => rfl | ⟨1, _⟩ => rfl
theorem i31 (p : Fin 100000) (k : Fin 16) : idx_main_v31 (idx_main_v32 (ix2 p k)) = ix1 k :=
  funext fun a => by match a with | ⟨0, _⟩ => rfl
theorem i36 (p : Fin 100000) (k : Fin 16) : idx_main_v36 (idx_main_v37 (ix2 p k)) = ix1 k :=
  funext fun a => by match a with | ⟨0, _⟩ => rfl

/-- **The encoders agree**: the kernel's, with its bias rows shape-cast, and the reference's stage. -/
theorem enc_eq (x : S100000x1.Idx → EReal) (w1 : S1x16.Idx → EReal) (b1 : S16.Idx → EReal) (w2 : S16x16.Idx → EReal)
    (b2 : S16.Idx → EReal) :
    encG x w1 (shapeCast Cert.KernelIdeal.S1x16 b1 Cert.KernelIdeal.Facts₀.shapeCasts_S16_S1x16) w2
        (shapeCast Cert.KernelIdeal.S1x16 b2 Cert.KernelIdeal.Facts₀.shapeCasts_S16_S1x16)
      = val_main_v39 (F := Ideal) x w1 b1 w2 b2 := by
  funext i
  obtain ⟨p, q, rfl⟩ : ∃ (p : Fin 100000) (q : Fin 16), i = ix2 p q := ⟨i 0, i 1, eq_ix2 i⟩
  simp only [val_main_v39_apply, val_main_v38_apply, val_main_v35_apply, val_main_v34_apply, val_main_v33_apply,
    val_main_v30_apply, val_main_v32_apply, val_main_v31_apply, val_main_v37_apply, val_main_v36_apply,
    val_main_call1_v0_apply, val_main_call1_cst_apply, val_main_call2_v0_apply, val_main_call2_cst_apply,
    l35, r35, l30, r30, i31, i36]
  show max ((∑ k : Fin 16, max ((∑ j : Fin 1, x (ix2 p j) * w1 (ix2 j k))
        + shapeCast Cert.KernelIdeal.S1x16 b1 Cert.KernelIdeal.Facts₀.shapeCasts_S16_S1x16 (ix2 (0 : Fin 1) k))
          (Ideal.ofBits .f32 0x00000000#32) * w2 (ix2 k q))
      + shapeCast Cert.KernelIdeal.S1x16 b2 Cert.KernelIdeal.Facts₀.shapeCasts_S16_S1x16 (ix2 (0 : Fin 1) q))
      (Ideal.ofBits .f32 0x00000000#32) = _
  simp only [shapeCast_a_1a_apply]
  rfl

theorem l220 (p : Fin 100000) (u : Fin 1) (k : Fin 16) : lidx_main_v220 (ix2 p u) k = ix2 p k :=
  funext fun a => by match a with | ⟨0, _⟩ => rfl | ⟨1, _⟩ => rfl
theorem r220 (p : Fin 100000) (u : Fin 1) (k : Fin 16) : ridx_main_v220 (ix2 p u) k = ix2 k u :=
  funext fun a => by match a with | ⟨0, _⟩ => rfl | ⟨1, _⟩ => rfl

/-- **The readouts agree.** -/
theorem out_eq (h : S100000x16.Idx → EReal) (w3 : S16x1.Idx → EReal) (b3 : S1.Idx → EReal) :
    readoutG h w3 (shapeCast Cert.KernelIdeal.S1x1 b3 Cert.KernelIdeal.Facts₀.shapeCasts_S1_S1x1) = rOut h w3 b3 := by
  funext i
  obtain ⟨p, u, rfl⟩ : ∃ (p : Fin 100000) (u : Fin 1), i = ix2 p u := ⟨i 0, i 1, eq_ix2 i⟩
  unfold rOut
  rw [addf_apply, val_main_v222_apply, val_main_v221_apply]
  show (∑ k : Fin 16, h (ix2 p k) * w3 (ix2 k u))
      + shapeCast Cert.KernelIdeal.S1x1 b3 Cert.KernelIdeal.Facts₀.shapeCasts_S1_S1x1 (ix2 (0 : Fin 1) u) = _
  rw [shapeCast_a_1a_apply]
  refine congrArg₂ (· + ·) ?_ ?_
  · exact (LibPlainDot.dotGeneral_apply dot_S100000x16_S16x1_S100000x1_1_0_0_1_n_n_wf none _ h w3 p u).symm
  · refine congrArg b3 (funext fun a => ?_)
    match a with
    | ⟨0, _⟩ => exact Fin.ext (by have := u.isLt; show u.val = 0; omega)

end Ends

/-! ## The two results -/

section Result
open Cert.ReferenceIdeal

/-- **The kernel's value is the reference's value**, as functions of the eight arguments. -/
theorem result_eq (x0 : S100000x1.Idx → EReal) (x1 : (⟨S2x5000000, .i32⟩ : BufTy).Contents (Elt Ideal))
    (x2 : S1x16.Idx → EReal) (x3 : S16.Idx → EReal) (x4 : S16x16.Idx → EReal) (x5 : S16.Idx → EReal)
    (x6 : S16x1.Idx → EReal) (x7 : S1.Idx → EReal) :
    readoutG
        ((kStep (padI (kSrc x1)) (padI (kDst x1)) (padW (kNorm x1))
            (encG x0 x2 (shapeCast Cert.KernelIdeal.S1x16 x3 Cert.KernelIdeal.Facts₀.shapeCasts_S16_S1x16) x4
              (shapeCast Cert.KernelIdeal.S1x16 x5 Cert.KernelIdeal.Facts₀.shapeCasts_S16_S1x16)))^[10]
          (encG x0 x2 (shapeCast Cert.KernelIdeal.S1x16 x3 Cert.KernelIdeal.Facts₀.shapeCasts_S16_S1x16) x4
            (shapeCast Cert.KernelIdeal.S1x16 x5 Cert.KernelIdeal.Facts₀.shapeCasts_S16_S1x16)))
        x6 (shapeCast Cert.KernelIdeal.S1x1 x7 Cert.KernelIdeal.Facts₀.shapeCasts_S1_S1x1)
      = val_main_v223 (F := Ideal) x0 x1 x2 x3 x4 x5 x6 x7 := by
  rw [Cert.ReferenceIdeal.RefValue.value, enc_eq, out_eq]
  have hf : kStep (padI (kSrc x1)) (padI (kDst x1)) (padW (kNorm x1)) (val_main_v39 (F := Ideal) x0 x2 x3 x4 x5)
      = rStep x1 (val_main_v39 (F := Ideal) x0 x2 x3 x4 x5) := funext fun h => round_eq x1 _ h
  rw [hf]

end Result

end Cert.Bridge

end
-- ==== Proof.lean ====
/-
  An APPNP regressor on a 100000-node, 5000000-edge graph: the Pallas kernel program against its plain jnp reference.

  Both programs compute, on the extended reals,
      out = readout (step¹⁰ (enc x)),   step h = c₁ · segment_sum (h[src] · w, dst) + c₂ · enc x,
  with `src`, `dst` the edge numbers extended by one self-loop per node and `w = dinv[src] · dinv[dst]` the symmetric
  degree normalisation. The kernel program runs the encoder, the edge-wise scaling, the mix and the readout as pipelined
  kernels (22 launches) and leaves the gathers and scatter-adds to the host; to tile the edges by 8192 it pads the three
  edge lists with 3616 edges of weight 0.

  * The three frames: the two kernel programs' are generated whole; the reference's is its run with the result dropped.
  * `preserves`: the idealization rewrote nothing.
  * `algebraic`: the kernel's run ends with its result buffer at the last segment boundary's contents (KernelRun), which
    read back through the 46 segments are the readout of the ten-fold iterate of one propagation round from the encoder's
    output (KValue, over the per-launch closed forms RegEnc / RegScale / RegCombine / RegReadout); the reference's run ends
    at the same expression with its own round (RefValue); and the two rounds are one function, because a message of
    weight 0 is 0 and a scatter-add does not feel zero updates (Bridge, LibPadStep). Nothing is asked to be finite.
-/
import proofs.«177555_j3504693313563_2_alg».proof.Defs
import proofs.«177555_j3504693313563_2_alg».proof.Proof.Gen.Kernel
import proofs.«177555_j3504693313563_2_alg».proof.Proof.Gen.Kernel.Frame
import proofs.«177555_j3504693313563_2_alg».proof.Proof.Gen.KernelIdeal
import proofs.«177555_j3504693313563_2_alg».proof.Proof.Gen.KernelIdeal.Frame
import proofs.«177555_j3504693313563_2_alg».proof.Proof.Gen.ReferenceIdeal
import proofs.«177555_j3504693313563_2_alg».proof.Proof.Gen.Pre_finite_inputs
import proofs.«177555_j3504693313563_2_alg».proof.Proof.KernelRun
import proofs.«177555_j3504693313563_2_alg».proof.Proof.KValue
import proofs.«177555_j3504693313563_2_alg».proof.Proof.RefRunP
import proofs.«177555_j3504693313563_2_alg».proof.Proof.RefReadP
import proofs.«177555_j3504693313563_2_alg».proof.Proof.RefValue
import proofs.«177555_j3504693313563_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one array: the kernel's at the last boundary's contents, the reference's at its
    composed term, and the two are the same function of arguments that agree. -/
theorem algebraic : Cert.algebraic_KernelIdeal_ReferenceIdeal := by
  intro m ρ m' ρ' _ hagree
  refine ⟨fun c => Cert.KernelIdeal.Gen.W46 m ρ c (Proc.devRef .tc Cert.KernelIdeal.main_v161),
    Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v223_eq, a0, a1, a2, a3, a4, a5, a6, a7]
  exact ((Cert.KernelIdeal.KValue.kernel_value m ρ c).trans (Cert.Bridge.result_eq _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
